-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x128 : Shape := ⟨3, ![64, 128, 128]⟩
abbrev S64 : Shape := ⟨1, ![64]⟩
abbrev S_ : Shape := ⟨0, ![]⟩

class Facts : Prop where
  bcast_S_S64x128x128 : S_.BroadcastsInDim S64x128x128 (![] : Fin 0 → Fin S64x128x128.rank)
  reducesTo_S64x128x128_S_d0_1_2 : S64x128x128.ReducesTo [0, 1, 2] S_
  h_S_ : 0 < S_.numel

variable [Facts]

def fn {F : FTy → Type} [FloatOps F] (main_arg0 : FVec F S64x128x128 .f32) (main_arg1 : IVec S64 32) : IVec S_ 1 :=
  let main_v0 : FVec F S64x128x128 .f32 := Host.absf main_arg0
  let main_cst : FVec F S_ .f32 := constant S_ .f32 0x7F800000#32
  let main_v1 : FVec F S64x128x128 .f32 := broadcastInDim S64x128x128 ![] bcast_S_S64x128x128 main_cst
  let main_v2 : IVec S64x128x128 1 := cmpf .olt main_v0 main_v1
  let main_c : IVec S_ 1 := constantI S_ 1 1#1
  let main_v3 : IVec S_ 1 := (fun x v => Host.reduce IntOp.andi x v reducesTo_S64x128x128_S_d0_1_2 h_S_) main_v2 main_c
  main_v3
-- ==== Kernel.lean ====
abbrev S64x128x128 : Shape := ⟨3, ![64, 128, 128]⟩
abbrev S64 : Shape := ⟨1, ![64]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S64x128 : Shape := ⟨2, ![64, 128]⟩
abbrev S1x64 : Shape := ⟨2, ![1, 64]⟩
abbrev S128x64 : Shape := ⟨2, ![128, 64]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 24
  | .vmem => 13
  | .smem => 0
  | _ => 0

abbrev bufTy : (tb : Table) → Fin (tcTables nBuf tb) → BufTy
  | .hbm, ⟨0, _⟩ => ⟨S64x128x128, .f32⟩
  | .hbm, ⟨1, _⟩ => ⟨S64, .i32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S64x128, .i32⟩
  | .hbm, ⟨15, _⟩ => ⟨S8192, .i32⟩
  | .hbm, ⟨16, _⟩ => ⟨S1x64, .i32⟩
  | .hbm, ⟨17, _⟩ => ⟨S128x64, .i32⟩
  | .hbm, ⟨18, _⟩ => ⟨S8192, .i32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024, .i32⟩
  | .local _ .vmem, ⟨5, _⟩ => ⟨S1024, .i32⟩
  | .local _ .vmem, ⟨6, _⟩ => ⟨S1024, .i32⟩
  | .local _ .vmem, ⟨7, _⟩ => ⟨S1024, .i32⟩
  | .local _ .vmem, ⟨8, _⟩ => ⟨S1024, .f32⟩
  | .local _ .vmem, ⟨9, _⟩ => ⟨S1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v51 : BitVec 1 := Scalar.cmpi .eq arg1 c7_i32
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x128x128_S8192x128 : S64x128x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  bcast_S64_S64x128_0 : S64.BroadcastsInDim S64x128 (![0] : Fin 1 → Fin S64x128.rank)
  shapeCasts_S64x128_S8192 : S64x128.ShapeCasts S8192
  shapeCasts_S64_S1x64 : S64.ShapeCasts S1x64
  bcast_S1x64_S128x64_0_1 : S1x64.BroadcastsInDim S128x64 (![0, 1] : Fin 2 → Fin S128x64.rank)
  shapeCasts_S128x64_S8192 : S128x64.ShapeCasts S8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024x1_S1024 : S1024x1.ShapeCasts S1024
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S8192.size a
  hwx0_2 : ∀ i : grid0.Coords, EltTy.bits .i32 = 32 ∨ (Rect.block (s := S8192) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .i32 = 32 ∨ (Rect.block (s := S8192) S1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v9) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x128x128 : Shape := ⟨3, ![64, 128, 128]⟩
abbrev S64 : Shape := ⟨1, ![64]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S64x128 : Shape := ⟨2, ![64, 128]⟩
abbrev S1x64 : Shape := ⟨2, ![1, 64]⟩
abbrev S128x64 : Shape := ⟨2, ![128, 64]⟩
abbrev S1x8192 : Shape := ⟨2, ![1, 8192]⟩

abbrev nBuf : Space → Nat
  | .hbm => 57
  | .vmem => 0
  | .smem => 0
  | _ => 0

abbrev bufTy : (tb : Table) → Fin (tcTables nBuf tb) → BufTy
  | .hbm, ⟨0, _⟩ => ⟨S64x128x128, .f32⟩
  | .hbm, ⟨1, _⟩ => ⟨S64, .i32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S64x128, .i32⟩
  | .hbm, ⟨22, _⟩ => ⟨S8192, .i32⟩
  | .hbm, ⟨23, _⟩ => ⟨S1x64, .i32⟩
  | .hbm, ⟨24, _⟩ => ⟨S128x64, .i32⟩
  | .hbm, ⟨25, _⟩ => ⟨S8192, .i32⟩
  | .hbm, ⟨26, _⟩ => ⟨S8192x1, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_cst_8 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  shapeCasts_S64x128x128_S8192x128 : S64x128x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  reducesTo_S8192x8192_S8192_d1 : S8192x8192.ReducesTo [1] S8192
  bcast_S8192x1_S8192x8192_0_1 : S8192x1.BroadcastsInDim S8192x8192 (![0, 1] : Fin 2 → Fin S8192x8192.rank)
  bcast_S64_S64x128_0 : S64.BroadcastsInDim S64x128 (![0] : Fin 1 → Fin S64x128.rank)
  shapeCasts_S64x128_S8192 : S64x128.ShapeCasts S8192
  shapeCasts_S64_S1x64 : S64.ShapeCasts S1x64
  bcast_S1x64_S128x64_0_1 : S1x64.BroadcastsInDim S128x64 (![0, 1] : Fin 2 → Fin S128x64.rank)
  shapeCasts_S128x64_S8192 : S128x64.ShapeCasts S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x1_S_d0_1 : S8192x1.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBRuns.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body at one grid point, case by case

A grid point is a pair (row block, column block). The body keeps three columns between the points of one row block:
the running maximum of the similarities seen so far, and the two running sums of exponentials (same label, different
label) taken relative to that maximum. At the FIRST column block the three columns are reset (to -inf, 0, 0) before use;
at every column block they are updated from the two feature blocks and the two label blocks; at the LAST column block the
row block's losses are written to the output block. Three cases meet the grid: first, middle, last. -/

/-- The column block is the first one (the reset is taken), as the body computes the test. -/
abbrev atFirstCol (i : grid0.Coords) : Prop := (Scalar.cmpi .ne (Scalar.extui (Scalar.cmpi .eq (BitVec.ofNat 32 (i 1).val) 0#32)) 0#32) = 1#1
/-- The column block is the last one (the losses are written), as the body computes the test. -/
abbrev atLastCol (i : grid0.Coords) : Prop := k0_cond2 i = 1#1

/-- Pieces written into a column of 1024 values. -/
abbrev ColPieces (F : FTy → Type) [FloatOps F] := List (View.Piece (Elt F) S1024x1 .f32)
/-- Pieces written into an output block of 1024 values. -/
abbrev OutPieces (F : FTy → Type) [FloatOps F] := List (View.Piece (Elt F) S1024 .f32)

set_option maxHeartbeats 2000000 in
/-- A MIDDLE column block: neither test holds. From the two feature blocks, the two label blocks and the three columns
    as the previous point left them, the body runs and leaves each column with the pieces found here written; the
    output block's buffer is not touched. -/
noncomputable def runMid (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬atFirstCol i) (hc1 : ¬atLastCol i)
    (x0 x1 : Vec F S1024x128 .bf16) (x2 x3 : Vec F S1024 .i32) (s0 s1 s2 : Vec F S1024x1 .f32) :
    Σ' (L0 : ColPieces F) (L1 : ColPieces F), { L2 : ColPieces F //
      ∀ (xo : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, fun xo E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hg0; obtain rfl := harg8.eq_unread hg1; obtain rfl := harg9.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 2000000 in
/-- The FIRST column block: the reset is taken, the losses are not written. Whatever the three columns held, the body
    overwrites them before reading them, runs, and leaves each with the pieces found here written; the output block's
    buffer is not touched. -/
noncomputable def runFirst (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : atFirstCol i) (hc1 : ¬atLastCol i)
    (x0 x1 : Vec F S1024x128 .bf16) (x2 x3 : Vec F S1024 .i32) :
    Σ' (L0 : ColPieces F) (L1 : ColPieces F), { L2 : ColPieces F //
      ∀ (xo : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, fun xo E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, HS0⟩, ⟨%d1, %g1, -, HS1⟩, ⟨%d2, %g2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 2000000 in
/-- The LAST column block: no reset, the losses are written. From the blocks and the three columns as the previous
    point left them the body runs, leaves each column with the pieces found here written, and the output block's
    buffer — whatever it held — with its pieces written. -/
noncomputable def runLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬atFirstCol i) (hc1 : atLastCol i)
    (x0 x1 : Vec F S1024x128 .bf16) (x2 x3 : Vec F S1024 .i32) (s0 s1 s2 : Vec F S1024x1 .f32) :
    Σ' (LO : OutPieces F) (L0 : ColPieces F) (L1 : ColPieces F), { L2 : ColPieces F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, ?_, fun E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, ⟨%g2, %hg2, HS2⟩, Hk⟩
    obtain rfl := harg2.eq_unread hf0; obtain rfl := harg3.eq_unread hf1; obtain rfl := harg4.eq_unread hf2; obtain rfl := harg5.eq_unread hf3
    obtain rfl := harg7.eq_unread hg0; obtain rfl := harg8.eq_unread hg1; obtain rfl := harg9.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Stream

end
-- ==== Proof.KBBody1.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Tactic
import proofs.«125412_j36936718745849_1_alg».proof.Proof.KBRuns

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The region as the host program finds it, and what one grid point leaves

Seventeen host operations run before the kernel region (the rows are normalised and the two label vectors laid out) and
four after it (the mean). The region reads the normalised matrix through TWO windows (a row block and a column block of
the same array) and the two label vectors through one window each, and writes one block of losses per row block. -/

/-- What the TensorCore buffers of core `c` hold when the region is entered: the memory after the host operations
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is: the operations before the region, the region, the operations after it; so running it reduces
    to running the region, from the contents `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The inputs' buffers hold their blocks at every point -/

theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two tests over the grid: the column block is the point's number modulo 8 -/

theorem first_iff : ∀ t : Fin cfg0.N, atFirstCol (grid0.coords t) ↔ t.val % 8 = 0 :=
  (by decide +kernel : ∀ t : Fin grid0.N, atFirstCol (grid0.coords t) ↔ t.val % 8 = 0)
theorem last_iff : ∀ t : Fin cfg0.N, atLastCol (grid0.coords t) ↔ t.val % 8 = 7 :=
  (by decide +kernel : ∀ t : Fin grid0.N, atLastCol (grid0.coords t) ↔ t.val % 8 = 7)

/-- No input window is ever idle. -/
theorem live_w0 : ∀ t : Fin cfg0.N, cfg0.idle 0 (grid0.coords t) = false := by decide +kernel
theorem live_w1 : ∀ t : Fin cfg0.N, cfg0.idle 1 (grid0.coords t) = false := by decide +kernel
theorem live_w2 : ∀ t : Fin cfg0.N, cfg0.idle 2 (grid0.coords t) = false := by decide +kernel
theorem live_w3 : ∀ t : Fin cfg0.N, cfg0.idle 3 (grid0.coords t) = false := by decide +kernel
/-- The output window is idle, and not written back, exactly where the losses are not written. -/
theorem idle_out : ∀ t : Fin cfg0.N, ¬atLastCol (grid0.coords t) → cfg0.idle 4 (grid0.coords t) = true := by decide +kernel
theorem noflush_out : ∀ t : Fin cfg0.N, ¬atLastCol (grid0.coords t) → (cfg0.win 4).flush t = false := by decide +kernel
theorem live_out : ∀ t : Fin cfg0.N, atLastCol (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
/-- The three columns kept between points: whole scoped buffers of the kernel's own. -/
abbrev colM : Memref sig .tc .vmem S1024x1 .f32 := Memref.whole cc0_scratch0
abbrev colP : Memref sig .tc .vmem S1024x1 .f32 := Memref.whole cc0_scratch1
abbrev colN : Memref sig .tc .vmem S1024x1 .f32 := Memref.whole cc0_scratch2
/-- One staging buffer of the output window, through which its contents are stated. -/
abbrev outV : View sig .tc .vmem S1024 .f32 := (Memref.whole cc0_stg4_0 : Memref sig .tc .vmem S1024 .f32).view

/-- What the launch hands the region besides the windows — the scoped buffers no window stages and the generator
    register — with the three columns as memrefs owned at some contents. -/
theorem PhiA_eq (c : Dev nD) :
    (Pipeline.ΦA spec0 c : sProp 𝕄)
      = iprop(iprop((∃ d, owns (c : Thread nD τ) colM fullShare d) ∗ (∃ d, owns (c : Thread nD τ) colP fullShare d) ∗ (∃ d, owns (c : Thread nD τ) colN fullShare d)) ∗ (∃ r, prngReg c r)) := by
  unfold Pipeline.ΦA; rw [scopedRest0_eq]; simp only [colM, colP, colN, owns_whole]; try rfl

end Cert.Kernel.Stream

end
-- ==== Proof.KBBody2.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBBody1

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the three columns hold after each grid point

Each case's run leaves every column with ONE piece written over the whole column, so the pieces cover it and what the
column holds afterwards is the pieces read back, whatever it held before. -/

/-- The three columns' contents: running maximum, running same-label sum, running other-label sum. -/
abbrev Cols (F : FTy → Type) [FloatOps F] := Vec F S1024x1 .f32 × Vec F S1024x1 .f32 × Vec F S1024x1 .f32

theorem coverMid0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).1 S1024x1.size (by sl_kernel_rfl) y
theorem coverMid1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).2.1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).2.1 S1024x1.size (by sl_kernel_rfl) y
theorem coverMid2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).2.2.1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).2.2.1 S1024x1.size (by sl_kernel_rfl) y
theorem coverFirst0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).1, y ∈ pc.1.set :=
  View.cover_of_tiledL (runFirst c i arg2 harg2 arg3 harg3 arg4 harg4 arg5 harg5 arg6 harg6 arg7 harg7 arg8 harg8 arg9 harg9 hc0 hc1 x0 x1 x2 x3 ).1 S1024x1.size (by sl_kernel_rfl) y
theorem coverFirst1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).2.1, y ∈ pc.1.set :=
  View.cover_of_tiledL (runFirst c i arg2 harg2 arg3 harg3 arg4 harg4 arg5 harg5 arg6 harg6 arg7 harg7 arg8 harg8 arg9 harg9 hc0 hc1 x0 x1 x2 x3 ).2.1 S1024x1.size (by sl_kernel_rfl) y
theorem coverFirst2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).2.2.1, y ∈ pc.1.set :=
  View.cover_of_tiledL (runFirst c i arg2 harg2 arg3 harg3 arg4 harg4 arg5 harg5 arg6 harg6 arg7 harg7 arg8 harg8 arg9 harg9 hc0 hc1 x0 x1 x2 x3 ).2.2.1 S1024x1.size (by sl_kernel_rfl) y
theorem coverLastO (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024.Idx) :
    ∃ pc ∈ (runLast c i arg2 harg2 arg3 harg3 arg4 harg4 arg5 harg5 arg6 harg6 arg7 harg7 arg8 harg8 arg9 harg9 hc0 hc1 x0 x1 x2 x3 s0 s1 s2).1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).1 S1024.size (by sl_kernel_rfl) y
theorem coverLast0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.1 S1024x1.size (by sl_kernel_rfl) y
theorem coverLast1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.2.1 S1024x1.size (by sl_kernel_rfl) y
theorem coverLast2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.2.2.1 S1024x1.size (by sl_kernel_rfl) y

/-- The columns after a middle point, from the blocks and the columns before it. -/
def colsMid (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s : Cols F) : Cols F :=
  (colM.view.read (Elt F) (colM.view.writes (Elt F) colM.view.junk (runMid c i arg2 harg2 arg3 harg3 arg4 harg4 arg5 harg5 arg6 harg6 arg7 harg7 arg8 harg8 arg9 harg9 hc0 hc1 x0 x1 x2 x3 s.1 s.2.1 s.2.2).1),
   colP.view.read (Elt F) (colP.view.writes (Elt F) colP.view.junk (runMid c i arg2 harg2 arg3 harg3 arg4 harg4 arg5 harg5 arg6 harg6 arg7 harg7 arg8 harg8 arg9 harg9 hc0 hc1 x0 x1 x2 x3 s.1 s.2.1 s.2.2).2.1),
   colN.view.read (Elt F) (colN.view.writes (Elt F) colN.view.junk (runMid c i arg2 harg2 arg3 harg3 arg4 harg4 arg5 harg5 arg6 harg6 arg7 harg7 arg8 harg8 arg9 harg9 hc0 hc1 x0 x1 x2 x3 s.1 s.2.1 s.2.2).2.2.1))
/-- The columns after a first point, from the blocks alone. -/
def colsFirst (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32) : Cols F :=
  (colM.view.read (Elt F) (colM.view.writes (Elt F) colM.view.junk (runFirst c i arg2 harg2 arg3 harg3 arg4 harg4 arg5 harg5 arg6 harg6 arg7 harg7 arg8 harg8 arg9 harg9 hc0 hc1 x0 x1 x2 x3).1),
   colP.view.read (Elt F) (colP.view.writes (Elt F) colP.view.junk (runFirst c i arg2 harg2 arg3 harg3 arg4 harg4 arg5 harg5 arg6 harg6 arg7 harg7 arg8 harg8 arg9 harg9 hc0 hc1 x0 x1 x2 x3).2.1),
   colN.view.read (Elt F) (colN.view.writes (Elt F) colN.view.junk (runFirst c i arg2 harg2 arg3 harg3 arg4 harg4 arg5 harg5 arg6 harg6 arg7 harg7 arg8 harg8 arg9 harg9 hc0 hc1 x0 x1 x2 x3).2.2.1))
/-- The columns after a last point, from the blocks and the columns before it. -/
def colsLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) : Cols F :=
  (colM.view.read (Elt F) (colM.view.writes (Elt F) colM.view.junk (runLast c i arg2 harg2 arg3 harg3 arg4 harg4 arg5 harg5 arg6 harg6 arg7 harg7 arg8 harg8 arg9 harg9 hc0 hc1 x0 x1 x2 x3 s.1 s.2.1 s.2.2).2.1),
   colP.view.read (Elt F) (colP.view.writes (Elt F) colP.view.junk (runLast c i arg2 harg2 arg3 harg3 arg4 harg4 arg5 harg5 arg6 harg6 arg7 harg7 arg8 harg8 arg9 harg9 hc0 hc1 x0 x1 x2 x3 s.1 s.2.1 s.2.2).2.2.1),
   colN.view.read (Elt F) (colN.view.writes (Elt F) colN.view.junk (runLast c i arg2 harg2 arg3 harg3 arg4 harg4 arg5 harg5 arg6 harg6 arg7 harg7 arg8 harg8 arg9 harg9 hc0 hc1 x0 x1 x2 x3 s.1 s.2.1 s.2.2).2.2.2.1))
/-- The block of losses a last point writes, from the blocks and the columns before it. -/
def outLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) : Vec F S1024 .f32 :=
  outV.read (Elt F) (outV.writes (Elt F) outV.junk (runLast c i arg2 harg2 arg3 harg3 arg4 harg4 arg5 harg5 arg6 harg6 arg7 harg7 arg8 harg8 arg9 harg9 hc0 hc1 x0 x1 x2 x3 s.1 s.2.1 s.2.2).1)

/-- THE ACCUMULATION: the three columns after the point numbered `n`, by recursion on the point — a first point
    starts afresh from its blocks, any other continues from what the point before left. -/
def colsAt (c : Dev nD) : (n : ℕ) → n < cfg0.N → Cols F
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) colM (Memref.isWhole_whole _) colP (Memref.isWhole_whole _) colN (Memref.isWhole_whole _) ((first_iff ⟨0, hn⟩).mpr (Nat.zero_mod _)) (fun h => (fun h => by (try dsimp only at h); omega) ((last_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = 7 then False.elim (by omega)
      else colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) ((first_iff ⟨n + 1, hn⟩).mpr h0) (fun h => h1 ((last_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = 7 then
        colsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) (fun h => h0 ((first_iff ⟨n + 1, hn⟩).mp h)) ((last_iff ⟨n + 1, hn⟩).mpr h1) (iblk m c 0 ⟨n + 1, hn⟩) (iblk m c 1 ⟨n + 1, hn⟩) (iblk m c 2 ⟨n + 1, hn⟩) (iblk m c 3 ⟨n + 1, hn⟩) (colsAt c n (Nat.lt_of_succ_lt hn))
      else
        colsMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) (fun h => h0 ((first_iff ⟨n + 1, hn⟩).mp h)) (fun h => h1 ((last_iff ⟨n + 1, hn⟩).mp h)) (iblk m c 0 ⟨n + 1, hn⟩) (iblk m c 1 ⟨n + 1, hn⟩) (iblk m c 2 ⟨n + 1, hn⟩) (iblk m c 3 ⟨n + 1, hn⟩) (colsAt c n (Nat.lt_of_succ_lt hn))

theorem colsAt_first (c : Dev nD) (t : Fin cfg0.N) (h0 : t.val % 8 = 0) (h1 : ¬t.val % 8 = 7) :
    colsAt m c t.val t.isLt = colsFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem colsAt_mid (c : Dev nD) (t : Fin cfg0.N) (h0 : ¬t.val % 8 = 0) (h1 : ¬t.val % 8 = 7) :
    colsAt m c t.val t.isLt = colsMid c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) (fun h => h1 ((last_iff t).mp h)) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem colsAt_last (c : Dev nD) (t : Fin cfg0.N) (h0 : ¬t.val % 8 = 0) (h1 : t.val % 8 = 7) :
    colsAt m c t.val t.isLt = colsLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The block of losses the output window's buffer holds after point `t`: at a last point what that point writes from
    the columns the point before left; elsewhere nothing is stored and the value is not consulted. -/
def outAt (c : Dev nD) (t : Fin cfg0.N) : Vec F S1024 .f32 :=
  if h1 : t.val % 8 = 7 then
    outLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => (by omega : ¬t.val % 8 = 0) ((first_iff t).mp h)) ((last_iff t).mpr h1) (iblk m c 0 t) (iblk m c 1 t) (iblk m c 2 t) (iblk m c 3 t)
      (colsAt m c (t.val - 1) (Nat.lt_of_le_of_lt (Nat.sub_le _ _) t.isLt))
  else outV.read (Elt F) (outV.writes (Elt F) outV.junk [])

theorem outAt_last (c : Dev nD) (t : Fin cfg0.N) (h0 : ¬t.val % 8 = 0) (h1 : t.val % 8 = 7) :
    outAt m c t = outLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t)
      (colsAt m c (t.val - 1) (Nat.lt_of_le_of_lt (Nat.sub_le _ _) t.isLt)) := by
  unfold outAt; exact dif_pos h1

/-- The region's invariant before the point numbered `n`: before the first point, what the launch hands over (the
    three columns at anything); afterwards the three columns at what the point before left, and the generator register
    at some state. -/
def PhiS (c : Dev nD) : (n : ℕ) → n ≤ cfg0.N → sProp 𝕄
  | 0, _ => Pipeline.ΦA spec0 c
  | n + 1, hn => iprop(iprop(owns (c : Thread nD τ) colM fullShare (colsAt m c n hn).1 ∗ owns (c : Thread nD τ) colP fullShare (colsAt m c n hn).2.1 ∗ owns (c : Thread nD τ) colN fullShare (colsAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) colM fullShare (colsAt m c n hn).1 ∗ owns (c : Thread nD τ) colP fullShare (colsAt m c n hn).2.1 ∗ owns (c : Thread nD τ) colN fullShare (colsAt m c n hn).2.2) ∗ (∃ r, prngReg c r)) := rfl
theorem PhiS_pos (c : Dev nD) (n : ℕ) (h : n ≤ cfg0.N) (hz : n ≠ 0) :
    PhiS m c n h = iprop(iprop(owns (c : Thread nD τ) colM fullShare (colsAt m c (n - 1) (by omega)).1 ∗ owns (c : Thread nD τ) colP fullShare (colsAt m c (n - 1) (by omega)).2.1 ∗ owns (c : Thread nD τ) colN fullShare (colsAt m c (n - 1) (by omega)).2.2) ∗ (∃ r, prngReg c r)) := by
  cases n with
  | zero => exact absurd rfl hz
  | succ n => rfl

/-! ## The proof data

The normalised matrix is handed to the region through two windows. Its buffer is one, so the two windows hold it at the
two halves of the full share; every other array is held outright. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]
theorem bef_w0 (c : Dev nD) (t : Fin cfg0.N) (d) : (dats m 0 c).before 0 t d = iblk m c 0 t := before_w0 m (dats m 0 c) (A_eq m c 0) (after_w0 m c) t d
theorem bef_w1 (c : Dev nD) (t : Fin cfg0.N) (d) : (dats m 0 c).before 1 t d = iblk m c 1 t := before_w1 m (dats m 0 c) (A_eq m c 1) (after_w1 m c) t d
theorem bef_w2 (c : Dev nD) (t : Fin cfg0.N) (d) : (dats m 0 c).before 2 t d = iblk m c 2 t := before_w2 m (dats m 0 c) (A_eq m c 2) (after_w2 m c) t d
theorem bef_w3 (c : Dev nD) (t : Fin cfg0.N) (d) : (dats m 0 c).before 3 t d = iblk m c 3 t := before_w3 m (dats m 0 c) (A_eq m c 3) (after_w3 m c) t d

end Cert.Kernel.Stream

end
-- ==== Proof.KBBody3.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBBody2

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body obligation

At every grid point the body, called on the windows' current buffers — each input's at its block, the output's at
whatever it holds — and with the three columns as the point before left them, runs and leaves the inputs in place, the
three columns at this point's accumulated contents and, at a last point, the output's buffer at the block of losses. -/

theorem leave_w0 (c : Dev nD) (t : Fin cfg0.N) : (dats m 0 c).leavesExact 0 t = owns (c : Thread nD τ) (ms0 t) fullShare ((dats m 0 c).after 0 t) := by
  unfold Dat.leavesExact; rw [live_w0 t]
theorem leave_w1 (c : Dev nD) (t : Fin cfg0.N) : (dats m 0 c).leavesExact 1 t = owns (c : Thread nD τ) (ms1 t) fullShare ((dats m 0 c).after 1 t) := by
  unfold Dat.leavesExact; rw [live_w1 t]
theorem leave_w2 (c : Dev nD) (t : Fin cfg0.N) : (dats m 0 c).leavesExact 2 t = owns (c : Thread nD τ) (ms2 t) fullShare ((dats m 0 c).after 2 t) := by
  unfold Dat.leavesExact; rw [live_w2 t]
theorem leave_w3 (c : Dev nD) (t : Fin cfg0.N) : (dats m 0 c).leavesExact 3 t = owns (c : Thread nD τ) (ms3 t) fullShare ((dats m 0 c).after 3 t) := by
  unfold Dat.leavesExact; rw [live_w3 t]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef_w0, bef_w1, bef_w2, bef_w3]
  rw [show (dats m 0 c).owesAt () t.succ = (dats m 0 c).owesAt () t.castSucc from rfl]
  rw [show (dats m 0 c).Φ t.succ = PhiS m c (t.val + 1) t.isLt from rfl, PhiS_succ]
  rw [leave_w0, leave_w1, leave_w2, leave_w3, after_w0, after_w1, after_w2, after_w3]
  have hN : t.val < 64 := lt_of_lt_of_eq t.isLt (show cfg0.N = 64 from N_0)
  by_cases h0 : t.val % 8 = 0
  · have h1 : ¬t.val % 8 = 7 := by omega
    rw [Dat.leavesExact_idle (dats m 0 c) 4 t (idle_out t (fun h => h1 ((last_iff t).mp h))) (noflush_out t (fun h => h1 ((last_iff t).mp h)))]
    rw [colsAt_first m c t h0 h1]
    unfold colsFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 _ _ _ _ _ _ _ _ _ _ _ _ _ _ _ _ _ _ _ _ _ _ _ _ )
          isplitl [HS1]
          · unfold owns; iexists _; isplitr
            swap; · iexact HS1
            ipureintro; exact View.read_writes_of_cover _ _ _ _ _ (coverFirst1 _ _ _ _ _ _ _ _ _ _ _ _ _ _ _ _ _ _ _ _ _ _ _ _ )
          unfold owns; iexists _; isplitr
          swap; · iexact HS2
          ipureintro; exact View.read_writes_of_cover _ _ _ _ _ (coverFirst2 _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 _ _ _ _ _ _ _ _ _ _ _ _ _ _ _ _ _ _ _ _ _ _ _ _ )
          isplitl [HS1]
          · unfold owns; iexists _; isplitr
            swap; · iexact HS1
            ipureintro; exact View.read_writes_of_cover _ _ _ _ _ (coverFirst1 _ _ _ _ _ _ _ _ _ _ _ _ _ _ _ _ _ _ _ _ _ _ _ _ )
          unfold owns; iexists _; isplitr
          swap; · iexact HS2
          ipureintro; exact View.read_writes_of_cover _ _ _ _ _ (coverFirst2 _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [live_out t ((last_iff t).mpr h1)], after_w4, outAt_last m c t h0 h1]
      rw [colsAt_last m c t h0 h1]
      unfold colsLast outLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLast0 _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (coverLast1 _ _ _ _ _ _ _ _ _ _ _ _ _ _ _ _ _ _ _ _ _ _ _ _ _ _ _ )
          unfold owns; iexists _; isplitr
          swap; · iexact HS2
          ipureintro; exact View.read_writes_of_cover _ _ _ _ _ (coverLast2 _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO _ _ _ _ _ _ _ _ _ _ _ _ _ _ _ _ _ _ _ _ _ _ _ _ _ _ _ )
    · rw [Dat.leavesExact_idle (dats m 0 c) 4 t (idle_out t (fun h => h1 ((last_iff t).mp h))) (noflush_out t (fun h => h1 ((last_iff t).mp h)))]
      rw [colsAt_mid m c t h0 h1]
      unfold colsMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) (fun h => h1 ((last_iff t).mp h)) (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMid0 _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (coverMid1 _ _ _ _ _ _ _ _ _ _ _ _ _ _ _ _ _ _ _ _ _ _ _ _ _ _ _ )
          unfold owns; iexists _; isplitr
          swap; · iexact HS2
          ipureintro; exact View.read_writes_of_cover _ _ _ _ _ (coverMid2 _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Stream

end
-- ==== Proof.KBLaunch1.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBBody3

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: one buffer behind two windows

The region's five windows stand on FOUR buffers: the normalised matrix is read through a row-block window and a
column-block window. At entry its buffer, held whole, is divided into the two halves of the full share, one per window;
the region only reads it, and at the exit the two halves are still there at the entry contents. The host operations
after the region read the block of losses and the buffers that bypass the region, and touch none of the inputs. -/

theorem share_w0 (c : Dev nD) : (dats m 0 c).share 0 = fullShare.left := rfl
theorem share_w1 (c : Dev nD) : (dats m 0 c).share 1 = fullShare.right := rfl
theorem share_w2 (c : Dev nD) : (dats m 0 c).share 2 = fullShare := rfl
theorem share_w3 (c : Dev nD) : (dats m 0 c).share 3 = fullShare := rfl
theorem share_w4 (c : Dev nD) : (dats m 0 c).share 4 = fullShare := rfl

/-- The windows' arrays, at contents `Fa`, window by window: the matrix's buffer at its two half shares, the two label
    vectors and the losses outright. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_v9) ↦{fullShare.left} Fa 0) ∗ (((c : Thread nD τ).loc main_v9) ↦{fullShare.right} Fa 1)
          ∗ (((c : Thread nD τ).loc main_v11) ↦{fullShare} Fa 2) ∗ (((c : Thread nD τ).loc main_v14) ↦{fullShare} Fa 3)
          ∗ (((c : Thread nD τ).loc main_v15) ↦{fullShare} Fa 4)) := by
  unfold Dat.arrays
  rw [bigSep_W0, (arr_whole0 0).set_eq_univ, (arr_whole0 2).set_eq_univ, (arr_whole0 3).set_eq_univ, (arr_whole0 4).set_eq_univ,
    share_w0, share_w1, share_w2, share_w3, share_w4]

/-- The four distinct buffers behind the windows, each held whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v11) ↦{fullShare} W main_v11)
          ∗ (((c : Thread nD τ).loc main_v14) ↦{fullShare} W main_v14) ∗ (((c : Thread nD τ).loc main_v15) ↦{fullShare} W main_v15)) := by
  unfold Pipeline.arrBufs
  rw [bigSep_eq_bigSepL_of_eq [main_v9, main_v11, main_v14, main_v15] (by decide) (by decide)]
  rfl

/-- ENTRY: the four buffers at the entry contents make the windows' arrays at the entry contents. -/
theorem hsplit (c : Dev nD) :
    (Pipeline.arrBufs spec0 c (V m c) : sProp 𝕄) ⊢ (dats m 0 c).arrays ((dats m 0 c).arrAt · 0) := by
  rw [arrBufs_chain, arrays_chain]
  iintro ⟨H9, H11, H14, H15⟩
  ihave H := (pointsTo_share (PosShare.mem_left_op_right fullShare)).1 $$ H9
  icases H with ⟨Hl, Hr⟩
  isplitl [Hl]; · iexact Hl
  isplitl [Hr]; · iexact Hr
  isplitl [H11]; · iexact H11
  isplitl [H14]; · iexact H14
  iexact H15

end Cert.Kernel.Stream

end
-- ==== Proof.KBLaunch2.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBLaunch1

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # After the region: the mean of the losses

Four host operations follow the region: two constants, the sum of the 8192 losses and its quotient by 8192. They read
the losses' buffer and write four buffers that bypass the region; they touch neither the normalised matrix nor the label
vectors, whose half and whole shares are carried past them untouched. -/

open Classical in
/-- What the TensorCore buffers hold when the region is left: the losses' buffer at what the write-backs made it, every
    other buffer as the region found it (it writes no other). -/
def Vx (c : Dev nD) : Valuation τ sig (Elt F) :=
  Function.update (V0 m c) (Proc.devRef .tc main_v15) ((dats m 0 c).arrAt 4 cfg0.N)
/-- What they hold at the end: after the four operations that follow the region. -/
def Vt (c : Dev nD) : Valuation τ sig (Elt F) := StableHlo.after (List.flatten [hostOps1]) (Vx m c)

theorem Vx_out (c : Dev nD) : Vx m c (Proc.devRef .tc main_v15) = (dats m 0 c).arrAt 4 cfg0.N := by
  unfold Vx; exact Function.update_self ..
theorem Vx_rest (c : Dev nD) (b : Ref sig .tc) (hb : b ≠ main_v15) : Vx m c (Proc.devRef .tc b) = V m c b := by
  unfold Vx; exact Function.update_of_ne (StableHlo.devRef_ne_of_ne hb) ..

/-- The buffers the later operations run within: the losses' and those that bypass the region. -/
def tailSet : Finset (DevRef τ sig) :=
  (insert main_v15 (Pipeline.restRefs sig spec0)).map ⟨Proc.devRef (sig := sig) (.tc : Proc τ), Proc.devRef_injective _⟩

theorem mem_tail (b : Ref sig .tc) (h : b ∈ insert main_v15 (Pipeline.restRefs sig spec0)) : Proc.devRef (τ := τ) .tc b ∈ tailSet :=
  Finset.mem_map_of_mem _ h

theorem out_not_rest : main_v15 ∉ Pipeline.restRefs sig spec0 := by decide

/-- Those buffers held at a valuation: the losses' buffer and the bypassing buffers, each whole. -/
theorem held_tailSet (c : Dev nD) (W : Valuation τ sig (Elt F)) :
    (StableHlo.held (c : Thread nD τ) tailSet W : sProp 𝕄)
      = iprop((((c : Thread nD τ).loc main_v15) ↦{fullShare} W (Proc.devRef .tc main_v15))
          ∗ Pipeline.unscopedRest (Ix := Unit) (Name := ℕ) (U := UR sig nD τ) (Lvl := ℕ) spec0 c (fun b => W (Proc.devRef .tc b))) := by
  unfold StableHlo.held tailSet Pipeline.unscopedRest
  rw [bigSep_map, bigSep_insert out_not_rest]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; exact Finset.singleton_subset_iff.mpr (mem_tail _ (by decide))
  · rw [StableHlo.binary_bufs]; intro b hb
    simp only [Finset.mem_insert, Finset.mem_singleton] at hb
    rcases hb with rfl | rfl | rfl <;> exact mem_tail _ (by decide)
  · rw [StableHlo.nullary_bufs]; exact Finset.singleton_subset_iff.mpr (mem_tail _ (by decide))
  · rw [StableHlo.binary_bufs]; intro b hb
    simp only [Finset.mem_insert, Finset.mem_singleton] at hb
    rcases hb with rfl | rfl | rfl <;> exact mem_tail _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later operations do not write the losses' buffer. -/
theorem Vt_out (c : Dev nD) : Vt m c (Proc.devRef .tc main_v15) = (dats m 0 c).arrAt 4 cfg0.N := by
  unfold Vt
  rw [StableHlo.after_of_forall_not_mem _ _ fun op hop => ?_, Vx_out]
  simp only [List.flatten_cons, List.flatten_nil, List.append_nil, hostOps1, List.mem_cons, List.mem_nil_iff, or_false] at hop
  rcases hop with rfl | rfl | rfl | rfl <;>
    simp only [StableHlo.nullary_writes, StableHlo.binary_writes, Finset.mem_singleton] <;>
    exact StableHlo.devRef_ne_of_ne (by decide)

end Cert.Kernel.Stream

end
-- ==== Proof.KBLaunch3.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBLaunch2

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (chain chain_nil wp_seqs_then)

variable (m : (ℓ : Loc nD τ sig) → Buf (Elt F) ℓ) (ρ : Dev nD → PrngReg)

/-- The bypassing buffers as the region finds them, and as the later operations leave them. -/
abbrev Zin (c : Dev nD) : sProp 𝕄 :=
  Pipeline.unscopedRest (Ix := Unit) (Name := ℕ) (U := UR sig nD τ) (Lvl := ℕ) spec0 c (V m c)
abbrev Zout (c : Dev nD) : sProp 𝕄 :=
  Pipeline.unscopedRest (Ix := Unit) (Name := ℕ) (U := UR sig nD τ) (Lvl := ℕ) spec0 c (fun b => Vt m c (Proc.devRef .tc b))

/-- The region writes no bypassing buffer: at the exit they hold what they held at the entry. -/
theorem rest_exit (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  exact bigSep_congr fun b hb => by
    dsimp only
    rw [Vx_rest m c b (fun e => out_not_rest (e ▸ hb))]

theorem held_in (c : Dev nD) :
    (StableHlo.held (c : Thread nD τ) tailSet (Vx m c) : sProp 𝕄)
      = iprop((((c : Thread nD τ).loc main_v15) ↦{fullShare} (dats m 0 c).arrAt 4 cfg0.N) ∗ Zin m c) := by
  rw [held_tailSet, Vx_out, rest_exit]

theorem held_out (c : Dev nD) :
    (StableHlo.held (c : Thread nD τ) tailSet (StableHlo.after (List.flatten [hostOps1]) (Vx m c)) : sProp 𝕄)
      = iprop((((c : Thread nD τ).loc main_v15) ↦{fullShare} (dats m 0 c).arrAt 4 cfg0.N) ∗ Zout m c) := by
  rw [held_tailSet, show StableHlo.after (List.flatten [hostOps1]) (Vx m c) = Vt m c from rfl, Vt_out]

set_option backward.isDefEq.respectTransparency.types false in
/-- THE OPERATIONS AFTER THE REGION: from the region's exit — the windows' arrays at their final contents, the bypassing
    buffers as the region found them — they run and hand back the arrays untouched and the bypassing buffers at what
    the operations make of them. -/
theorem htail (𝒱₀ : Variants) (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Zin m c)
      ⊢ wp frame (wpE (Pipeline.defs (pcfgs (F := F)) defs₀) (Variants.lift 𝒱₀) (c : Thread nD τ) none) Set.univ
          (chain ([hostOps1].map StableHlo.seq)) Q' := by
  rw [arrays_chain, ← List.append_nil ([hostOps1].map StableHlo.seq)]
  iintro ⟨Hk, Hb, ⟨Ha0, Ha1, Ha2, Ha3, Ha4⟩, HZ⟩
  ihave Hh := (show iprop(boundary (c : Thread nD τ) ∗ (((c : Thread nD τ).loc main_v15) ↦{fullShare} (dats m 0 c).arrAt 4 cfg0.N) ∗ Zin m c)
      ⊢ iprop(boundary (c : Thread nD τ) ∗ (StableHlo.held (c : Thread nD τ) tailSet (Vx m c) : sProp 𝕄)) from by rw [held_in]; try exact .rfl) $$ [Hb Ha4 HZ]
  · isplitl [Hb]; · iexact Hb
    isplitl [Ha4]; · iexact Ha4
    iexact HZ
  iapply (wp_seqs_then (pcfgs (F := F)) defs₀ 𝒱₀ c tailSet [] [hostOps1] tail_sub tail_fresh (Vx m c)) $$ Hh
  iintro Hh
  rw [chain_nil, wp_pure]
  imodintro
  iapply Hk
  ihave Hh' := (show iprop(boundary (c : Thread nD τ) ∗ (StableHlo.held (c : Thread nD τ) tailSet (StableHlo.after (List.flatten [hostOps1]) (Vx m c)) : sProp 𝕄))
      ⊢ iprop((((c : Thread nD τ).loc main_v15) ↦{fullShare} (dats m 0 c).arrAt 4 cfg0.N) ∗ Zout m c) from by
        rw [held_out]; iintro ⟨-, H⟩; iexact H) $$ Hh
  icases Hh' with ⟨Ha4, HZ⟩
  isplitr [HZ]
  · isplitl [Ha0]; · iexact Ha0
    isplitl [Ha1]; · iexact Ha1
    isplitl [Ha2]; · iexact Ha2
    isplitl [Ha3]; · iexact Ha3
    iexact Ha4
  iexact HZ

end Cert.Kernel.Stream

end
-- ==== Proof.KBLaunch4.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KBLaunch3

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- What a final state holds: every window's array at what the write-backs made of it, every buffer that bypasses
    the region at what the later operations leave. -/
def RunPost (r : PUnit × MemSt nD τ sig (Elt F)) : Prop :=
  ∀ c : Dev nD, (∀ w : Fin cfg0.W, r.2.mem ((cfg0.win w).arr.view.loc (c : Thread nD τ)) = (dats m 0 c).arrAt w cfg0.N)
    ∧ ∀ b ∈ restRefs sig spec0, r.2.mem ((c : Thread nD τ).loc b) = Vt m c (Proc.devRef .tc b)

set_option backward.isDefEq.respectTransparency.types false in
/-- THE RUN. At the compiled mesh, from any memory with zero counters, every weakly fair execution of the host program
    terminates without a fault, and every final state is as `RunPost` says. -/
theorem run_main : θ_run defs (onTc (τ := τ) (main (F := F))) (s₀ m ρ) (RunPost m) := by
  classical
  exact θ_run_region_pf_tail (fun q => (cfgs q).toPCfg (Val := Elt F)) (fun q => (cfgs q).toPCfg_adm) (dats m) () cellOf_inj 0 winFacts₀0
    (OwnSemFacts.none spec0) (PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      rw [unscopedRestP_none]
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := htail m Variants.none)
    (QY := fun c s => ∀ b ∈ restRefs sig spec0, s.mem ((c.tc : Thread nD τ).loc b) = Vt m c (Proc.devRef .tc b))
    (hY := fun c s' => by
      unfold Zout unscopedRest
      iintro ⟨-, HU, HSI⟩
      imodintro
      iapply (pointsTo_read_all (restRefs sig spec0) (fun b => (c.tc : Thread nD τ).loc b) (fun b => Vt m c (Proc.devRef .tc b)) s')
      isplitl [HU] <;> iassumption)
    (hQ := fun s h c => ⟨(h c).1, (h c).2.2⟩)

/-- info: 'Cert.Kernel.Stream.run_main' depends on axioms: [propext, Classical.choice, Quot.sound] -/
#guard_msgs in #print axioms run_main

end Cert.Kernel.Stream

end
-- ==== Proof.KBFrame.lean ====
import proofs.«125412_j36936718745849_1_alg».proof.Proof.Gen.Kernel.Launch
import proofs.«125412_j36936718745849_1_alg».proof.Proof.Gen.Kernel.Skeleton
import proofs.«125412_j36936718745849_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.StableHlo.Run
import proofs.«125412_j36936718745849_1_alg».proof.Proof.KBLaunch4

set_option maxRecDepth 16384

noncomputable section

namespace Cert.Kernel.Stream

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! # The frame

No host operation writes an argument array, and the region reads its inputs only: both arguments end as they began. -/

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results

theorem Vt_arg0 (c : Dev nD) : Vt m c (Proc.devRef .tc main_arg0) = m ((c : Thread nD τ).loc main_arg0) := by
  unfold Vt
  show StableHlo.after hostOps1 (Vx m c) (Proc.devRef .tc main_arg0) = _
  after_results
  rw [Vx_rest m c main_arg0 (by decide)]
  exact V_arg0 m c
theorem Vt_arg1 (c : Dev nD) : Vt m c (Proc.devRef .tc main_arg1) = m ((c : Thread nD τ).loc main_arg1) := by
  unfold Vt
  show StableHlo.after hostOps1 (Vx m c) (Proc.devRef .tc main_arg1) = _
  after_results
  rw [Vx_rest m c main_arg1 (by decide)]
  exact V_arg1 m c

theorem arg0_rest : main_arg0 ∈ restRefs sig spec0 := by decide
theorem arg1_rest : main_arg1 ∈ restRefs sig spec0 := by decide
theorem res_rest : main_v17 ∈ restRefs sig spec0 := by decide

/-- THE FRAME at any instance: every weakly fair execution terminates without a fault and the two argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_arg0 arg0_rest).trans (Vt_arg0 m c), ((h c).2 main_arg1 arg1_rest).trans (Vt_arg1 m c)⟩)
    (run_main m ρ)

/-- The run with the result named: the result buffer ends at what the later operations make of the losses, the
    arguments unchanged. -/
theorem run_result : θ_run defs (onTc (τ := τ) (main (F := F))) ⟨m, fun _ => 0, ρ⟩ (fun r => ∀ c : Dev nD,
      r.2.mem ((c.tc : Thread nD τ).loc main_v17) = Vt m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2 main_v17 res_rest, ((h c).2 main_arg0 arg0_rest).trans (Vt_arg0 m c), ((h c).2 main_arg1 arg1_rest).trans (Vt_arg1 m c)⟩)
    (run_main m ρ)

end Cert.Kernel.Stream

end
-- ==== Proof.KIRuns.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body at one grid point, case by case

A grid point is a pair (row block, column block). The body keeps three columns between the points of one row block:
the running maximum of the similarities seen so far, and the two running sums of exponentials (same label, different
label) taken relative to that maximum. At the FIRST column block the three columns are reset (to -inf, 0, 0) before use;
at every column block they are updated from the two feature blocks and the two label blocks; at the LAST column block the
row block's losses are written to the output block. Three cases meet the grid: first, middle, last. -/

/-- The column block is the first one (the reset is taken), as the body computes the test. -/
abbrev atFirstCol (i : grid0.Coords) : Prop := (Scalar.cmpi .ne (Scalar.extui (Scalar.cmpi .eq (BitVec.ofNat 32 (i 1).val) 0#32)) 0#32) = 1#1
/-- The column block is the last one (the losses are written), as the body computes the test. -/
abbrev atLastCol (i : grid0.Coords) : Prop := k0_cond2 i = 1#1

/-- Pieces written into a column of 1024 values. -/
abbrev ColPieces (F : FTy → Type) [FloatOps F] := List (View.Piece (Elt F) S1024x1 .f32)
/-- Pieces written into an output block of 1024 values. -/
abbrev OutPieces (F : FTy → Type) [FloatOps F] := List (View.Piece (Elt F) S1024 .f32)

set_option maxHeartbeats 2000000 in
/-- A MIDDLE column block: neither test holds. From the two feature blocks, the two label blocks and the three columns
    as the previous point left them, the body runs and leaves each column with the pieces found here written; the
    output block's buffer is not touched. -/
noncomputable def runMid (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬atFirstCol i) (hc1 : ¬atLastCol i)
    (x0 x1 : Vec F S1024x128 .bf16) (x2 x3 : Vec F S1024 .i32) (s0 s1 s2 : Vec F S1024x1 .f32) :
    Σ' (L0 : ColPieces F) (L1 : ColPieces F), { L2 : ColPieces F //
      ∀ (xo : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, fun xo E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, HS0⟩, ⟨%g1, %hg1, HS1⟩, ⟨%g2, %hg2, HS2⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hg0; obtain rfl := harg8.eq_unread hg1; obtain rfl := harg9.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 2000000 in
/-- The FIRST column block: the reset is taken, the losses are not written. Whatever the three columns held, the body
    overwrites them before reading them, runs, and leaves each with the pieces found here written; the output block's
    buffer is not touched. -/
noncomputable def runFirst (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : atFirstCol i) (hc1 : ¬atLastCol i)
    (x0 x1 : Vec F S1024x128 .bf16) (x2 x3 : Vec F S1024 .i32) :
    Σ' (L0 : ColPieces F) (L1 : ColPieces F), { L2 : ColPieces F //
      ∀ (xo : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, fun xo E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%f4, %hf4, H4⟩, ⟨%d0, %g0, -, HS0⟩, ⟨%d1, %g1, -, HS1⟩, ⟨%d2, %g2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

set_option maxHeartbeats 2000000 in
/-- The LAST column block: no reset, the losses are written. From the blocks and the three columns as the previous
    point left them the body runs, leaves each column with the pieces found here written, and the output block's
    buffer — whatever it held — with its pieces written. -/
noncomputable def runLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬atFirstCol i) (hc1 : atLastCol i)
    (x0 x1 : Vec F S1024x128 .bf16) (x2 x3 : Vec F S1024 .i32) (s0 s1 s2 : Vec F S1024x1 .f32) :
    Σ' (LO : OutPieces F) (L0 : ColPieces F) (L1 : ColPieces F), { L2 : ColPieces F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f L0) ∗ (∃ f, arg8.view.loc (c : Thread nD τ) ↦[arg8.view.set]{fullShare} arg8.view.writes (Elt F) f L1) ∗ (∃ f, arg9.view.loc (c : Thread nD τ) ↦[arg9.view.set]{fullShare} arg9.view.writes (Elt F) f L2)) -∗ K ⟨⟩))
          ⊢ wp frame (wpE (defs₀ (F := F)) Variants.none c none) E (cc0__plc_kernel i arg2 harg2 arg3 harg3 arg4 harg4 arg5 harg5 arg6 harg6 arg7 harg7 arg8 harg8 arg9 harg9) K } := by
  refine ⟨?_, ?_, ?_, ?_, fun E K => ?run⟩
  case run =>
    simp only [cc0__plc_kernel_eq_skeleton]; unfold cc0__plc_kernel_skel
    unfold owns
    iintro ⟨⟨%f0, %hf0, H0⟩, ⟨%f1, %hf1, H1⟩, ⟨%f2, %hf2, H2⟩, ⟨%f3, %hf3, H3⟩, ⟨%d4, %f4, -, H4⟩, ⟨%g0, %hg0, HS0⟩, ⟨%g1, %hg1, HS1⟩, ⟨%g2, %hg2, HS2⟩, Hk⟩
    obtain rfl := harg2.eq_unread hf0; obtain rfl := harg3.eq_unread hf1; obtain rfl := harg4.eq_unread hf2; obtain rfl := harg5.eq_unread hf3
    obtain rfl := harg7.eq_unread hg0; obtain rfl := harg8.eq_unread hg1; obtain rfl := harg9.eq_unread hg2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Stream

end
-- ==== Proof.KIBody1.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Tactic
import proofs.«125412_j36936718745849_1_alg».proof.Proof.KIRuns

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The region as the host program finds it, and what one grid point leaves

Seventeen host operations run before the kernel region (the rows are normalised and the two label vectors laid out) and
four after it (the mean). The region reads the normalised matrix through TWO windows (a row block and a column block of
the same array) and the two label vectors through one window each, and writes one block of losses per row block. -/

/-- What the TensorCore buffers of core `c` hold when the region is entered: the memory after the host operations
    before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host program is: the operations before the region, the region, the operations after it; so running it reduces
    to running the region, from the contents `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The inputs' buffers hold their blocks at every point -/

theorem before_w0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_w1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_w2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_w3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two tests over the grid: the column block is the point's number modulo 8 -/

theorem first_iff : ∀ t : Fin cfg0.N, atFirstCol (grid0.coords t) ↔ t.val % 8 = 0 :=
  (by decide +kernel : ∀ t : Fin grid0.N, atFirstCol (grid0.coords t) ↔ t.val % 8 = 0)
theorem last_iff : ∀ t : Fin cfg0.N, atLastCol (grid0.coords t) ↔ t.val % 8 = 7 :=
  (by decide +kernel : ∀ t : Fin grid0.N, atLastCol (grid0.coords t) ↔ t.val % 8 = 7)

/-- No input window is ever idle. -/
theorem live_w0 : ∀ t : Fin cfg0.N, cfg0.idle 0 (grid0.coords t) = false := by decide +kernel
theorem live_w1 : ∀ t : Fin cfg0.N, cfg0.idle 1 (grid0.coords t) = false := by decide +kernel
theorem live_w2 : ∀ t : Fin cfg0.N, cfg0.idle 2 (grid0.coords t) = false := by decide +kernel
theorem live_w3 : ∀ t : Fin cfg0.N, cfg0.idle 3 (grid0.coords t) = false := by decide +kernel
/-- The output window is idle, and not written back, exactly where the losses are not written. -/
theorem idle_out : ∀ t : Fin cfg0.N, ¬atLastCol (grid0.coords t) → cfg0.idle 4 (grid0.coords t) = true := by decide +kernel
theorem noflush_out : ∀ t : Fin cfg0.N, ¬atLastCol (grid0.coords t) → (cfg0.win 4).flush t = false := by decide +kernel
theorem live_out : ∀ t : Fin cfg0.N, atLastCol (grid0.coords t) → cfg0.idle 4 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024 .f32 := win0_4.stage (cfg0.slots t 4)
abbrev hs4 (t : Fin cfg0.N) : (ms4 t).IsWhole := hstage0_4 ((cfg0.slots t 4).cast nbuf0_4)
/-- The three columns kept between points: whole scoped buffers of the kernel's own. -/
abbrev colM : Memref sig .tc .vmem S1024x1 .f32 := Memref.whole cc0_scratch0
abbrev colP : Memref sig .tc .vmem S1024x1 .f32 := Memref.whole cc0_scratch1
abbrev colN : Memref sig .tc .vmem S1024x1 .f32 := Memref.whole cc0_scratch2
/-- One staging buffer of the output window, through which its contents are stated. -/
abbrev outV : View sig .tc .vmem S1024 .f32 := (Memref.whole cc0_stg4_0 : Memref sig .tc .vmem S1024 .f32).view

/-- What the launch hands the region besides the windows — the scoped buffers no window stages and the generator
    register — with the three columns as memrefs owned at some contents. -/
theorem PhiA_eq (c : Dev nD) :
    (Pipeline.ΦA spec0 c : sProp 𝕄)
      = iprop(iprop((∃ d, owns (c : Thread nD τ) colM fullShare d) ∗ (∃ d, owns (c : Thread nD τ) colP fullShare d) ∗ (∃ d, owns (c : Thread nD τ) colN fullShare d)) ∗ (∃ r, prngReg c r)) := by
  unfold Pipeline.ΦA; rw [scopedRest0_eq]; simp only [colM, colP, colN, owns_whole]; try rfl

end Cert.KernelIdeal.Stream

end
-- ==== Proof.KIBody2.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KIBody1

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the three columns hold after each grid point

Each case's run leaves every column with ONE piece written over the whole column, so the pieces cover it and what the
column holds afterwards is the pieces read back, whatever it held before. -/

/-- The three columns' contents: running maximum, running same-label sum, running other-label sum. -/
abbrev Cols (F : FTy → Type) [FloatOps F] := Vec F S1024x1 .f32 × Vec F S1024x1 .f32 × Vec F S1024x1 .f32

theorem coverMid0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).1 S1024x1.size (by sl_kernel_rfl) y
theorem coverMid1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).2.1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).2.1 S1024x1.size (by sl_kernel_rfl) y
theorem coverMid2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s0 s1 s2 : Vec F S1024x1 .f32) (y : S1024x1.Idx) :
    ∃ pc ∈ (runMid c i arg2 harg2 arg3 harg3 arg4 harg4 arg5 harg5 arg6 harg6 arg7 harg7 arg8 harg8 arg9 harg9 hc0 hc1 x0 x1 x2 x3 s0 s1 s2).2.2.1, y ∈ pc.1.set :=
  View.cover_of_tiledL (runMid c i arg2 harg2 arg3 harg3 arg4 harg4 arg5 harg5 arg6 harg6 arg7 harg7 arg8 harg8 arg9 harg9 hc0 hc1 x0 x1 x2 x3 s0 s1 s2).2.2.1 S1024x1.size (by sl_kernel_rfl) y
theorem coverFirst0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).1, y ∈ pc.1.set :=
  View.cover_of_tiledL (runFirst c i arg2 harg2 arg3 harg3 arg4 harg4 arg5 harg5 arg6 harg6 arg7 harg7 arg8 harg8 arg9 harg9 hc0 hc1 x0 x1 x2 x3 ).1 S1024x1.size (by sl_kernel_rfl) y
theorem coverFirst1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).2.1, y ∈ pc.1.set :=
  View.cover_of_tiledL (runFirst c i arg2 harg2 arg3 harg3 arg4 harg4 arg5 harg5 arg6 harg6 arg7 harg7 arg8 harg8 arg9 harg9 hc0 hc1 x0 x1 x2 x3 ).2.1 S1024x1.size (by sl_kernel_rfl) y
theorem coverFirst2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32)  (y : S1024x1.Idx) :
    ∃ pc ∈ (runFirst c i arg2 harg2 arg3 harg3 arg4 harg4 arg5 harg5 arg6 harg6 arg7 harg7 arg8 harg8 arg9 harg9 hc0 hc1 x0 x1 x2 x3 ).2.2.1, y ∈ pc.1.set :=
  View.cover_of_tiledL (runFirst c i arg2 harg2 arg3 harg3 arg4 harg4 arg5 harg5 arg6 harg6 arg7 harg7 arg8 harg8 arg9 harg9 hc0 hc1 x0 x1 x2 x3 ).2.2.1 S1024x1.size (by sl_kernel_rfl) y
theorem coverLastO (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024.Idx) :
    ∃ pc ∈ (runLast c i arg2 harg2 arg3 harg3 arg4 harg4 arg5 harg5 arg6 harg6 arg7 harg7 arg8 harg8 arg9 harg9 hc0 hc1 x0 x1 x2 x3 s0 s1 s2).1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).1 S1024.size (by sl_kernel_rfl) y
theorem coverLast0 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.1 S1024x1.size (by sl_kernel_rfl) y
theorem coverLast1 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.2.1 S1024x1.size (by sl_kernel_rfl) y
theorem coverLast2 (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s0 s1 s2 : Vec F S1024x1 .f32) (y : S1024x1.Idx) :
    ∃ pc ∈ (runLast c i arg2 harg2 arg3 harg3 arg4 harg4 arg5 harg5 arg6 harg6 arg7 harg7 arg8 harg8 arg9 harg9 hc0 hc1 x0 x1 x2 x3 s0 s1 s2).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 s0 s1 s2).2.2.2.1 S1024x1.size (by sl_kernel_rfl) y

/-- The columns after a middle point, from the blocks and the columns before it. -/
def colsMid (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s : Cols F) : Cols F :=
  (colM.view.read (Elt F) (colM.view.writes (Elt F) colM.view.junk (runMid c i arg2 harg2 arg3 harg3 arg4 harg4 arg5 harg5 arg6 harg6 arg7 harg7 arg8 harg8 arg9 harg9 hc0 hc1 x0 x1 x2 x3 s.1 s.2.1 s.2.2).1),
   colP.view.read (Elt F) (colP.view.writes (Elt F) colP.view.junk (runMid c i arg2 harg2 arg3 harg3 arg4 harg4 arg5 harg5 arg6 harg6 arg7 harg7 arg8 harg8 arg9 harg9 hc0 hc1 x0 x1 x2 x3 s.1 s.2.1 s.2.2).2.1),
   colN.view.read (Elt F) (colN.view.writes (Elt F) colN.view.junk (runMid c i arg2 harg2 arg3 harg3 arg4 harg4 arg5 harg5 arg6 harg6 arg7 harg7 arg8 harg8 arg9 harg9 hc0 hc1 x0 x1 x2 x3 s.1 s.2.1 s.2.2).2.2.1))
/-- The columns after a first point, from the blocks alone. -/
def colsFirst (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32) : Cols F :=
  (colM.view.read (Elt F) (colM.view.writes (Elt F) colM.view.junk (runFirst c i arg2 harg2 arg3 harg3 arg4 harg4 arg5 harg5 arg6 harg6 arg7 harg7 arg8 harg8 arg9 harg9 hc0 hc1 x0 x1 x2 x3).1),
   colP.view.read (Elt F) (colP.view.writes (Elt F) colP.view.junk (runFirst c i arg2 harg2 arg3 harg3 arg4 harg4 arg5 harg5 arg6 harg6 arg7 harg7 arg8 harg8 arg9 harg9 hc0 hc1 x0 x1 x2 x3).2.1),
   colN.view.read (Elt F) (colN.view.writes (Elt F) colN.view.junk (runFirst c i arg2 harg2 arg3 harg3 arg4 harg4 arg5 harg5 arg6 harg6 arg7 harg7 arg8 harg8 arg9 harg9 hc0 hc1 x0 x1 x2 x3).2.2.1))
/-- The columns after a last point, from the blocks and the columns before it. -/
def colsLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) : Cols F :=
  (colM.view.read (Elt F) (colM.view.writes (Elt F) colM.view.junk (runLast c i arg2 harg2 arg3 harg3 arg4 harg4 arg5 harg5 arg6 harg6 arg7 harg7 arg8 harg8 arg9 harg9 hc0 hc1 x0 x1 x2 x3 s.1 s.2.1 s.2.2).2.1),
   colP.view.read (Elt F) (colP.view.writes (Elt F) colP.view.junk (runLast c i arg2 harg2 arg3 harg3 arg4 harg4 arg5 harg5 arg6 harg6 arg7 harg7 arg8 harg8 arg9 harg9 hc0 hc1 x0 x1 x2 x3 s.1 s.2.1 s.2.2).2.2.1),
   colN.view.read (Elt F) (colN.view.writes (Elt F) colN.view.junk (runLast c i arg2 harg2 arg3 harg3 arg4 harg4 arg5 harg5 arg6 harg6 arg7 harg7 arg8 harg8 arg9 harg9 hc0 hc1 x0 x1 x2 x3 s.1 s.2.1 s.2.2).2.2.2.1))
/-- The block of losses a last point writes, from the blocks and the columns before it. -/
def outLast (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) : Vec F S1024 .f32 :=
  outV.read (Elt F) (outV.writes (Elt F) outV.junk (runLast c i arg2 harg2 arg3 harg3 arg4 harg4 arg5 harg5 arg6 harg6 arg7 harg7 arg8 harg8 arg9 harg9 hc0 hc1 x0 x1 x2 x3 s.1 s.2.1 s.2.2).1)

/-- THE ACCUMULATION: the three columns after the point numbered `n`, by recursion on the point — a first point
    starts afresh from its blocks, any other continues from what the point before left. -/
def colsAt (c : Dev nD) : (n : ℕ) → n < cfg0.N → Cols F
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) colM (Memref.isWhole_whole _) colP (Memref.isWhole_whole _) colN (Memref.isWhole_whole _) ((first_iff ⟨0, hn⟩).mpr (Nat.zero_mod _)) (fun h => (fun h => by (try dsimp only at h); omega) ((last_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 8 = 0 then
      if h1 : (n + 1) % 8 = 7 then False.elim (by omega)
      else colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) ((first_iff ⟨n + 1, hn⟩).mpr h0) (fun h => h1 ((last_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 8 = 7 then
        colsLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) (fun h => h0 ((first_iff ⟨n + 1, hn⟩).mp h)) ((last_iff ⟨n + 1, hn⟩).mpr h1) (iblk m c 0 ⟨n + 1, hn⟩) (iblk m c 1 ⟨n + 1, hn⟩) (iblk m c 2 ⟨n + 1, hn⟩) (iblk m c 3 ⟨n + 1, hn⟩) (colsAt c n (Nat.lt_of_succ_lt hn))
      else
        colsMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) colM (Memref.isWhole_whole _) colP (Memref.isWhole_whole _) colN (Memref.isWhole_whole _) (fun h => h0 ((first_iff ⟨n + 1, hn⟩).mp h)) (fun h => h1 ((last_iff ⟨n + 1, hn⟩).mp h)) (iblk m c 0 ⟨n + 1, hn⟩) (iblk m c 1 ⟨n + 1, hn⟩) (iblk m c 2 ⟨n + 1, hn⟩) (iblk m c 3 ⟨n + 1, hn⟩) (colsAt c n (Nat.lt_of_succ_lt hn))

theorem colsAt_first (c : Dev nD) (t : Fin cfg0.N) (h0 : t.val % 8 = 0) (h1 : ¬t.val % 8 = 7) :
    colsAt m c t.val t.isLt = colsFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem colsAt_mid (c : Dev nD) (t : Fin cfg0.N) (h0 : ¬t.val % 8 = 0) (h1 : ¬t.val % 8 = 7) :
    colsAt m c t.val t.isLt = colsMid c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) (fun h => h1 ((last_iff t).mp h)) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem colsAt_last (c : Dev nD) (t : Fin cfg0.N) (h0 : ¬t.val % 8 = 0) (h1 : t.val % 8 = 7) :
    colsAt m c t.val t.isLt = colsLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The block of losses the output window's buffer holds after point `t`: at a last point what that point writes from
    the columns the point before left; elsewhere nothing is stored and the value is not consulted. -/
def outAt (c : Dev nD) (t : Fin cfg0.N) : Vec F S1024 .f32 :=
  if h1 : t.val % 8 = 7 then
    outLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => (by omega : ¬t.val % 8 = 0) ((first_iff t).mp h)) ((last_iff t).mpr h1) (iblk m c 0 t) (iblk m c 1 t) (iblk m c 2 t) (iblk m c 3 t)
      (colsAt m c (t.val - 1) (Nat.lt_of_le_of_lt (Nat.sub_le _ _) t.isLt))
  else outV.read (Elt F) (outV.writes (Elt F) outV.junk [])

theorem outAt_last (c : Dev nD) (t : Fin cfg0.N) (h0 : ¬t.val % 8 = 0) (h1 : t.val % 8 = 7) :
    outAt m c t = outLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t)
      (colsAt m c (t.val - 1) (Nat.lt_of_le_of_lt (Nat.sub_le _ _) t.isLt)) := by
  unfold outAt; exact dif_pos h1

/-- The region's invariant before the point numbered `n`: before the first point, what the launch hands over (the
    three columns at anything); afterwards the three columns at what the point before left, and the generator register
    at some state. -/
def PhiS (c : Dev nD) : (n : ℕ) → n ≤ cfg0.N → sProp 𝕄
  | 0, _ => Pipeline.ΦA spec0 c
  | n + 1, hn => iprop(iprop(owns (c : Thread nD τ) colM fullShare (colsAt m c n hn).1 ∗ owns (c : Thread nD τ) colP fullShare (colsAt m c n hn).2.1 ∗ owns (c : Thread nD τ) colN fullShare (colsAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) colM fullShare (colsAt m c n hn).1 ∗ owns (c : Thread nD τ) colP fullShare (colsAt m c n hn).2.1 ∗ owns (c : Thread nD τ) colN fullShare (colsAt m c n hn).2.2) ∗ (∃ r, prngReg c r)) := rfl
theorem PhiS_pos (c : Dev nD) (n : ℕ) (h : n ≤ cfg0.N) (hz : n ≠ 0) :
    PhiS m c n h = iprop(iprop(owns (c : Thread nD τ) colM fullShare (colsAt m c (n - 1) (by omega)).1 ∗ owns (c : Thread nD τ) colP fullShare (colsAt m c (n - 1) (by omega)).2.1 ∗ owns (c : Thread nD τ) colN fullShare (colsAt m c (n - 1) (by omega)).2.2) ∗ (∃ r, prngReg c r)) := by
  cases n with
  | zero => exact absurd rfl hz
  | succ n => rfl

/-! ## The proof data

The normalised matrix is handed to the region through two windows. Its buffer is one, so the two windows hold it at the
two halves of the full share; every other array is held outright. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = outAt m c t := by dsimp only [dats]
theorem bef_w0 (c : Dev nD) (t : Fin cfg0.N) (d) : (dats m 0 c).before 0 t d = iblk m c 0 t := before_w0 m (dats m 0 c) (A_eq m c 0) (after_w0 m c) t d
theorem bef_w1 (c : Dev nD) (t : Fin cfg0.N) (d) : (dats m 0 c).before 1 t d = iblk m c 1 t := before_w1 m (dats m 0 c) (A_eq m c 1) (after_w1 m c) t d
theorem bef_w2 (c : Dev nD) (t : Fin cfg0.N) (d) : (dats m 0 c).before 2 t d = iblk m c 2 t := before_w2 m (dats m 0 c) (A_eq m c 2) (after_w2 m c) t d
theorem bef_w3 (c : Dev nD) (t : Fin cfg0.N) (d) : (dats m 0 c).before 3 t d = iblk m c 3 t := before_w3 m (dats m 0 c) (A_eq m c 3) (after_w3 m c) t d

end Cert.KernelIdeal.Stream

end
-- ==== Proof.KIBody3.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KIBody2

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The body obligation

At every grid point the body, called on the windows' current buffers — each input's at its block, the output's at
whatever it holds — and with the three columns as the point before left them, runs and leaves the inputs in place, the
three columns at this point's accumulated contents and, at a last point, the output's buffer at the block of losses. -/

theorem leave_w0 (c : Dev nD) (t : Fin cfg0.N) : (dats m 0 c).leavesExact 0 t = owns (c : Thread nD τ) (ms0 t) fullShare ((dats m 0 c).after 0 t) := by
  unfold Dat.leavesExact; rw [live_w0 t]
theorem leave_w1 (c : Dev nD) (t : Fin cfg0.N) : (dats m 0 c).leavesExact 1 t = owns (c : Thread nD τ) (ms1 t) fullShare ((dats m 0 c).after 1 t) := by
  unfold Dat.leavesExact; rw [live_w1 t]
theorem leave_w2 (c : Dev nD) (t : Fin cfg0.N) : (dats m 0 c).leavesExact 2 t = owns (c : Thread nD τ) (ms2 t) fullShare ((dats m 0 c).after 2 t) := by
  unfold Dat.leavesExact; rw [live_w2 t]
theorem leave_w3 (c : Dev nD) (t : Fin cfg0.N) : (dats m 0 c).leavesExact 3 t = owns (c : Thread nD τ) (ms3 t) fullShare ((dats m 0 c).after 3 t) := by
  unfold Dat.leavesExact; rw [live_w3 t]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [bef_w0, bef_w1, bef_w2, bef_w3]
  rw [show (dats m 0 c).owesAt () t.succ = (dats m 0 c).owesAt () t.castSucc from rfl]
  rw [show (dats m 0 c).Φ t.succ = PhiS m c (t.val + 1) t.isLt from rfl, PhiS_succ]
  rw [leave_w0, leave_w1, leave_w2, leave_w3, after_w0, after_w1, after_w2, after_w3]
  have hN : t.val < 64 := lt_of_lt_of_eq t.isLt (show cfg0.N = 64 from N_0)
  by_cases h0 : t.val % 8 = 0
  · have h1 : ¬t.val % 8 = 7 := by omega
    rw [Dat.leavesExact_idle (dats m 0 c) 4 t (idle_out t (fun h => h1 ((last_iff t).mp h))) (noflush_out t (fun h => h1 ((last_iff t).mp h)))]
    rw [colsAt_first m c t h0 h1]
    unfold colsFirst; (try dsimp only)
    by_cases hz : t.val = 0
    · rw [PhiS_castSucc m c t, PhiS_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 _ _ _ _ _ _ _ _ _ _ _ _ _ _ _ _ _ _ _ _ _ _ _ _ )
          isplitl [HS1]
          · unfold owns; iexists _; isplitr
            swap; · iexact HS1
            ipureintro; exact View.read_writes_of_cover _ _ _ _ _ (coverFirst1 _ _ _ _ _ _ _ _ _ _ _ _ _ _ _ _ _ _ _ _ _ _ _ _ )
          unfold owns; iexists _; isplitr
          swap; · iexact HS2
          ipureintro; exact View.read_writes_of_cover _ _ _ _ _ (coverFirst2 _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runFirst c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) ((first_iff t).mpr h0) (fun h => h1 ((last_iff t).mp h)) (iblk m c 0 t) (iblk m c 1 t) (iblk m c 2 t) (iblk m c 3 t)).2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirst0 _ _ _ _ _ _ _ _ _ _ _ _ _ _ _ _ _ _ _ _ _ _ _ _ )
          isplitl [HS1]
          · unfold owns; iexists _; isplitr
            swap; · iexact HS1
            ipureintro; exact View.read_writes_of_cover _ _ _ _ _ (coverFirst1 _ _ _ _ _ _ _ _ _ _ _ _ _ _ _ _ _ _ _ _ _ _ _ _ )
          unfold owns; iexists _; isplitr
          swap; · iexact HS2
          ipureintro; exact View.read_writes_of_cover _ _ _ _ _ (coverFirst2 _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 4 t = owns (c : Thread nD τ) (ms4 t) fullShare ((dats m 0 c).after 4 t) from by
        unfold Dat.leavesExact; rw [live_out t ((last_iff t).mpr h1)], after_w4, outAt_last m c t h0 h1]
      rw [colsAt_last m c t h0 h1]
      unfold colsLast outLast; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runLast c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) ((last_iff t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLast0 _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (coverLast1 _ _ _ _ _ _ _ _ _ _ _ _ _ _ _ _ _ _ _ _ _ _ _ _ _ _ _ )
          unfold owns; iexists _; isplitr
          swap; · iexact HS2
          ipureintro; exact View.read_writes_of_cover _ _ _ _ _ (coverLast2 _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastO _ _ _ _ _ _ _ _ _ _ _ _ _ _ _ _ _ _ _ _ _ _ _ _ _ _ _ )
    · rw [Dat.leavesExact_idle (dats m 0 c) 4 t (idle_out t (fun h => h1 ((last_iff t).mp h))) (noflush_out t (fun h => h1 ((last_iff t).mp h)))]
      rw [colsAt_mid m c t h0 h1]
      unfold colsMid; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runMid c (grid0.coords t) (ms0 t) (hs0 t) (ms1 t) (hs1 t) (ms2 t) (hs2 t) (ms3 t) (hs3 t) (ms4 t) (hs4 t) colM (Memref.isWhole_whole _) colP (Memref.isWhole_whole _) colN (Memref.isWhole_whole _) (fun h => h0 ((first_iff t).mp h)) (fun h => h1 ((last_iff t).mp h)) (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMid0 _ _ _ _ _ _ _ _ _ _ _ _ _ _ _ _ _ _ _ _ _ _ _ _ _ _ _ )
          isplitl [HS1]
          · unfold owns; iexists _; isplitr
            swap; · iexact HS1
            ipureintro; exact View.read_writes_of_cover _ _ _ _ _ (coverMid1 _ _ _ _ _ _ _ _ _ _ _ _ _ _ _ _ _ _ _ _ _ _ _ _ _ _ _ )
          unfold owns; iexists _; isplitr
          swap; · iexact HS2
          ipureintro; exact View.read_writes_of_cover _ _ _ _ _ (coverMid2 _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the columns' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Stream

end
-- ==== Proof.KILaunch1.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KIBody3

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: one buffer behind two windows

The region's five windows stand on FOUR buffers: the normalised matrix is read through a row-block window and a
column-block window. At entry its buffer, held whole, is divided into the two halves of the full share, one per window;
the region only reads it, and at the exit the two halves are still there at the entry contents. The host operations
after the region read the block of losses and the buffers that bypass the region, and touch none of the inputs. -/

theorem share_w0 (c : Dev nD) : (dats m 0 c).share 0 = fullShare.left := rfl
theorem share_w1 (c : Dev nD) : (dats m 0 c).share 1 = fullShare.right := rfl
theorem share_w2 (c : Dev nD) : (dats m 0 c).share 2 = fullShare := rfl
theorem share_w3 (c : Dev nD) : (dats m 0 c).share 3 = fullShare := rfl
theorem share_w4 (c : Dev nD) : (dats m 0 c).share 4 = fullShare := rfl

/-- The windows' arrays, at contents `Fa`, window by window: the matrix's buffer at its two half shares, the two label
    vectors and the losses outright. -/
theorem arrays_chain (c : Dev nD) (Fa : (w : Fin cfg0.W) → Buf (Elt F) ((cfg0.win w).arr.view.loc (c : Thread nD τ))) :
    ((dats m 0 c).arrays Fa : sProp 𝕄)
      = iprop((((c : Thread nD τ).loc main_v9) ↦{fullShare.left} Fa 0) ∗ (((c : Thread nD τ).loc main_v9) ↦{fullShare.right} Fa 1)
          ∗ (((c : Thread nD τ).loc main_v11) ↦{fullShare} Fa 2) ∗ (((c : Thread nD τ).loc main_v14) ↦{fullShare} Fa 3)
          ∗ (((c : Thread nD τ).loc main_v15) ↦{fullShare} Fa 4)) := by
  unfold Dat.arrays
  rw [bigSep_W0, (arr_whole0 0).set_eq_univ, (arr_whole0 2).set_eq_univ, (arr_whole0 3).set_eq_univ, (arr_whole0 4).set_eq_univ,
    share_w0, share_w1, share_w2, share_w3, share_w4]

/-- The four distinct buffers behind the windows, each held whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v11) ↦{fullShare} W main_v11)
          ∗ (((c : Thread nD τ).loc main_v14) ↦{fullShare} W main_v14) ∗ (((c : Thread nD τ).loc main_v15) ↦{fullShare} W main_v15)) := by
  unfold Pipeline.arrBufs
  rw [bigSep_eq_bigSepL_of_eq [main_v9, main_v11, main_v14, main_v15] (by decide) (by decide)]
  rfl

/-- ENTRY: the four buffers at the entry contents make the windows' arrays at the entry contents. -/
theorem hsplit (c : Dev nD) :
    (Pipeline.arrBufs spec0 c (V m c) : sProp 𝕄) ⊢ (dats m 0 c).arrays ((dats m 0 c).arrAt · 0) := by
  rw [arrBufs_chain, arrays_chain]
  iintro ⟨H9, H11, H14, H15⟩
  ihave H := (pointsTo_share (PosShare.mem_left_op_right fullShare)).1 $$ H9
  icases H with ⟨Hl, Hr⟩
  isplitl [Hl]; · iexact Hl
  isplitl [Hr]; · iexact Hr
  isplitl [H11]; · iexact H11
  isplitl [H14]; · iexact H14
  iexact H15

end Cert.KernelIdeal.Stream

end
-- ==== Proof.KILaunch2.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KILaunch1

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # After the region: the mean of the losses

Four host operations follow the region: two constants, the sum of the 8192 losses and its quotient by 8192. They read
the losses' buffer and write four buffers that bypass the region; they touch neither the normalised matrix nor the label
vectors, whose half and whole shares are carried past them untouched. -/

open Classical in
/-- What the TensorCore buffers hold when the region is left: the losses' buffer at what the write-backs made it, every
    other buffer as the region found it (it writes no other). -/
def Vx (c : Dev nD) : Valuation τ sig (Elt F) :=
  Function.update (V0 m c) (Proc.devRef .tc main_v15) ((dats m 0 c).arrAt 4 cfg0.N)
/-- What they hold at the end: after the four operations that follow the region. -/
def Vt (c : Dev nD) : Valuation τ sig (Elt F) := StableHlo.after (List.flatten [hostOps1]) (Vx m c)

theorem Vx_out (c : Dev nD) : Vx m c (Proc.devRef .tc main_v15) = (dats m 0 c).arrAt 4 cfg0.N := by
  unfold Vx; exact Function.update_self ..
theorem Vx_rest (c : Dev nD) (b : Ref sig .tc) (hb : b ≠ main_v15) : Vx m c (Proc.devRef .tc b) = V m c b := by
  unfold Vx; exact Function.update_of_ne (StableHlo.devRef_ne_of_ne hb) ..

/-- The buffers the later operations run within: the losses' and those that bypass the region. -/
def tailSet : Finset (DevRef τ sig) :=
  (insert main_v15 (Pipeline.restRefs sig spec0)).map ⟨Proc.devRef (sig := sig) (.tc : Proc τ), Proc.devRef_injective _⟩

theorem mem_tail (b : Ref sig .tc) (h : b ∈ insert main_v15 (Pipeline.restRefs sig spec0)) : Proc.devRef (τ := τ) .tc b ∈ tailSet :=
  Finset.mem_map_of_mem _ h

theorem out_not_rest : main_v15 ∉ Pipeline.restRefs sig spec0 := by decide

/-- Those buffers held at a valuation: the losses' buffer and the bypassing buffers, each whole. -/
theorem held_tailSet (c : Dev nD) (W : Valuation τ sig (Elt F)) :
    (StableHlo.held (c : Thread nD τ) tailSet W : sProp 𝕄)
      = iprop((((c : Thread nD τ).loc main_v15) ↦{fullShare} W (Proc.devRef .tc main_v15))
          ∗ Pipeline.unscopedRest (Ix := Unit) (Name := ℕ) (U := UR sig nD τ) (Lvl := ℕ) spec0 c (fun b => W (Proc.devRef .tc b))) := by
  unfold StableHlo.held tailSet Pipeline.unscopedRest
  rw [bigSep_map, bigSep_insert out_not_rest]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  · rw [StableHlo.nullary_bufs]; exact Finset.singleton_subset_iff.mpr (mem_tail _ (by decide))
  · rw [StableHlo.binary_bufs]; intro b hb
    simp only [Finset.mem_insert, Finset.mem_singleton] at hb
    rcases hb with rfl | rfl | rfl <;> exact mem_tail _ (by decide)
  · rw [StableHlo.nullary_bufs]; exact Finset.singleton_subset_iff.mpr (mem_tail _ (by decide))
  · rw [StableHlo.binary_bufs]; intro b hb
    simp only [Finset.mem_insert, Finset.mem_singleton] at hb
    rcases hb with rfl | rfl | rfl <;> exact mem_tail _ (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The later operations do not write the losses' buffer. -/
theorem Vt_out (c : Dev nD) : Vt m c (Proc.devRef .tc main_v15) = (dats m 0 c).arrAt 4 cfg0.N := by
  unfold Vt
  rw [StableHlo.after_of_forall_not_mem _ _ fun op hop => ?_, Vx_out]
  simp only [List.flatten_cons, List.flatten_nil, List.append_nil, hostOps1, List.mem_cons, List.mem_nil_iff, or_false] at hop
  rcases hop with rfl | rfl | rfl | rfl <;>
    simp only [StableHlo.nullary_writes, StableHlo.binary_writes, Finset.mem_singleton] <;>
    exact StableHlo.devRef_ne_of_ne (by decide)

end Cert.KernelIdeal.Stream

end
-- ==== Proof.KILaunch3.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KILaunch2

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (chain chain_nil wp_seqs_then)

variable (m : (ℓ : Loc nD τ sig) → Buf (Elt F) ℓ) (ρ : Dev nD → PrngReg)

/-- The bypassing buffers as the region finds them, and as the later operations leave them. -/
abbrev Zin (c : Dev nD) : sProp 𝕄 :=
  Pipeline.unscopedRest (Ix := Unit) (Name := ℕ) (U := UR sig nD τ) (Lvl := ℕ) spec0 c (V m c)
abbrev Zout (c : Dev nD) : sProp 𝕄 :=
  Pipeline.unscopedRest (Ix := Unit) (Name := ℕ) (U := UR sig nD τ) (Lvl := ℕ) spec0 c (fun b => Vt m c (Proc.devRef .tc b))

/-- The region writes no bypassing buffer: at the exit they hold what they held at the entry. -/
theorem rest_exit (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  exact bigSep_congr fun b hb => by
    dsimp only
    rw [Vx_rest m c b (fun e => out_not_rest (e ▸ hb))]

theorem held_in (c : Dev nD) :
    (StableHlo.held (c : Thread nD τ) tailSet (Vx m c) : sProp 𝕄)
      = iprop((((c : Thread nD τ).loc main_v15) ↦{fullShare} (dats m 0 c).arrAt 4 cfg0.N) ∗ Zin m c) := by
  rw [held_tailSet, Vx_out, rest_exit]

theorem held_out (c : Dev nD) :
    (StableHlo.held (c : Thread nD τ) tailSet (StableHlo.after (List.flatten [hostOps1]) (Vx m c)) : sProp 𝕄)
      = iprop((((c : Thread nD τ).loc main_v15) ↦{fullShare} (dats m 0 c).arrAt 4 cfg0.N) ∗ Zout m c) := by
  rw [held_tailSet, show StableHlo.after (List.flatten [hostOps1]) (Vx m c) = Vt m c from rfl, Vt_out]

set_option backward.isDefEq.respectTransparency.types false in
/-- THE OPERATIONS AFTER THE REGION: from the region's exit — the windows' arrays at their final contents, the bypassing
    buffers as the region found them — they run and hand back the arrays untouched and the bypassing buffers at what
    the operations make of them. -/
theorem htail (𝒱₀ : Variants) (c : Dev nD) (Q' : PUnit → sProp 𝕄) :
    iprop((iprop((dats m 0 c).arrays ((dats m 0 c).arrAt · cfg0.N) ∗ Zout m c) -∗ Q' ⟨⟩)
        ∗ boundary (c : Thread nD τ) ∗ (dats m 0 c).arrays ((dats m 0 c).arrAt · cfg0.N) ∗ Zin m c)
      ⊢ wp frame (wpE (Pipeline.defs (pcfgs (F := F)) defs₀) (Variants.lift 𝒱₀) (c : Thread nD τ) none) Set.univ
          (chain ([hostOps1].map StableHlo.seq)) Q' := by
  rw [arrays_chain, ← List.append_nil ([hostOps1].map StableHlo.seq)]
  iintro ⟨Hk, Hb, ⟨Ha0, Ha1, Ha2, Ha3, Ha4⟩, HZ⟩
  ihave Hh := (show iprop(boundary (c : Thread nD τ) ∗ (((c : Thread nD τ).loc main_v15) ↦{fullShare} (dats m 0 c).arrAt 4 cfg0.N) ∗ Zin m c)
      ⊢ iprop(boundary (c : Thread nD τ) ∗ (StableHlo.held (c : Thread nD τ) tailSet (Vx m c) : sProp 𝕄)) from by rw [held_in]; try exact .rfl) $$ [Hb Ha4 HZ]
  · isplitl [Hb]; · iexact Hb
    isplitl [Ha4]; · iexact Ha4
    iexact HZ
  iapply (wp_seqs_then (pcfgs (F := F)) defs₀ 𝒱₀ c tailSet [] [hostOps1] tail_sub tail_fresh (Vx m c)) $$ Hh
  iintro Hh
  rw [chain_nil, wp_pure]
  imodintro
  iapply Hk
  ihave Hh' := (show iprop(boundary (c : Thread nD τ) ∗ (StableHlo.held (c : Thread nD τ) tailSet (StableHlo.after (List.flatten [hostOps1]) (Vx m c)) : sProp 𝕄))
      ⊢ iprop((((c : Thread nD τ).loc main_v15) ↦{fullShare} (dats m 0 c).arrAt 4 cfg0.N) ∗ Zout m c) from by
        rw [held_out]; iintro ⟨-, H⟩; iexact H) $$ Hh
  icases Hh' with ⟨Ha4, HZ⟩
  isplitr [HZ]
  · isplitl [Ha0]; · iexact Ha0
    isplitl [Ha1]; · iexact Ha1
    isplitl [Ha2]; · iexact Ha2
    isplitl [Ha3]; · iexact Ha3
    iexact Ha4
  iexact HZ

end Cert.KernelIdeal.Stream

end
-- ==== Proof.KILaunch4.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KILaunch3

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-- What a final state holds: every window's array at what the write-backs made of it, every buffer that bypasses
    the region at what the later operations leave. -/
def RunPost (r : PUnit × MemSt nD τ sig (Elt F)) : Prop :=
  ∀ c : Dev nD, (∀ w : Fin cfg0.W, r.2.mem ((cfg0.win w).arr.view.loc (c : Thread nD τ)) = (dats m 0 c).arrAt w cfg0.N)
    ∧ ∀ b ∈ restRefs sig spec0, r.2.mem ((c : Thread nD τ).loc b) = Vt m c (Proc.devRef .tc b)

set_option backward.isDefEq.respectTransparency.types false in
/-- THE RUN. At the compiled mesh, from any memory with zero counters, every weakly fair execution of the host program
    terminates without a fault, and every final state is as `RunPost` says. -/
theorem run_main : θ_run defs (onTc (τ := τ) (main (F := F))) (s₀ m ρ) (RunPost m) := by
  classical
  exact θ_run_region_pf_tail (fun q => (cfgs q).toPCfg (Val := Elt F)) (fun q => (cfgs q).toPCfg_adm) (dats m) () cellOf_inj 0 winFacts₀0
    (OwnSemFacts.none spec0) (PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      rw [unscopedRestP_none]
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := htail m Variants.none)
    (QY := fun c s => ∀ b ∈ restRefs sig spec0, s.mem ((c.tc : Thread nD τ).loc b) = Vt m c (Proc.devRef .tc b))
    (hY := fun c s' => by
      unfold Zout unscopedRest
      iintro ⟨-, HU, HSI⟩
      imodintro
      iapply (pointsTo_read_all (restRefs sig spec0) (fun b => (c.tc : Thread nD τ).loc b) (fun b => Vt m c (Proc.devRef .tc b)) s')
      isplitl [HU] <;> iassumption)
    (hQ := fun s h c => ⟨(h c).1, (h c).2.2⟩)

/-- info: 'Cert.KernelIdeal.Stream.run_main' depends on axioms: [propext, Classical.choice, Quot.sound] -/
#guard_msgs in #print axioms run_main

end Cert.KernelIdeal.Stream

end
-- ==== Proof.KIFrame.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.StableHlo.Run
import proofs.«125412_j36936718745849_1_alg».proof.Proof.KILaunch4

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! # The frame

No host operation writes an argument array, and the region reads its inputs only: both arguments end as they began. -/

theorem V_arg0 (c : Dev nD) : V m c main_arg0 = m ((c : Thread nD τ).loc main_arg0) := by
  show StableHlo.after hostOps0 (fun b => m (c, b)) (Proc.devRef .tc main_arg0) = _
  after_results
theorem V_arg1 (c : Dev nD) : V m c main_arg1 = m ((c : Thread nD τ).loc main_arg1) := by
  show StableHlo.after hostOps0 (fun b => m (c, b)) (Proc.devRef .tc main_arg1) = _
  after_results

theorem Vt_arg0 (c : Dev nD) : Vt m c (Proc.devRef .tc main_arg0) = m ((c : Thread nD τ).loc main_arg0) := by
  unfold Vt
  show StableHlo.after hostOps1 (Vx m c) (Proc.devRef .tc main_arg0) = _
  after_results
  rw [Vx_rest m c main_arg0 (by decide)]
  exact V_arg0 m c
theorem Vt_arg1 (c : Dev nD) : Vt m c (Proc.devRef .tc main_arg1) = m ((c : Thread nD τ).loc main_arg1) := by
  unfold Vt
  show StableHlo.after hostOps1 (Vx m c) (Proc.devRef .tc main_arg1) = _
  after_results
  rw [Vx_rest m c main_arg1 (by decide)]
  exact V_arg1 m c

theorem arg0_rest : main_arg0 ∈ restRefs sig spec0 := by decide
theorem arg1_rest : main_arg1 ∈ restRefs sig spec0 := by decide
theorem res_rest : main_v17 ∈ restRefs sig spec0 := by decide

/-- THE FRAME at any instance: every weakly fair execution terminates without a fault and the two argument arrays end
    unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).2 main_arg0 arg0_rest).trans (Vt_arg0 m c), ((h c).2 main_arg1 arg1_rest).trans (Vt_arg1 m c)⟩)
    (run_main m ρ)

/-- The run with the result named: the result buffer ends at what the later operations make of the losses, the
    arguments unchanged. -/
theorem run_result : θ_run defs (onTc (τ := τ) (main (F := F))) ⟨m, fun _ => 0, ρ⟩ (fun r => ∀ c : Dev nD,
      r.2.mem ((c.tc : Thread nD τ).loc main_v17) = Vt m c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2 main_v17 res_rest, ((h c).2 main_arg0 arg0_rest).trans (Vt_arg0 m c), ((h c).2 main_arg1 arg1_rest).trans (Vt_arg1 m c)⟩)
    (run_main m ρ)

end Cert.KernelIdeal.Stream

end
-- ==== Proof.RealValued.lean ====
import Idealize.ShloMosaic.PureOps.Ideal

/-!
# Extended reals that are real numbers

The elementary closure facts used to show that intermediate values are real (neither `⊤` nor
`⊥`): finite sums, products, squares, square roots of nonnegatives, maxima against a positive
number, quotients by a positive number; the comparison `|x| < +∞`; and the three float words whose
values these arguments need (`+∞`, zero, and the small positive clamp), each unfolded once here.
-/

noncomputable section

namespace Cert.Finite

open Idealize.ShloMosaic

/-! ## Closure under the arithmetic -/

/-- A finite sum of reals is a real. -/
theorem real_sum {ι : Type*} (s : Finset ι) (f : ι → EReal)
    (hf : ∀ i ∈ s, ∃ a : ℝ, f i = (a : EReal)) : ∃ a : ℝ, ∑ i ∈ s, f i = (a : EReal) := by
  classical
  induction s using Finset.induction_on with
  | empty => exact ⟨0, by simp⟩
  | insert i s hi ih =>
    obtain ⟨a, e⟩ := hf i (Finset.mem_insert_self i s)
    obtain ⟨b, e'⟩ := ih (fun j hj => hf j (Finset.mem_insert_of_mem hj))
    exact ⟨a + b, by rw [Finset.sum_insert hi, e, e', EReal.coe_add]⟩

/-- The coercion of reals commutes with finite sums. -/
theorem coe_sum {ι : Type*} (s : Finset ι) (h : ι → ℝ) :
    ∑ i ∈ s, (h i : EReal) = ((∑ i ∈ s, h i : ℝ) : EReal) := by
  classical
  induction s using Finset.induction_on with
  | empty => simp
  | insert i s hi ih => rw [Finset.sum_insert hi, Finset.sum_insert hi, ih, EReal.coe_add]

/-- A finite sum of nonnegative reals is a nonnegative real. -/
theorem real_sum_nonneg {ι : Type*} (s : Finset ι) (f : ι → EReal)
    (hf : ∀ i ∈ s, ∃ a : ℝ, 0 ≤ a ∧ f i = (a : EReal)) :
    ∃ a : ℝ, 0 ≤ a ∧ ∑ i ∈ s, f i = (a : EReal) := by
  classical
  induction s using Finset.induction_on with
  | empty => exact ⟨0, le_rfl, by simp⟩
  | insert i s hi ih =>
    obtain ⟨a, ha, e⟩ := hf i (Finset.mem_insert_self i s)
    obtain ⟨b, hb, e'⟩ := ih (fun j hj => hf j (Finset.mem_insert_of_mem hj))
    exact ⟨a + b, add_nonneg ha hb, by rw [Finset.sum_insert hi, e, e', EReal.coe_add]⟩

/-- The product of two reals is a real. -/
theorem real_mul {u v : EReal} (hu : ∃ a : ℝ, u = (a : EReal)) (hv : ∃ b : ℝ, v = (b : EReal)) :
    ∃ c : ℝ, u * v = (c : EReal) := by
  obtain ⟨a, rfl⟩ := hu
  obtain ⟨b, rfl⟩ := hv
  exact ⟨a * b, (EReal.coe_mul a b).symm⟩

/-- The square of a real is a nonnegative real. -/
theorem real_sq {u : EReal} (h : ∃ a : ℝ, u = (a : EReal)) :
    ∃ b : ℝ, 0 ≤ b ∧ u * u = (b : EReal) := by
  obtain ⟨a, rfl⟩ := h
  exact ⟨a * a, mul_self_nonneg a, (EReal.coe_mul a a).symm⟩

/-- The square root of a nonnegative real is a nonnegative real. -/
theorem real_sqrt {u : EReal} (h : ∃ a : ℝ, 0 ≤ a ∧ u = (a : EReal)) :
    ∃ b : ℝ, 0 ≤ b ∧ Ideal.sqrt u = (b : EReal) := by
  obtain ⟨a, ha, rfl⟩ := h
  exact ⟨Real.sqrt a, Real.sqrt_nonneg a, by rw [Ideal.sqrt_coe, if_neg (not_lt.2 ha)]⟩

/-- The maximum of a real and a positive real is a positive real. -/
theorem real_max_pos {u v : EReal} (hu : ∃ a : ℝ, u = (a : EReal)) (hv : ∃ e : ℝ, 0 < e ∧ v = (e : EReal)) :
    ∃ b : ℝ, 0 < b ∧ max u v = (b : EReal) := by
  obtain ⟨a, rfl⟩ := hu
  obtain ⟨e, he, rfl⟩ := hv
  exact ⟨max a e, lt_max_of_lt_right he, (EReal.coe_strictMono.monotone.map_max).symm⟩

/-- A real divided by a positive real is a real. -/
theorem real_div_pos {u v : EReal} (hu : ∃ a : ℝ, u = (a : EReal)) (hv : ∃ b : ℝ, 0 < b ∧ v = (b : EReal)) :
    ∃ c : ℝ, Ideal.div u v = (c : EReal) := by
  obtain ⟨a, rfl⟩ := hu
  obtain ⟨b, hb, rfl⟩ := hv
  exact ⟨a * (1 / b), by rw [Ideal.div_coe hb.ne', EReal.coe_mul]⟩

/-! ## The comparison `|x| < +∞` -/

/-- The bit of a boolean is one exactly when the boolean is true. -/
theorem bit_eq_one_iff (b : Bool) : BitVec.ofBool b = 1#1 ↔ b = true := by
  cases b <;> decide

/-- The ordered comparison `<` on the extended reals answers one exactly when it holds. -/
theorem cmp_olt_eq_one_iff (a b : EReal) : Ideal.cmp .olt a b = 1#1 ↔ a < b := by
  simp only [Ideal.cmp, bit_eq_one_iff, decide_eq_true_eq]

/-- An extended real whose absolute value is below `+∞` is a real number. -/
theorem real_of_abs_lt_top (x : EReal) (h : max x (-x) < ⊤) : ∃ a : ℝ, x = (a : EReal) := by
  induction x using EReal.rec with
  | bot => simp at h
  | coe a => exact ⟨a, rfl⟩
  | top => simp at h

/-! ## Three float words -/

/-- The word `0x7F800000` (all-ones exponent, zero fraction, sign clear) denotes `+∞`. -/
theorem ofBits_pos_inf : Ideal.ofBits .f32 0x7F800000#32 = (⊤ : EReal) := by
  simp [Ideal.ofBits, Ideal.ieee]

/-- The zero word denotes the real `0`. -/
theorem zero_word : Ideal.ofBits .f32 0x00000000#32 = ((0 : ℝ) : EReal) := by
  simp [Ideal.ofBits, Ideal.ieee]

/-- The word `0x2B8CBCCC` (sign clear, biased exponent 87: a normal number) denotes a positive real. -/
theorem eps_pos : ∃ e : ℝ, 0 < e ∧ Ideal.ofBits .f32 0x2B8CBCCC#32 = (e : EReal) := by
  simp [Ideal.ofBits, Ideal.ieee, -EReal.coe_mul]

end Cert.Finite

end
-- ==== Proof.FiniteFeat.lean ====
import proofs.«125412_j36936718745849_1_alg».proof.KernelIdeal
import proofs.«125412_j36936718745849_1_alg».proof.Proof.RealValued

/-!
# The normalised matrix is real-valued

Both programs first flatten the input to an `8192 × 128` matrix `X` and divide every row by
`max (√(∑ d, X r d * X r d)) ε`, where `ε` is a positive constant. If every entry of the input is
a real number then so is every entry of the quotient: a finite sum of squares of reals is a
nonnegative real, its square root is a nonnegative real, the maximum with `ε` is a positive real,
and a real divided by a nonzero real is a real.
-/

noncomputable section

namespace Cert.Finite

open Idealize.ShloMosaic Cert.KernelIdeal

/-! ## The normalisation, stage by stage -/

variable [Facts]
open Facts₀

/-- The input flattened to `8192` rows of `128` entries. -/
def rowsOf (x : FVec Ideal S64x128x128 .f32) : FVec Ideal S8192x128 .f32 :=
  shapeCast S8192x128 x shapeCasts_S64x128x128_S8192x128

/-- The column of row norms, each clamped below by the positive constant: `max (√(∑ d, X r d * X r d)) ε`. -/
def normOf (x : FVec Ideal S64x128x128 .f32) : FVec Ideal S8192x1 .f32 :=
  maximumf
    (Host.sqrt (F := Ideal)
      (broadcastInDim S8192x1 ![0] bcast_S8192_S8192x1_0
        (Host.reduceAdd (F := Ideal) (mulf (rowsOf x) (rowsOf x)) (constant (F := Ideal) S_ .f32 0x00000000#32)
          reducesTo_S8192x128_S8192_d1 h_S_)))
    (broadcastInDim S8192x1 ![] bcast_S_S8192x1 (constant (F := Ideal) S_ .f32 0x2B8CBCCC#32))

/-- The normalised matrix: every row of the flattened input divided by its clamped norm. -/
def featOf (x : FVec Ideal S64x128x128 .f32) : FVec Ideal S8192x128 .f32 :=
  Host.divf (F := Ideal) (rowsOf x) (broadcastInDim S8192x128 ![0, 1] bcast_S8192x1_S8192x128_0_1 (normOf x))

/-- The same composite written out as the chain of the nine host operations. -/
theorem featOf_eq (x : FVec Ideal S64x128x128 .f32) :
    featOf x =
      Host.divf (F := Ideal) (shapeCast S8192x128 x shapeCasts_S64x128x128_S8192x128)
        (broadcastInDim S8192x128 ![0, 1] bcast_S8192x1_S8192x128_0_1
          (maximumf
            (Host.sqrt (F := Ideal)
              (broadcastInDim S8192x1 ![0] bcast_S8192_S8192x1_0
                (Host.reduceAdd (F := Ideal)
                  (mulf (shapeCast S8192x128 x shapeCasts_S64x128x128_S8192x128)
                    (shapeCast S8192x128 x shapeCasts_S64x128x128_S8192x128))
                  (constant (F := Ideal) S_ .f32 0x00000000#32) reducesTo_S8192x128_S8192_d1 h_S_)))
            (broadcastInDim S8192x1 ![] bcast_S_S8192x1 (constant (F := Ideal) S_ .f32 0x2B8CBCCC#32)))) :=
  rfl

section
variable (x : FVec Ideal S64x128x128 .f32) (hx : ∀ i, ∃ a : ℝ, x i = (a : EReal))
include hx

/-- Every entry of the flattened input is a real. -/
theorem rowsOf_real (k : S8192x128.Idx) : ∃ a : ℝ, rowsOf x k = (a : EReal) :=
  hx _

/-- Every row's sum of squares — zero plus a finite sum of squares of reals — is a nonnegative real. -/
theorem sumSq_nonneg (r : S8192.Idx) :
    ∃ s : ℝ, 0 ≤ s ∧ Host.reduceAdd (F := Ideal) (mulf (rowsOf x) (rowsOf x))
      (constant (F := Ideal) S_ .f32 0x00000000#32) reducesTo_S8192x128_S8192_d1 h_S_ r = (s : EReal) := by
  obtain ⟨s, hs, es⟩ := real_sum_nonneg
    (Finset.univ.filter fun i => reducesTo_S8192x128_S8192_d1.drop i = r)
    (mulf (rowsOf x) (rowsOf x)) (fun i _ => real_sq (rowsOf_real x hx i))
  refine ⟨0 + s, by linarith, ?_⟩
  show Ideal.ofBits .f32 0x00000000#32 + _ = _
  rw [zero_word, es, EReal.coe_add]

/-- Every clamped row norm is a positive real. -/
theorem normOf_pos (j : S8192x1.Idx) : ∃ b : ℝ, 0 < b ∧ normOf x j = (b : EReal) := by
  refine real_max_pos ?_ eps_pos
  obtain ⟨b, -, e⟩ := real_sqrt (sumSq_nonneg x hx _)
  exact ⟨b, e⟩

/-- Every entry of the normalised matrix is a real. -/
theorem featOf_real (k : S8192x128.Idx) : ∃ a : ℝ, featOf x k = (a : EReal) :=
  real_div_pos (rowsOf_real x hx k) (normOf_pos x hx _)

end

end Cert.Finite

end
-- ==== Proof.FiniteFeatRef.lean ====
import proofs.«125412_j36936718745849_1_alg».proof.Proof.FiniteFeat
import proofs.«125412_j36936718745849_1_alg».proof.Proof.Gen.ReferenceIdeal.Read

/-!
# The reference normalises the same way

The reference's first nine host operations are the same chain as the kernel's: its normalised
matrix is `featOf` of its float argument, hence real-valued whenever the argument is.
-/

noncomputable section

namespace Cert.Finite

open Idealize.ShloMosaic

variable [Cert.KernelIdeal.Facts] [Cert.ReferenceIdeal.Facts]

/-- The reference's normalised matrix is the common normalisation of its argument. -/
theorem ref_feat_eq (x0 : FVec Ideal Cert.KernelIdeal.S64x128x128 .f32) :
    Cert.ReferenceIdeal.Read.val_main_v8 (F := Ideal) x0 = featOf x0 := rfl

/-- Hence it is real-valued when the argument is. -/
theorem ref_feat_real (x0 : FVec Ideal Cert.KernelIdeal.S64x128x128 .f32)
    (hx : ∀ i, ∃ a : ℝ, x0 i = (a : EReal)) (k : Cert.KernelIdeal.S8192x128.Idx) :
    ∃ a : ℝ, Cert.ReferenceIdeal.Read.val_main_v8 (F := Ideal) x0 k = (a : EReal) :=
  featOf_real x0 hx k

end Cert.Finite

end
-- ==== Proof.Spec.lean ====
import Mathlib
import Idealize.ShloMosaic.Lib.ValueIdx

/-!
# The row loss, in its direct form

For a matrix `feat` of 8192 rows of 128 extended reals and two label vectors, row `r` has the similarities
`sim r c = ∑ k, feat r k * feat c k` to every row `c`, their maximum `rowMax r`, and the two weighted sums of
`exp (sim r c - rowMax r)`: over the columns whose label equals the row's (`pos`) and over the others (`neg`).
The row's loss is `-log (pos / (pos + neg + ε) + ε)` and the result is the mean of the 8192 losses.

The columns 0 … 8191 are also read as 8 consecutive blocks of 1024: column `j * 1024 + q` is entry `q` of
block `j`. A sum over all columns is the sum over the blocks of the sums inside them, and likewise a maximum.
-/

noncomputable section

namespace Cert.RowSpec

open Idealize.ShloMosaic Idealize.ShloMosaic.ValueIdx
open scoped BigOperators

/-- The similarity of rows `r` and `c`: the inner product of the two rows. -/
def sim (feat : (⟨2, ![8192, 128]⟩ : Shape).Idx → EReal) (r c : Fin 8192) : EReal :=
  ∑ k : Fin 128, feat (ix2 r k) * feat (ix2 c k)

/-- The largest similarity in row `r`, as the fold of `max` from `⊥` over the columns. -/
def rowMax (feat : (⟨2, ![8192, 128]⟩ : Shape).Idx → EReal) (r : Fin 8192) : EReal :=
  (Finset.univ : Finset (Fin 8192)).fold max ⊥ (fun c => sim feat r c)

/-- `1` where the row's label equals the column's, `0` elsewhere: the one-bit comparison read unsigned. -/
def mask (rl cl : (⟨1, ![8192]⟩ : Shape).Idx → BitVec 32) (r c : Fin 8192) : EReal :=
  (((IntOp.cmpi .eq (rl (ix1 r)) (cl (ix1 c))).toNat : ℝ) : EReal)

/-- The sum of the exponentials over the columns with the row's label. -/
def pos (feat : (⟨2, ![8192, 128]⟩ : Shape).Idx → EReal) (rl cl : (⟨1, ![8192]⟩ : Shape).Idx → BitVec 32)
    (r : Fin 8192) : EReal :=
  ∑ c : Fin 8192, Ideal.exp (sim feat r c - rowMax feat r) * mask rl cl r c

/-- The sum of the exponentials over the other columns. -/
def neg (feat : (⟨2, ![8192, 128]⟩ : Shape).Idx → EReal) (rl cl : (⟨1, ![8192]⟩ : Shape).Idx → BitVec 32)
    (r : Fin 8192) : EReal :=
  ∑ c : Fin 8192, Ideal.exp (sim feat r c - rowMax feat r) * (1 - mask rl cl r c)

/-- The small constant added to the denominator and to the ratio. -/
def eps : EReal := Ideal.ofBits .f32 0x322BCC77#32

/-- The loss of row `r`. -/
def rowLoss (feat : (⟨2, ![8192, 128]⟩ : Shape).Idx → EReal) (rl cl : (⟨1, ![8192]⟩ : Shape).Idx → BitVec 32)
    (r : Fin 8192) : EReal :=
  -(Ideal.log (Ideal.div (pos feat rl cl r) (pos feat rl cl r + neg feat rl cl r + eps) + eps))

/-- The mean of 8192 losses: their sum from the zero word, divided by the word of 8192. -/
def total (loss : Fin 8192 → EReal) : EReal :=
  Ideal.div (Ideal.ofBits .f32 0x00000000#32 + ∑ r : Fin 8192, loss r) (Ideal.ofBits .f32 0x46000000#32)

/-! ## The mask is a real number, whichever way the one-bit comparison is read -/

theorem mask_real (rl cl : (⟨1, ![8192]⟩ : Shape).Idx → BitVec 32) (r c : Fin 8192) :
    ∃ x : ℝ, mask rl cl r c = (x : EReal) := ⟨_, rfl⟩

theorem one_sub_mask_real (rl cl : (⟨1, ![8192]⟩ : Shape).Idx → BitVec 32) (r c : Fin 8192) :
    ∃ x : ℝ, 1 - mask rl cl r c = (x : EReal) :=
  ⟨1 - ((IntOp.cmpi .eq (rl (ix1 r)) (cl (ix1 c))).toNat : ℝ), by
    rw [EReal.coe_sub, EReal.coe_one]; rfl⟩

/-- A one-bit word widened with zeros to 32 bits and read signed is the bit read unsigned. -/
theorem toInt_setWidth_bit (b : BitVec 1) : (b.setWidth 32).toInt = (b.toNat : Int) := by
  have h : b = 0#1 ∨ b = 1#1 := by
    have := b.isLt
    rcases Nat.lt_or_ge b.toNat 1 with h0 | h1
    · left; apply BitVec.eq_of_toNat_eq; simp; omega
    · right; apply BitVec.eq_of_toNat_eq; simp; omega
  rcases h with rfl | rfl <;> rfl

/-- So the signed reading of the widened bit and the unsigned reading of the bit are the same extended real. -/
theorem sitofp_extui_bit (b : BitVec 1) :
    ((((b.setWidth 32).toInt : ℤ) : ℝ) : EReal) = (((b.toNat : ℕ) : ℝ) : EReal) := by
  rw [toInt_setWidth_bit]; norm_cast

/-- The bit pattern of one denotes `1`. -/
theorem ofBits_one_f32 : Ideal.ofBits .f32 0x3F800000#32 = (1 : EReal) := by
  simp [Ideal.ofBits, Ideal.ieee]
  rw [← EReal.coe_mul, ← EReal.coe_one]
  exact congrArg Real.toEReal (by norm_num)

/-- In the operations' own names: converting the widened bit as a signed integer is converting the bit as an
    unsigned one. -/
theorem sitofp_setWidth_eq_uitofp (b : BitVec 1) :
    FloatOps.sitofp (F := Ideal) .f32 (b.setWidth 32) = FloatOps.uitofp (F := Ideal) .f32 b :=
  sitofp_extui_bit b

/-- The mask in the operations' own names. -/
theorem mask_eq_uitofp (rl cl : (⟨1, ![8192]⟩ : Shape).Idx → BitVec 32) (r c : Fin 8192) :
    mask rl cl r c = FloatOps.uitofp (F := Ideal) .f32 (IntOp.cmpi .eq (rl (ix1 r)) (cl (ix1 c))) := rfl

/-! ## Columns in 8 blocks of 1024 -/

/-- Entry `q` of block `j` is column `j * 1024 + q`. -/
def col (j : Fin 8) (q : Fin 1024) : Fin 8192 :=
  ⟨j.val * 1024 + q.val, by have := j.isLt; have := q.isLt; omega⟩

theorem col_val (j : Fin 8) (q : Fin 1024) : (col j q).val = j.val * 1024 + q.val := rfl

/-- Every column is an entry of a block. -/
theorem exists_col (c : Fin 8192) : ∃ j q, c = col j q :=
  ⟨⟨c.val / 1024, by have := c.isLt; omega⟩, ⟨c.val % 1024, by omega⟩, Fin.ext (by
    show c.val = c.val / 1024 * 1024 + c.val % 1024; omega)⟩

/-- A sum over the columns is the sum over the blocks of the sums inside them. -/
theorem sum_cols {M : Type*} [AddCommMonoid M] (g : Fin 8192 → M) :
    ∑ c : Fin 8192, g c = ∑ j : Fin 8, ∑ q : Fin 1024, g (col j q) := by
  rw [← Fintype.sum_prod_type' (f := fun j q => g (col j q))]
  refine (Fintype.sum_equiv (finProdFinEquiv (m := 8) (n := 1024)) _ _ fun p => ?_).symm
  refine congrArg g (Fin.ext ?_)
  show p.1.val * 1024 + p.2.val = p.2.val + 1024 * p.1.val
  omega

/-- A maximum over the columns is the maximum over the blocks of the maxima inside them. -/
theorem max_cols (g : Fin 8192 → EReal) :
    (Finset.univ : Finset (Fin 8192)).fold max ⊥ g
      = (Finset.univ : Finset (Fin 8)).fold max ⊥
          (fun j => (Finset.univ : Finset (Fin 1024)).fold max ⊥ (fun q => g (col j q))) := by
  show Finset.univ.sup g = Finset.univ.sup fun j => Finset.univ.sup fun q => g (col j q)
  refine le_antisymm (Finset.sup_le fun c _ => ?_) (Finset.sup_le fun j _ => Finset.sup_le fun q _ => ?_)
  · obtain ⟨j, q, rfl⟩ := exists_col c
    exact le_trans (Finset.le_sup (f := fun q => g (col j q)) (Finset.mem_univ q))
      (Finset.le_sup (f := fun j => Finset.univ.sup fun q => g (col j q)) (Finset.mem_univ j))
  · exact Finset.le_sup (f := g) (Finset.mem_univ (col j q))

end Cert.RowSpec

end
-- ==== Proof.Total.lean ====
import proofs.«125412_j36936718745849_1_alg».proof.Proof.Spec

/-!
# The mean of the row losses, from either arrangement of the 8192 losses

The losses may sit in a vector of 8192 entries or in a column of 8192 rows and one entry each. A sum over either
index set is the sum over the row number, so either arrangement's mean is the mean of the row losses.
-/

noncomputable section

namespace Cert.RowSpec

open Idealize.ShloMosaic Idealize.ShloMosaic.ValueIdx
open scoped BigOperators

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The mean taken over a vector of 8192 losses. -/
theorem total_of_vec (v : (⟨1, ![8192]⟩ : Shape).Idx → EReal) :
    Ideal.div (Ideal.ofBits .f32 0x00000000#32 + ∑ j, v j) (Ideal.ofBits .f32 0x46000000#32)
      = total fun r => v (ix1 r) := by
  unfold total
  rw [sum_idx1]

/-- The mean taken over a column of 8192 losses. -/
theorem total_of_col (v : (⟨2, ![8192, 1]⟩ : Shape).Idx → EReal) :
    Ideal.div (Ideal.ofBits .f32 0x00000000#32 + ∑ j, v j) (Ideal.ofBits .f32 0x46000000#32)
      = total fun r => v (ix2 r (0 : Fin 1)) := by
  unfold total
  rw [sum_idx2]
  simp only [Fin.sum_univ_one]

/-- Two families of losses that agree row by row have the same mean. -/
theorem total_congr {f g : Fin 8192 → EReal} (h : ∀ r, f r = g r) : total f = total g := by
  rw [funext h]

end Cert.RowSpec

end
-- ==== Proof.KIHost.lean ====
import proofs.«125412_j36936718745849_1_alg».proof.Proof.KILaunch2
import proofs.«125412_j36936718745849_1_alg».proof.Proof.FiniteFeatRef
import proofs.«125412_j36936718745849_1_alg».proof.Proof.Total

/-!
# The host operations around the region, read at the extended reals

Before the region the host normalises the rows and lays out the two label vectors; a last change of format
is the identity on extended reals, so what the region finds is the normalised matrix itself, and the two
label vectors are the same rearrangements of the integer argument as the reference makes. After the region
the host sums the 8192 losses from zero and divides by 8192: the mean of the losses.
-/

set_option maxRecDepth 16384

noncomputable section

namespace Cert.KernelIdeal.HostRead

open Cert.KernelIdeal Cert.KernelIdeal.Gen Cert.KernelIdeal.Stream
open Idealize.ShloMosaic Idealize.ShloMosaic.TcCoe Idealize.ShloMosaic.StableHlo Idealize.SL.Sem

variable (m : (ℓ : Loc nD τ sig) → Buf (Elt Ideal) ℓ)

/-- The matrix the region reads is the normalised matrix of the float argument. -/
theorem V_feat (c : Dev nD) :
    (V m c main_v9 : S8192x128.Idx → EReal) = Cert.Finite.featOf (m ((c : Thread nD τ).loc main_arg0)) := by
  show StableHlo.after hostOps0 (fun b => m (c, b)) (Proc.devRef .tc main_v9) = _
  after_results
  rfl

/-- The row labels the region reads are the reference's row labels of the integer argument. -/
theorem V_rowLabels (c : Dev nD) :
    V m c main_v11 = Cert.ReferenceIdeal.Read.val_main_v17 (F := Ideal) (m ((c : Thread nD τ).loc main_arg1)) := by
  show StableHlo.after hostOps0 (fun b => m (c, b)) (Proc.devRef .tc main_v11) = _
  after_results
  rfl

/-- The column labels the region reads are the reference's column labels of the integer argument. -/
theorem V_colLabels (c : Dev nD) :
    V m c main_v14 = Cert.ReferenceIdeal.Read.val_main_v20 (F := Ideal) (m ((c : Thread nD τ).loc main_arg1)) := by
  show StableHlo.after hostOps0 (fun b => m (c, b)) (Proc.devRef .tc main_v14) = _
  after_results
  rfl

/-- What the host leaves in the result buffer is the mean of the losses the region wrote. -/
theorem Vt_mean (c : Dev nD) :
    Vt m c (Proc.devRef .tc main_v17)
      = fun _ => Cert.RowSpec.total (fun r => (dats m 0 c).arrAt 4 cfg0.N (ValueIdx.ix1 r)) := by
  unfold Vt
  show StableHlo.after hostOps1 (Vx m c) (Proc.devRef .tc main_v17) = _
  after_results
  rw [Vx_out]
  funext i
  show FloatOps.hostDivf (Host.reduceAdd (F := Ideal) _ _ reducesTo_S8192_S_d0 h_S_ i)
    (Ideal.ofBits .f32 0x46000000#32) = _
  simp only [Host.reduceAdd, Ideal.hostReduceAdd_def]
  rw [Ideal.hostReduceAdd_total reducesTo_S8192_S_d0 (fun b => b.elim0)]
  exact Cert.RowSpec.total_of_vec _

end Cert.KernelIdeal.HostRead

end
-- ==== Proof.KIBlocks.lean ====
import proofs.«125412_j36936718745849_1_alg».proof.Proof.KIBody1
import proofs.«125412_j36936718745849_1_alg».proof.Proof.Spec

/-!
# The windows' blocks, read off their arrays

The grid is 8 × 8: point `t` has row block `t / 8` and column block `t % 8`, and every block is 1024 rows.
The first window of the normalised matrix and the window of the row labels follow the row block; the second
window of the matrix and the window of the column labels follow the column block. So entry `p` of a block
that follows the row block is row `(t / 8) * 1024 + p` of its array, and entry `q` of a block that follows
the column block is row `(t % 8) * 1024 + q`.
-/

set_option maxRecDepth 16384

noncomputable section

namespace Cert.KernelIdeal.Stream

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The index maps over the grid: which block each window takes at point `t`. -/
theorem win_idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 1) = t.val / 8
    ∧ win0_3.index t (0 : Fin 1) = t.val % 8
    ∧ win0_4.index t (0 : Fin 1) = t.val / 8 :=
  (by decide +kernel : ∀ t : Fin grid0.N, _)

/-- The grid has 64 points. -/
theorem point_lt (t : Fin cfg0.N) : t.val < 64 := lt_of_lt_of_eq t.isLt N_0

/-- Row `p` of point `t`'s row block, as a row of the whole matrix. -/
def rowOf (t : Fin cfg0.N) (p : Fin 1024) : Fin 8192 :=
  ⟨(t.val / 8) * 1024 + p.val, by have := point_lt t; have := p.isLt; omega⟩

/-- Row `q` of point `t`'s column block, as a row of the whole matrix. -/
def colOf (t : Fin cfg0.N) (q : Fin 1024) : Fin 8192 :=
  ⟨(t.val % 8) * 1024 + q.val, by have := point_lt t; have := q.isLt; omega⟩

theorem rowOf_val (t : Fin cfg0.N) (p : Fin 1024) : (rowOf t p).val = (t.val / 8) * 1024 + p.val := rfl
theorem colOf_val (t : Fin cfg0.N) (q : Fin 1024) : (colOf t q).val = (t.val % 8) * 1024 + q.val := rfl

/-- The column-block row is entry `q` of block `t % 8` in the split of the 8192 columns into 8 blocks. -/
theorem colOf_eq_col (t : Fin cfg0.N) (q : Fin 1024) :
    colOf t q = Cert.RowSpec.col ⟨t.val % 8, Nat.mod_lt _ (by decide)⟩ q := rfl

/-- The row-block window of the matrix at `(p, d)`. -/
theorem rowBlock_read (c : Dev nD) (t : Fin cfg0.N) (p : Fin 1024) (d : Fin 128) :
    iblk m c 0 t (ix2 p d) = V m c main_v9 (ix2 (rowOf t p) d) := by
  obtain ⟨e0, e1, -⟩ := win_idx_facts t
  show V m c main_v9 (((cfg0.win 0).blk t).view.emb (ix2 p d)) = V m c main_v9 _
  refine congrArg _ (funext fun a => Fin.ext ?_)
  match a with
  | ⟨0, _⟩ => show win0_0.index t (0 : Fin 2) * 1024 + 1 * p.val = (t.val / 8) * 1024 + p.val; omega
  | ⟨1, _⟩ => show win0_0.index t (1 : Fin 2) * 128 + 1 * d.val = d.val; omega

/-- The column-block window of the matrix at `(q, d)`. -/
theorem colBlock_read (c : Dev nD) (t : Fin cfg0.N) (q : Fin 1024) (d : Fin 128) :
    iblk m c 1 t (ix2 q d) = V m c main_v9 (ix2 (colOf t q) d) := by
  obtain ⟨-, -, e2, e3, -⟩ := win_idx_facts t
  show V m c main_v9 (((cfg0.win 1).blk t).view.emb (ix2 q d)) = V m c main_v9 _
  refine congrArg _ (funext fun a => Fin.ext ?_)
  match a with
  | ⟨0, _⟩ => show win0_1.index t (0 : Fin 2) * 1024 + 1 * q.val = (t.val % 8) * 1024 + q.val; omega
  | ⟨1, _⟩ => show win0_1.index t (1 : Fin 2) * 128 + 1 * d.val = d.val; omega

/-- The row labels' window at `p`. -/
theorem rowLabels_read (c : Dev nD) (t : Fin cfg0.N) (p : Fin 1024) :
    iblk m c 2 t (ix1 p) = V m c main_v11 (ix1 (rowOf t p)) := by
  obtain ⟨-, -, -, -, e4, -⟩ := win_idx_facts t
  show V m c main_v11 (((cfg0.win 2).blk t).view.emb (ix1 p)) = V m c main_v11 _
  refine congrArg _ (funext fun a => Fin.ext ?_)
  match a with
  | ⟨0, _⟩ => show win0_2.index t (0 : Fin 1) * 1024 + 1 * p.val = (t.val / 8) * 1024 + p.val; omega

/-- The column labels' window at `q`. -/
theorem colLabels_read (c : Dev nD) (t : Fin cfg0.N) (q : Fin 1024) :
    iblk m c 3 t (ix1 q) = V m c main_v14 (ix1 (colOf t q)) := by
  obtain ⟨-, -, -, -, -, e5, -⟩ := win_idx_facts t
  show V m c main_v14 (((cfg0.win 3).blk t).view.emb (ix1 q)) = V m c main_v14 _
  refine congrArg _ (funext fun a => Fin.ext ?_)
  match a with
  | ⟨0, _⟩ => show win0_3.index t (0 : Fin 1) * 1024 + 1 * q.val = (t.val % 8) * 1024 + q.val; omega

end Cert.KernelIdeal.Stream

end
-- ==== Proof.KIFinal.lean ====
import proofs.«125412_j36936718745849_1_alg».proof.Proof.KIBody2
import proofs.«125412_j36936718745849_1_alg».proof.Proof.KIBlocks
import Idealize.ShloMosaic.Lib.Pipeline.Value

/-!
# The array of losses is its blocks

The losses' window follows the row block, in blocks of 1024, and is written back at the last point of each
row of the grid: the points `t` with `t % 8 = 7`. Row `r` of the array lies in row block `r / 1024`, whose
last point is `8 * (r / 1024) + 7`, at offset `r % 1024` inside the block. These eight blocks cover the
array, so the array ends holding, at every row, what that point left at that offset.
-/

set_option maxRecDepth 16384

noncomputable section

namespace Cert.KernelIdeal.Stream

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The last point of the grid row that holds row `r`. -/
def lastPt (r : Fin 8192) : Fin cfg0.N :=
  ⟨8 * (r.val / 1024) + 7, lt_of_lt_of_eq (by have := r.isLt; omega : 8 * (r.val / 1024) + 7 < 64) N_0.symm⟩

theorem lastPt_val (r : Fin 8192) : (lastPt r).val = 8 * (r.val / 1024) + 7 := rfl

/-- Row `r`'s offset inside its block. -/
def offOf (r : Fin 8192) : Fin 1024 := ⟨r.val % 1024, Nat.mod_lt _ (by decide)⟩

theorem offOf_val (r : Fin 8192) : (offOf r).val = r.val % 1024 := rfl

/-- The array of losses assembled from the blocks the last points leave. -/
def lossArr (c : Dev nD) : S8192.Idx → Elt F .f32 :=
  fun i => outAt m c (lastPt (i 0)) (ix1 (offOf (i 0)))

/-- At a row of the block that a last point `t` holds, the assembled array is what `t` left there. -/
theorem lossArr_at (c : Dev nD) (t : Fin cfg0.N) (ht : t.val % 8 = 7) (i : S8192.Idx) (y : Fin 1024)
    (hi : (i 0).val = (t.val / 8) * 1024 + y.val) : lossArr m c i = outAt m c t (ix1 y) := by
  have hy := y.isLt
  have e1 : lastPt (i 0) = t := Fin.ext (by
    show 8 * ((i 0).val / 1024) + 7 = t.val
    rw [hi]; omega)
  have e2 : offOf (i 0) = y := Fin.ext (by
    show (i 0).val % 1024 = y.val
    rw [hi]; omega)
  unfold lossArr
  rw [e1, e2]

/-- What a last point writes back is its block of the assembled array. -/
theorem flushed4_eq (c : Dev nD) (t : Fin cfg0.N) (hf : (cfg0.win 4).flush t = true) :
    (dats m 0 c).flushed 4 t = ((cfg0.win 4).blk t).view.read (Elt F) (lossArr m c) := by
  have ht : t.val % 8 = 7 := (flush0_4 t).mp hf
  obtain ⟨-, -, -, -, -, -, e6⟩ := win_idx_facts t
  show (cfg0.win 4).cut (grid0.coords t) ((dats m 0 c).after 4 t) = _
  rw [after_w4]
  funext y
  show outAt m c t y = lossArr m c (((cfg0.win 4).blk t).view.emb y)
  rw [lossArr_at m c t ht (((cfg0.win 4).blk t).view.emb y) (y 0) (by
    show win0_4.index t (0 : Fin 1) * 1024 + 1 * (y 0).val = _
    omega)]
  exact congrArg _ (eq_ix1 y)

/-- The eight written blocks cover the array, so it ends as the assembled array. -/
theorem final_out (c : Dev nD) : (dats m 0 c).arrAt 4 cfg0.N = lossArr m c :=
  (dats m 0 c).arrAt_eq_of_cover 4 (lossArr m c) (flushed4_eq m c) fun i => by
    have hi : (i 0 : Nat) < 8192 := (i 0).isLt
    refine ⟨lastPt (i 0), (flush0_4 _).mpr (by show (8 * ((i 0).val / 1024) + 7) % 8 = 7; omega), ?_⟩
    obtain ⟨-, -, -, -, -, -, e6⟩ := win_idx_facts (lastPt (i 0))
    show i ∈ ((View.whole main_v15).slice (win0_4.rect (lastPt (i 0)))).set
    rw [View.set_slice_whole, Rect.mem_set_unit]
    intro a
    match a with
    | ⟨0, _⟩ =>
      show win0_4.index (lastPt (i 0)) 0 * 1024 ≤ (i 0 : Nat)
        ∧ (i 0 : Nat) < win0_4.index (lastPt (i 0)) 0 * 1024 + 1024
      have hv : (lastPt (i 0)).val = 8 * ((i 0 : Nat) / 1024) + 7 := rfl
      rw [e6]
      omega

/-- At row `r`: what the last point of `r`'s grid row left at `r`'s offset. -/
theorem final_out_apply (c : Dev nD) (r : Fin 8192) :
    (dats m 0 c).arrAt 4 cfg0.N (ix1 r) = outAt m c (lastPt r) (ix1 (offOf r)) := by
  rw [final_out]
  rfl

end Cert.KernelIdeal.Stream

end
-- ==== Proof.KIPieces.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import proofs.«125412_j36936718745849_1_alg».proof.Proof.KIBody2

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What one grid point leaves, as arithmetic

Every store of the body writes a whole column (or the whole output block) at once, so what a column holds after a point
is the value stored last: the body's arithmetic, as one pure function of the two feature blocks, the two label blocks
and the three columns before the point. With `M`, `P`, `N` the columns before the point:
the new maximum is max(M, row maxima of the scores); the new sums are the old ones rescaled by exp(M - new maximum) plus
this block's row sums of exp(score - new maximum), over the same-label and the other-label entries. -/

theorem hz2 : (![0, 0] : Fin 2 → Nat) = fun _ => 0 := by funext a; fin_cases a <;> rfl
theorem hz1 : (![0] : Fin 1 → Nat) = fun _ => 0 := by funext a; fin_cases a; rfl

/-- The columns after a point that continues the recurrence, from the blocks and the columns `s` before it. -/
def stepCols (x0 x1 : Vec F S1024x128 .bf16) (x2 x3 : Vec F S1024 .i32) (s : Cols F) : Cols F :=
  (k0_pay3 (k0_pay10 x0 x1 s.1), k0_pay1 (k0_pay14 x0 x1 x2 x3 s.1 s.2.1), k0_pay2 (k0_pay11 x0 x1 s.1) (k0_pay13 x0 x1 x2 x3 s.1) s.2.2)
/-- The columns a first point starts from: -inf, 0, 0. -/
def resetCols : Cols F := (k0_pay5, k0_pay6, k0_pay7)

set_option maxHeartbeats 2000000 in
theorem colsMid_eq (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : ¬atLastCol i) (x0 x1 : Vec F S1024x128 .bf16) (x2 x3 : Vec F S1024 .i32) (s : Cols F) :
    colsMid c i arg2 harg2 arg3 harg3 arg4 harg4 arg5 harg5 arg6 harg6 arg7 harg7 arg8 harg8 arg9 harg9 hc0 hc1 x0 x1 x2 x3 s = stepCols x0 x1 x2 x3 s := by
  unfold colsMid stepCols
  rw [View.read_writes_eq_canon _ _ _ (coverMid0 c i arg2 harg2 arg3 harg3 arg4 harg4 arg5 harg5 arg6 harg6 arg7 harg7 arg8 harg8 arg9 harg9 hc0 hc1 x0 x1 x2 x3 s.1 s.2.1 s.2.2),
    View.read_writes_eq_canon _ _ _ (coverMid1 c i arg2 harg2 arg3 harg3 arg4 harg4 arg5 harg5 arg6 harg6 arg7 harg7 arg8 harg8 arg9 harg9 hc0 hc1 x0 x1 x2 x3 s.1 s.2.1 s.2.2),
    View.read_writes_eq_canon _ _ _ (coverMid2 c i arg2 harg2 arg3 harg3 arg4 harg4 arg5 harg5 arg6 harg6 arg7 harg7 arg8 harg8 arg9 harg9 hc0 hc1 x0 x1 x2 x3 s.1 s.2.1 s.2.2)]
  unfold runMid
  dsimp only
  sl_unfold_run_names
  simp only [View.canon_cons_unit_zero (S := S1024x1) hz2, View.canon_cons_unit_zero (S := S1024) hz1, View.readCov_unit_zero (S := S1024x1) _ hz2, View.canon_unit_zero (S := S1024x1) hz2, View.canon_unit_zero (S := S1024) hz1, View.readAt_eq_ld, Memref.IsWhole.read_unread,
    View.ld_unit_zero (S := S1024x1) hz2, View.ld_unit_zero (S := S1024x128) hz2, View.ld_unit_zero (S := S1024) hz1]

set_option maxHeartbeats 2000000 in
theorem colsFirst_eq (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : atFirstCol i) (hc1 : ¬atLastCol i) (x0 x1 : Vec F S1024x128 .bf16) (x2 x3 : Vec F S1024 .i32) :
    colsFirst c i arg2 harg2 arg3 harg3 arg4 harg4 arg5 harg5 arg6 harg6 arg7 harg7 arg8 harg8 arg9 harg9 hc0 hc1 x0 x1 x2 x3 = stepCols x0 x1 x2 x3 (resetCols (F := F)) := by
  unfold colsFirst stepCols resetCols
  rw [View.read_writes_eq_canon _ _ _ (coverFirst0 c i arg2 harg2 arg3 harg3 arg4 harg4 arg5 harg5 arg6 harg6 arg7 harg7 arg8 harg8 arg9 harg9 hc0 hc1 x0 x1 x2 x3),
    View.read_writes_eq_canon _ _ _ (coverFirst1 c i arg2 harg2 arg3 harg3 arg4 harg4 arg5 harg5 arg6 harg6 arg7 harg7 arg8 harg8 arg9 harg9 hc0 hc1 x0 x1 x2 x3),
    View.read_writes_eq_canon _ _ _ (coverFirst2 c i arg2 harg2 arg3 harg3 arg4 harg4 arg5 harg5 arg6 harg6 arg7 harg7 arg8 harg8 arg9 harg9 hc0 hc1 x0 x1 x2 x3)]
  unfold runFirst
  dsimp only
  sl_unfold_run_names
  simp only [View.canon_cons_unit_zero (S := S1024x1) hz2, View.canon_cons_unit_zero (S := S1024) hz1, View.readCov_unit_zero (S := S1024x1) _ hz2, View.canon_unit_zero (S := S1024x1) hz2, View.canon_unit_zero (S := S1024) hz1, View.readAt_eq_ld, Memref.IsWhole.read_unread,
    View.ld_unit_zero (S := S1024x1) hz2, View.ld_unit_zero (S := S1024x128) hz2, View.ld_unit_zero (S := S1024) hz1]

set_option maxHeartbeats 2000000 in
theorem colsLast_eq (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) :
    colsLast c i arg2 harg2 arg3 harg3 arg4 harg4 arg5 harg5 arg6 harg6 arg7 harg7 arg8 harg8 arg9 harg9 hc0 hc1 x0 x1 x2 x3 s = stepCols x0 x1 x2 x3 s := by
  unfold colsLast stepCols
  rw [View.read_writes_eq_canon _ _ _ (coverLast0 c i arg2 harg2 arg3 harg3 arg4 harg4 arg5 harg5 arg6 harg6 arg7 harg7 arg8 harg8 arg9 harg9 hc0 hc1 x0 x1 x2 x3 s.1 s.2.1 s.2.2),
    View.read_writes_eq_canon _ _ _ (coverLast1 c i arg2 harg2 arg3 harg3 arg4 harg4 arg5 harg5 arg6 harg6 arg7 harg7 arg8 harg8 arg9 harg9 hc0 hc1 x0 x1 x2 x3 s.1 s.2.1 s.2.2),
    View.read_writes_eq_canon _ _ _ (coverLast2 c i arg2 harg2 arg3 harg3 arg4 harg4 arg5 harg5 arg6 harg6 arg7 harg7 arg8 harg8 arg9 harg9 hc0 hc1 x0 x1 x2 x3 s.1 s.2.1 s.2.2)]
  unfold runLast
  dsimp only
  sl_unfold_run_names
  simp only [View.canon_cons_unit_zero (S := S1024x1) hz2, View.canon_cons_unit_zero (S := S1024) hz1, View.readCov_unit_zero (S := S1024x1) _ hz2, View.canon_unit_zero (S := S1024x1) hz2, View.canon_unit_zero (S := S1024) hz1, View.readAt_eq_ld, Memref.IsWhole.read_unread,
    View.ld_unit_zero (S := S1024x1) hz2, View.ld_unit_zero (S := S1024x128) hz2, View.ld_unit_zero (S := S1024) hz1]

set_option maxHeartbeats 2000000 in
/-- The block of losses a last point writes: the loss formula of the two sums that point has just updated. -/
theorem outLast_eq (c : Dev nD) (i : grid0.Coords)
    (arg2 : Memref sig .tc .vmem S1024x128 .bf16) (harg2 : arg2.IsWhole) (arg3 : Memref sig .tc .vmem S1024x128 .bf16) (harg3 : arg3.IsWhole)
    (arg4 : Memref sig .tc .vmem S1024 .i32) (harg4 : arg4.IsWhole) (arg5 : Memref sig .tc .vmem S1024 .i32) (harg5 : arg5.IsWhole)
    (arg6 : Memref sig .tc .vmem S1024 .f32) (harg6 : arg6.IsWhole)
    (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬atFirstCol i) (hc1 : atLastCol i) (x0 x1 : Vec F S1024x128 .bf16) (x2 x3 : Vec F S1024 .i32) (s : Cols F) :
    outLast c i arg2 harg2 arg3 harg3 arg4 harg4 arg5 harg5 arg6 harg6 arg7 harg7 arg8 harg8 arg9 harg9 hc0 hc1 x0 x1 x2 x3 s = k0_pay4 (stepCols x0 x1 x2 x3 s).2.1 (stepCols x0 x1 x2 x3 s).2.2 := by
  unfold outLast stepCols
  rw [View.read_writes_eq_canon _ _ _ (coverLastO c i arg2 harg2 arg3 harg3 arg4 harg4 arg5 harg5 arg6 harg6 arg7 harg7 arg8 harg8 arg9 harg9 hc0 hc1 x0 x1 x2 x3 s.1 s.2.1 s.2.2)]
  unfold runLast
  dsimp only
  sl_unfold_run_names
  simp only [View.canon_cons_unit_zero (S := S1024x1) hz2, View.canon_cons_unit_zero (S := S1024) hz1, View.readCov_unit_zero (S := S1024x1) _ hz2, View.canon_unit_zero (S := S1024x1) hz2, View.canon_unit_zero (S := S1024) hz1, View.readAt_eq_ld, Memref.IsWhole.read_unread,
    View.ld_unit_zero (S := S1024x1) hz2, View.ld_unit_zero (S := S1024x128) hz2, View.ld_unit_zero (S := S1024) hz1]

end Cert.KernelIdeal.Stream

end
-- ==== Proof.KIUnroll.lean ====
import proofs.«125412_j36936718745849_1_alg».proof.Proof.Gen.KernelIdeal.Launch
import proofs.«125412_j36936718745849_1_alg».proof.Proof.Gen.KernelIdeal.Skeleton
import proofs.«125412_j36936718745849_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«125412_j36936718745849_1_alg».proof.Proof.KIPieces

set_option maxRecDepth 16384

noncomputable section

namespace Cert.KernelIdeal.Stream

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The recurrence along one row block

Point number `t` is the column block `t % 8` of the row block `t / 8`. The three columns after it are one step of the
recurrence from the columns before it — the reset columns at a first column block, what the point before left
otherwise; and at a last column block the block of losses is the loss formula of the two sums just updated. -/

/-- Point `8 i + k` of the 64, for a row block `i` and a column block `k`. -/
theorem pt_lt (i : Fin 8) (k : ℕ) (hk : k < 8) : 8 * i.val + k < cfg0.N := by
  have h : cfg0.N = 64 := N_0
  omega

theorem colsAt_step (c : Dev nD) (t : Fin cfg0.N) :
    colsAt m c t.val t.isLt = stepCols (iblk m c 0 t) (iblk m c 1 t) (iblk m c 2 t) (iblk m c 3 t)
      (if h : t.val % 8 = 0 then resetCols else colsAt m c (t.val - 1) (Nat.lt_of_le_of_lt (Nat.sub_le _ _) t.isLt)) := by
  by_cases h0 : t.val % 8 = 0
  · rw [colsAt_first m c t h0 (by omega), colsFirst_eq, dif_pos h0]
  · by_cases h1 : t.val % 8 = 7
    · rw [colsAt_last m c t h0 h1, colsLast_eq, dif_neg h0]
    · rw [colsAt_mid m c t h0 h1, colsMid_eq, dif_neg h0]

theorem outAt_step (c : Dev nD) (t : Fin cfg0.N) (h1 : t.val % 8 = 7) :
    outAt m c t = k0_pay4 (colsAt m c t.val t.isLt).2.1 (colsAt m c t.val t.isLt).2.2 := by
  have h0 : ¬t.val % 8 = 0 := by omega
  rw [outAt_last m c t h0 h1, outLast_eq, colsAt_step m c t, dif_neg h0]

/-- The columns of row block `i` after `k` of its column blocks: the reset columns, then one step per block. -/
def stateAt (c : Dev nD) (i : Fin 8) : (k : ℕ) → k ≤ 8 → Cols F
  | 0, _ => resetCols
  | k + 1, hk =>
    stepCols (iblk m c 0 ⟨8 * i.val + k, pt_lt i k (Nat.lt_of_succ_le hk)⟩) (iblk m c 1 ⟨8 * i.val + k, pt_lt i k (Nat.lt_of_succ_le hk)⟩)
      (iblk m c 2 ⟨8 * i.val + k, pt_lt i k (Nat.lt_of_succ_le hk)⟩) (iblk m c 3 ⟨8 * i.val + k, pt_lt i k (Nat.lt_of_succ_le hk)⟩) (stateAt c i k (Nat.le_of_succ_le hk))

theorem stateAt_zero (c : Dev nD) (i : Fin 8) (h) : stateAt m c i 0 h = resetCols (F := F) := rfl
theorem stateAt_succ (c : Dev nD) (i : Fin 8) (k : ℕ) (hk : k + 1 ≤ 8) :
    stateAt m c i (k + 1) hk = stepCols (iblk m c 0 ⟨8 * i.val + k, pt_lt i k (Nat.lt_of_succ_le hk)⟩) (iblk m c 1 ⟨8 * i.val + k, pt_lt i k (Nat.lt_of_succ_le hk)⟩)
      (iblk m c 2 ⟨8 * i.val + k, pt_lt i k (Nat.lt_of_succ_le hk)⟩) (iblk m c 3 ⟨8 * i.val + k, pt_lt i k (Nat.lt_of_succ_le hk)⟩) (stateAt m c i k (Nat.le_of_succ_le hk)) := rfl

/-- What the point numbered `8 i + k` leaves is the state of row block `i` after `k + 1` column blocks. -/
theorem colsAt_state (c : Dev nD) (i : Fin 8) : ∀ (k : ℕ) (hk : k < 8) (hn : 8 * i.val + k < cfg0.N),
    colsAt m c (8 * i.val + k) hn = stateAt m c i (k + 1) hk
  | 0, hk, hn => by
    have e := colsAt_step m c ⟨8 * i.val + 0, hn⟩
    rw [dif_pos (show (8 * i.val + 0) % 8 = 0 by omega)] at e
    exact e
  | k + 1, hk, hn => by
    have e := colsAt_step m c ⟨8 * i.val + (k + 1), hn⟩
    rw [dif_neg (show ¬(8 * i.val + (k + 1)) % 8 = 0 by omega)] at e
    have ih := colsAt_state c i k (by omega) (by omega)
    rw [show colsAt m c (8 * i.val + (k + 1) - 1) (Nat.lt_of_le_of_lt (Nat.sub_le _ _) hn) = colsAt m c (8 * i.val + k) (by omega) from by
      congr 1] at e
    rw [ih] at e
    exact e

/-- The block of losses of row block `i`: the loss formula of the two sums after all eight column blocks. -/
theorem outAt_state (c : Dev nD) (i : Fin 8) (hn : 8 * i.val + 7 < cfg0.N) :
    outAt m c ⟨8 * i.val + 7, hn⟩ = k0_pay4 (stateAt m c i 8 (le_refl _)).2.1 (stateAt m c i 8 (le_refl _)).2.2 := by
  rw [outAt_step m c ⟨8 * i.val + 7, hn⟩ (show (8 * i.val + 7) % 8 = 7 by omega), colsAt_state m c i 7 (by omega) hn]

end Cert.KernelIdeal.Stream

end
-- ==== Proof.KPayScore.lean ====
import proofs.«125412_j36936718745849_1_alg».proof.Proof.Gen.KernelIdeal.Skeleton
import Idealize.ShloMosaic.Lib.ValueLayout
import Idealize.ShloMosaic.PureOps.Ideal.Laws

/-!
# The block of scores

The body multiplies the row block `a` (`1024 × 128`) by the transpose of the column block `b`
(`1024 × 128`) into a zero accumulator. Read at row `p` and column `q` the product is the dot
product `∑ d, a p d * b q d` of row `p` of `a` with row `q` of `b`.
-/

noncomputable section

namespace Cert.KPay

open Idealize.ShloMosaic Idealize.ShloMosaic.ValueIdx Cert.KernelIdeal Cert.KernelIdeal.Gen

/-- The score of row `p` of the row block against row `q` of the column block: their dot product. -/
def S (a b : S1024x128.Idx → EReal) (p q : Fin 1024) : EReal :=
  ∑ d : Fin 128, a (ix2 p d) * b (ix2 q d)

/-- The dimension numbers of the body's matrix product: `[1024, 128] · [128, 1024]`. -/
abbrev D := dot_S1024x128_S128x1024_S1024x1024_1_0_0_1_n_n

/-- The left operand is read at the output's row. -/
theorem lhsIdx_row (i : S1024x1024.Idx) (k : D.contr.Idx) : (D.lhsIdx i k 0).val = (i 0).val := by
  unfold DotDims.lhsIdx
  rw [dif_neg (show ¬(0 : Fin S1024x128.rank) ∈ D.lhsBatch by decide),
    dif_pos (show (0 : Fin S1024x128.rank) ∈ D.lhsNonContracting by decide)]
  rfl

/-- The right operand is read at the output's column. -/
theorem rhsIdx_col (i : S1024x1024.Idx) (k : D.contr.Idx) : (D.rhsIdx i k 1).val = (i 1).val := by
  unfold DotDims.rhsIdx
  rw [dif_neg (show ¬(1 : Fin S128x1024.rank) ∈ D.rhsBatch by decide),
    dif_pos (show (1 : Fin S128x1024.rank) ∈ D.rhsNonContracting by decide)]
  rfl

/-- At output `(p, q)` and contraction coordinate `k` the left operand is read at `(p, k)`. -/
theorem lhsIdx_eq (p q : Fin 1024) (k : Fin 128) :
    D.lhsIdx (ix2 p q) ((contrEquiv1 D 128 rfl rfl).symm k) = ix2 p k :=
  funext fun ax => Fin.ext (by
    match ax with
    | ⟨0, _⟩ => exact lhsIdx_row _ _
    | ⟨1, _⟩ => exact (D.lhsIdx_val_of_single rfl (ix2 p q) _).trans (contrEquiv1_symm_val D 128 rfl rfl k))

/-- At output `(p, q)` and contraction coordinate `k` the right operand is read at `(k, q)`. -/
theorem rhsIdx_eq (p q : Fin 1024) (k : Fin 128) :
    D.rhsIdx (ix2 p q) ((contrEquiv1 D 128 rfl rfl).symm k) = ix2 k q :=
  funext fun ax => Fin.ext (by
    match ax with
    | ⟨0, _⟩ => exact (D.rhsIdx_val_of_single rfl (ix2 p q) _).trans (contrEquiv1_symm_val D 128 rfl rfl k)
    | ⟨1, _⟩ => exact rhsIdx_col _ _)

/-- The matrix product of the body, read at `(p, q)`, is the score `S a b p q`. -/
theorem pay8_apply (a b : Vec Ideal S1024x128 .bf16) (p q : Fin 1024) :
    k0_pay8 (F := Ideal) a b (ix2 p q) = S a b p q := by
  unfold k0_pay8
  refine (Ideal.matmul_constant_zero_apply D none _ _ (ix2 p q)).trans ?_
  rw [← Equiv.sum_comp (contrEquiv1 D 128 rfl rfl).symm]
  refine Finset.sum_congr rfl fun k _ => ?_
  rw [lhsIdx_eq, rhsIdx_eq, shapeCast_self, shapeCast_self]
  exact congrArg (a (ix2 p k) * ·) (transpose_ix2_apply b _ k q)

end Cert.KPay

end
-- ==== Proof.Softmax.lean ====
import Mathlib
import Idealize.ShloMosaic.PureOps.Ideal

/-!
# The streaming form of a weighted softmax row sum

A row of real scores is cut into `J` blocks of columns indexed by `Q`. The direct form takes the maximum
`M` of the whole row and then the weighted sum `∑ exp (s - M) * w`. The streaming form visits the blocks
in order and keeps a running maximum `m` and a running sum `l`, rescaling `l` by `exp (m - m')` whenever
the maximum moves from `m` to `m'`. The two agree because `exp (a - b) * exp (b - c) = exp (a - c)` on the
reals; before the first block `m = ⊥` and `l = 0`, and `0` times anything is `0`.
-/

noncomputable section

namespace Cert.Stream

open Idealize.ShloMosaic
open scoped BigOperators

variable {Q : Type*} [Fintype Q]

/-- The maximum of one block of scores: the fold of `max` from `⊥` over the block's columns. -/
def blockMax (s : Q → EReal) : EReal := (Finset.univ : Finset Q).fold max ⊥ s

/-- One block's update of the pair (running maximum, running weighted sum). -/
def step (s w : Q → EReal) (st : EReal × EReal) : EReal × EReal :=
  (max st.1 (blockMax s),
   st.2 * Ideal.exp (st.1 - max st.1 (blockMax s))
     + ∑ q, Ideal.exp (s q - max st.1 (blockMax s)) * w q)

/-- The pair after the first `J` blocks, from `(⊥, 0)`. -/
def stream : (J : ℕ) → (Fin J → Q → EReal) → (Fin J → Q → EReal) → EReal × EReal
  | 0, _, _ => (⊥, 0)
  | J + 1, s, w =>
      step (s (Fin.last J)) (w (Fin.last J)) (stream J (fun j => s j.castSucc) (fun j => w j.castSucc))

theorem stream_zero (s w : Fin 0 → Q → EReal) : stream 0 s w = (⊥, 0) := rfl

theorem stream_succ (J : ℕ) (s w : Fin (J + 1) → Q → EReal) :
    stream (J + 1) s w
      = step (s (Fin.last J)) (w (Fin.last J)) (stream J (fun j => s j.castSucc) (fun j => w j.castSucc)) := rfl

/-- A finite sum of reals, read in the extended reals, is the sum of the readings. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The running maximum after `J` blocks is the maximum of the block maxima. -/
theorem stream_fst (J : ℕ) (s w : Fin J → Q → EReal) :
    (stream J s w).1 = (Finset.univ : Finset (Fin J)).fold max ⊥ (fun j => blockMax (s j)) := by
  induction J with
  | zero => simp [stream]
  | succ J ih =>
      rw [stream_succ, Fin.univ_castSuccEmb, Finset.fold_cons, Finset.fold_map]
      show max _ _ = _
      rw [ih, max_comm]
      rfl

/-- A nonempty block of real scores has a real maximum. -/
theorem blockMax_coe [Nonempty Q] (f : Q → ℝ) : ∃ b : ℝ, blockMax (fun q => (f q : EReal)) = (b : EReal) := by
  obtain ⟨i, -, hi⟩ := Finset.exists_mem_eq_sup (Finset.univ : Finset Q) Finset.univ_nonempty
    (fun q => (f q : EReal))
  exact ⟨f i, hi⟩

theorem coe_max (a b : ℝ) : max (a : EReal) (b : EReal) = ((max a b : ℝ) : EReal) :=
  (EReal.coe_strictMono.monotone.map_max).symm

/-- After at least one nonempty block of real scores the running maximum is real. -/
theorem stream_fst_real [Nonempty Q] (J : ℕ) (σ : Fin (J + 1) → Q → ℝ) (w : Fin (J + 1) → Q → EReal) :
    ∃ a : ℝ, (stream (J + 1) (fun j q => (σ j q : EReal)) w).1 = (a : EReal) := by
  induction J with
  | zero =>
      obtain ⟨b, hb⟩ := blockMax_coe (σ (Fin.last 0))
      refine ⟨b, ?_⟩
      show max ⊥ (blockMax fun q => (σ (Fin.last 0) q : EReal)) = _
      rw [hb, max_eq_right bot_le]
  | succ J ih =>
      obtain ⟨a, ha⟩ := ih (fun j => σ j.castSucc) (fun j => w j.castSucc)
      obtain ⟨b, hb⟩ := blockMax_coe (σ (Fin.last (J + 1)))
      refine ⟨max a b, ?_⟩
      rw [stream_succ]
      show max (stream (J + 1) (fun j q => ((σ j.castSucc q : ℝ) : EReal)) fun j => w j.castSucc).1
        (blockMax fun q => (σ (Fin.last (J + 1)) q : EReal)) = _
      rw [ha, hb, coe_max]

/-- One weighted term over real data is a real. -/
theorem exp_sub_mul_coe (σ c ω : ℝ) :
    Ideal.exp ((σ : EReal) - (c : EReal)) * (ω : EReal) = ((Real.exp (σ - c) * ω : ℝ) : EReal) := by
  rw [← EReal.coe_sub, Ideal.exp_coe, ← EReal.coe_mul]

/-- Moving the reference point of every term of a double sum from `a` to `c`. -/
theorem rescale_real {J : ℕ} (σ ω : Fin J → Q → ℝ) (a c : ℝ) :
    (∑ j, ∑ q, Real.exp (σ j q - a) * ω j q) * Real.exp (a - c) = ∑ j, ∑ q, Real.exp (σ j q - c) * ω j q := by
  rw [Finset.sum_mul]
  refine Finset.sum_congr rfl fun j _ => ?_
  rw [Finset.sum_mul]
  refine Finset.sum_congr rfl fun q _ => ?_
  rw [mul_right_comm, ← Real.exp_add]
  congr 2; ring

/-- The streaming law over real scores and real weights: the running sum after `J` blocks is the direct
    weighted sum taken against the final running maximum. -/
theorem stream_snd_coe [Nonempty Q] (J : ℕ) (σ ω : Fin J → Q → ℝ) :
    (stream J (fun j q => (σ j q : EReal)) (fun j q => (ω j q : EReal))).2
      = ∑ j, ∑ q, Ideal.exp ((σ j q : EReal)
          - (stream J (fun j q => (σ j q : EReal)) (fun j q => (ω j q : EReal))).1) * (ω j q : EReal) := by
  induction J with
  | zero => simp [stream]
  | succ J ih =>
      obtain ⟨c, hc⟩ := stream_fst_real J σ (fun j q => (ω j q : EReal))
      rw [hc, Fin.sum_univ_castSucc]
      have ih' := ih (fun j => σ j.castSucc) (fun j => ω j.castSucc)
      rw [stream_succ] at hc ⊢
      show (stream J (fun j q => ((σ j.castSucc q : ℝ) : EReal)) fun j q => ((ω j.castSucc q : ℝ) : EReal)).2
            * Ideal.exp (_ - max _ _) + ∑ q, Ideal.exp (_ - max _ _) * _ = _
      have hc' : max (stream J (fun j q => ((σ j.castSucc q : ℝ) : EReal))
            fun j q => ((ω j.castSucc q : ℝ) : EReal)).1
          (blockMax fun q => ((σ (Fin.last J) q : ℝ) : EReal)) = (c : EReal) := hc
      rw [hc']
      congr 1
      cases J with
      | zero => simp [stream]
      | succ J =>
          obtain ⟨a, ha⟩ := stream_fst_real J (fun j => σ j.castSucc) (fun j q => ((ω j.castSucc q : ℝ) : EReal))
          rw [ha] at ih' ⊢
          rw [ih']
          simp only [exp_sub_mul_coe, ← coe_sum]
          rw [← EReal.coe_sub, Ideal.exp_coe, ← EReal.coe_mul, rescale_real]

/-- The same law for extended-real scores and weights that are known to be real entry by entry. -/
theorem stream_snd [Nonempty Q] (J : ℕ) (s w : Fin J → Q → EReal)
    (hs : ∀ j q, ∃ r : ℝ, s j q = (r : EReal)) (hw : ∀ j q, ∃ r : ℝ, w j q = (r : EReal)) :
    (stream J s w).2 = ∑ j, ∑ q, Ideal.exp (s j q - (stream J s w).1) * w j q := by
  choose σ hσ using hs
  choose ω hω using hw
  obtain rfl : s = fun j q => (σ j q : EReal) := funext fun j => funext fun q => hσ j q
  obtain rfl : w = fun j q => (ω j q : EReal) := funext fun j => funext fun q => hω j q
  exact stream_snd_coe J σ ω

/-- The relational form: any two sequences of values that start at `(⊥, 0)` and obey the block update for
    the first `J` blocks end at the direct form. -/
theorem stream_rel [Nonempty Q] {J : ℕ} (s w : Fin J → Q → EReal)
    (hs : ∀ j q, ∃ r : ℝ, s j q = (r : EReal)) (hw : ∀ j q, ∃ r : ℝ, w j q = (r : EReal))
    (m l : ℕ → EReal) (hm0 : m 0 = ⊥) (hl0 : l 0 = 0)
    (hm : ∀ (k : ℕ) (hk : k < J), m (k + 1) = max (m k) (blockMax (s ⟨k, hk⟩)))
    (hl : ∀ (k : ℕ) (hk : k < J), l (k + 1)
        = l k * Ideal.exp (m k - m (k + 1)) + ∑ q, Ideal.exp (s ⟨k, hk⟩ q - m (k + 1)) * w ⟨k, hk⟩ q) :
    m J = (Finset.univ : Finset (Fin J)).fold max ⊥ (fun j => blockMax (s j))
      ∧ l J = ∑ j, ∑ q, Ideal.exp (s j q - m J) * w j q := by
  have key : ∀ (k : ℕ) (hk : k ≤ J), (m k, l k)
      = stream k (fun j => s ⟨j.val, lt_of_lt_of_le j.isLt hk⟩) (fun j => w ⟨j.val, lt_of_lt_of_le j.isLt hk⟩) := by
    intro k
    induction k with
    | zero => intro _; rw [hm0, hl0]; rfl
    | succ k ih =>
        intro hk
        have e := ih (Nat.le_of_succ_le hk)
        have e1 : m k = _ := congrArg Prod.fst e
        have e2 : l k = _ := congrArg Prod.snd e
        rw [stream_succ]
        refine Prod.ext ?_ ?_
        · show m (k + 1) = max _ _
          rw [hm k hk, e1]; rfl
        · show l (k + 1) = _ * Ideal.exp (_ - max _ _) + ∑ q, Ideal.exp (_ - max _ _) * _
          rw [hl k hk, hm k hk, e1, e2]; rfl
  have e := key J le_rfl
  have e1 : m J = (stream J s w).1 := congrArg Prod.fst e
  have e2 : l J = (stream J s w).2 := congrArg Prod.snd e
  refine ⟨e1.trans (stream_fst J s w), ?_⟩
  rw [e2, e1]
  exact stream_snd J s w hs hw

/-- The bit pattern of the negative infinity of the 32-bit format denotes `⊥`. -/
theorem ofBits_neg_inf_f32 : Ideal.ofBits .f32 0xFF800000#32 = (⊥ : EReal) := by
  simp [Ideal.ofBits, Ideal.ieee]

end Cert.Stream

end
-- ==== Proof.KPayMax.lean ====
import proofs.«125412_j36936718745849_1_alg».proof.Proof.KPayScore
import proofs.«125412_j36936718745849_1_alg».proof.Proof.Softmax

/-!
# The running maximum of a row

The body takes the maximum of each row of the block of scores, starting from `-∞`, turns the
resulting vector into a column, and takes the maximum with the stored running maximum. Read at row
`p` this is `max m (max_q S p q)`. The three reshapings between a vector of length `n`, a column
`[n, 1]` and a block `[n, m]` are read at an index here as well.
-/

noncomputable section

namespace Cert.KPay

open Idealize.ShloMosaic Idealize.ShloMosaic.ValueIdx Cert.KernelIdeal Cert.KernelIdeal.Gen

section Layout
variable {α : Type}

/-- A vector of length `n` cast to a column `[n, 1]` reads, at `(i, u)`, the vector at `i`. -/
theorem shapeCast_a_a1_apply {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[n, 1]` cast to a vector of length `n` reads, at `i`, the column at `(i, 0)`. -/
theorem shapeCast_a1_a_apply {n : ℕ} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[n, 1]` broadcast to `[n, m]` reads, at `(i, c)`, the column at `(i, 0)`. -/
theorem broadcastTo_a1_ab_apply {n m : ℕ} (v : (⟨2, ![n, 1]⟩ : Shape).Idx → α)
    (h : (⟨2, ![n, 1]⟩ : Shape).Broadcasts ⟨2, ![n, m]⟩) (i : Fin n) (c : Fin m) :
    broadcastTo ⟨2, ![n, m]⟩ v h (ix2 i c) = v (ix2 i (0 : Fin 1)) := by
  refine broadcastTo_apply v h (ix2 i c) (ix2 i (0 : Fin 1)) fun ax => ?_
  match ax with
  | ⟨0, _⟩ =>
    show i.val = if n = 1 then 0 else i.val
    split
    · have := i.isLt; omega
    · rfl
  | ⟨1, _⟩ => rfl

end Layout

/-- The maximum along a row of a `1024 × 1024` block, started from `-∞`, is the block maximum of that row. -/
theorem rowMax_apply (src : FVec Ideal S1024x1024 .f32) (hφ : FKind.Formats .f32)
    (hacc : (0xFF800000#32 : BitVec FTy.f32.bits) = FKind.maximumf.neutral .f32 hφ) (p : Fin 1024) :
    multiReduction .maximumf [1] S1024 src 0xFF800000#32 reduces_S1024x1024_S1024 hφ hacc (ix1 p)
      = Cert.Stream.blockMax fun q : Fin 1024 => src (ix2 p q) := by
  refine (Ideal.multiReduction_maximumf_single src _ reduces_S1024x1024_S1024 hφ hacc (ix1 p)).trans ?_
  show (Finset.univ : Finset (Fin 1024)).fold max (Ideal.ofBits .f32 0xFF800000#32)
    (fun k => src (reduces_S1024x1024_S1024.lift (ix1 p) k)) = _
  rw [Cert.Stream.ofBits_neg_inf_f32]
  unfold Cert.Stream.blockMax
  refine congrArg (fun f : Fin 1024 → EReal => (Finset.univ : Finset (Fin 1024)).fold max ⊥ f)
    (funext fun k => congrArg src ?_)
  funext c
  apply Fin.ext
  match c with
  | ⟨0, _⟩ => rfl
  | ⟨1, _⟩ => rfl

/-- The new running maximum of row `p`: the old one against the block maximum of the row's scores. -/
theorem pay10_apply (a b : Vec Ideal S1024x128 .bf16) (mc : Vec Ideal S1024x1 .f32) (p : Fin 1024) :
    k0_pay10 (F := Ideal) a b mc (ix2 p (0 : Fin 1))
      = max (mc (ix2 p (0 : Fin 1))) (Cert.Stream.blockMax fun q => S a b p q) := by
  unfold k0_pay10
  refine congrArg (max (mc (ix2 p (0 : Fin 1)))) ?_
  refine (shapeCast_a_a1_apply _ _ p 0).trans ?_
  refine (rowMax_apply _ _ _ p).trans ?_
  exact congrArg Cert.Stream.blockMax (funext fun q => pay8_apply a b p q)

end Cert.KPay

end
-- ==== Proof.KPayMask.lean ====
import proofs.«125412_j36936718745849_1_alg».proof.Proof.KPayMax

/-!
# The label mask

The body compares the row labels (as a column) with the column labels (as a row), widens the
one-bit answer to a 32-bit integer and converts it to a float. Read at row `p` and column `q` the
result is the real `1` when the two labels are the same word and the real `0` otherwise.
-/

noncomputable section

namespace Cert.KPay

open Idealize.ShloMosaic Idealize.ShloMosaic.ValueIdx Cert.KernelIdeal Cert.KernelIdeal.Gen

/-- The mask entry: `1` when the label of row `p` equals the label of column `q`, else `0`. -/
def maskK (rl cl : S1024.Idx → BitVec 32) (p q : Fin 1024) : EReal :=
  if rl (ix1 p) = cl (ix1 q) then 1 else 0

/-- The mask entry is the real `1` or the real `0`. -/
theorem maskK_coe (rl cl : S1024.Idx → BitVec 32) (p q : Fin 1024) :
    maskK rl cl p q = (((if rl (ix1 p) = cl (ix1 q) then 1 else 0 : ℝ)) : EReal) := by
  unfold maskK
  split <;> simp

/-- The mask entry is a real. -/
theorem maskK_real (rl cl : S1024.Idx → BitVec 32) (p q : Fin 1024) :
    ∃ r : ℝ, maskK rl cl p q = (r : EReal) := ⟨_, maskK_coe rl cl p q⟩

/-- One minus the mask entry is the real `0` or the real `1`. -/
theorem one_sub_maskK_coe (rl cl : S1024.Idx → BitVec 32) (p q : Fin 1024) :
    1 - maskK rl cl p q = (((if rl (ix1 p) = cl (ix1 q) then 0 else 1 : ℝ)) : EReal) := by
  unfold maskK
  by_cases h : rl (ix1 p) = cl (ix1 q)
  · rw [if_pos h, if_pos h, ← EReal.coe_one, ← EReal.coe_sub, sub_self]
  · rw [if_neg h, if_neg h]; simp

/-- One minus the mask entry is a real. -/
theorem one_sub_maskK_real (rl cl : S1024.Idx → BitVec 32) (p q : Fin 1024) :
    ∃ r : ℝ, 1 - maskK rl cl p q = (r : EReal) := ⟨_, one_sub_maskK_coe rl cl p q⟩

/-- The equality bit of two words, widened to 32 bits and converted to a float, is `1` or `0`. -/
theorem mask_word (x y : BitVec 32) :
    FloatOps.sitofp (F := Ideal) .f32 ((IntOp.cmpi .eq x y).setWidth 32) = if x = y then 1 else 0 := by
  by_cases h : x = y
  · have e : ((1#1 : BitVec 1).setWidth 32).toInt = 1 := by decide
    rw [if_pos h, IntOp.cmpi_eq.2 h]
    show (((((1#1 : BitVec 1).setWidth 32).toInt : ℤ) : ℝ) : EReal) = 1
    rw [e]; simp
  · have hz : IntOp.cmpi .eq x y = 0#1 := eq_zero_of_ne_one (mt IntOp.cmpi_eq.1 h)
    have e : ((0#1 : BitVec 1).setWidth 32).toInt = 0 := by decide
    rw [if_neg h, hz]
    show (((((0#1 : BitVec 1).setWidth 32).toInt : ℤ) : ℝ) : EReal) = 0
    rw [e]; simp

/-- The mask of the body, read at `(p, q)`. -/
theorem pay9_apply (rl cl : Vec Ideal S1024 .i32) (p q : Fin 1024) :
    k0_pay9 (F := Ideal) rl cl (ix2 p q) = maskK rl cl p q := by
  unfold k0_pay9
  have hA : broadcastTo S1024x1024
      (shapeCast S1024x1 (shapeCast S1024 rl shapeCasts_S1024_S1024) shapeCasts_S1024_S1024x1)
      broadcasts_S1024x1_S1024x1024 (ix2 p q) = rl (ix1 p) :=
    (broadcastTo_a1_ab_apply _ _ p q).trans
      ((shapeCast_a_a1_apply _ _ p 0).trans (congrFun (shapeCast_self rl _) _))
  have hB : broadcastTo S1024x1024 (shapeCast S1x1024 cl shapeCasts_S1024_S1x1024)
      broadcasts_S1x1024_S1024x1024 (ix2 p q) = cl (ix1 q) :=
    (broadcastTo_1b_ab_apply _ _ p q).trans (shapeCast_a_1a_apply _ _ 0 q)
  refine (congrArg₂ (fun x y : BitVec 32 =>
    FloatOps.sitofp (F := Ideal) .f32 ((IntOp.cmpi .eq x y).setWidth 32)) hA hB).trans ?_
  exact mask_word _ _

end Cert.KPay

end
-- ==== Proof.KPaySums.lean ====
import proofs.«125412_j36936718745849_1_alg».proof.Proof.KPayMask

/-!
# The running sums of a row, and the final loss of a row

With `M'` the new running maximum of row `p`, the body rescales each stored running sum by
`exp (m - M')` and adds the row's new terms: `∑ q, exp (S p q - M') * w p q`, where the weight `w` is
the label mask for the first sum and one minus the mask for the second. At the last column block
the loss of the row is `0 - log (lp / (lp + ln + e) + e)`.
-/

noncomputable section

namespace Cert.KPay

open Idealize.ShloMosaic Idealize.ShloMosaic.ValueIdx Cert.KernelIdeal Cert.KernelIdeal.Gen

/-- The word `0x3F800000` denotes `1`. -/
theorem ofBits_one_f32 : Ideal.ofBits .f32 0x3F800000#32 = 1 := by
  simp [Ideal.ofBits, Ideal.ieee, -EReal.coe_mul]; norm_num

/-- The sum along a row of a `1024 × 1024` block. -/
theorem rowSum_apply (src : FVec Ideal S1024x1024 .f32) (hφ : FKind.Formats .f32)
    (hacc : (0x00000000#32 : BitVec FTy.f32.bits) = FKind.add.neutral .f32 hφ) (p : Fin 1024) :
    multiReduction .add [1] S1024 src 0x00000000#32 reduces_S1024x1024_S1024 hφ hacc (ix1 p)
      = ∑ q : Fin 1024, src (ix2 p q) := by
  refine (Ideal.multiReduction_add_single src _ reduces_S1024x1024_S1024 hφ hacc (ix1 p)).trans ?_
  show ∑ k : Fin 1024, src (reduces_S1024x1024_S1024.lift (ix1 p) k) = _
  refine Finset.sum_congr rfl fun k _ => congrArg src ?_
  funext c
  apply Fin.ext
  match c with
  | ⟨0, _⟩ => rfl
  | ⟨1, _⟩ => rfl

section
variable (a b : Vec Ideal S1024x128 .bf16) (rl cl : Vec Ideal S1024 .i32) (mc lp ln : Vec Ideal S1024x1 .f32)
  (p : Fin 1024)

/-- The rescaling factor of row `p`: `exp (m - M')`. -/
theorem pay11_apply :
    k0_pay11 (F := Ideal) a b mc (ix2 p (0 : Fin 1))
      = Ideal.exp (mc (ix2 p (0 : Fin 1)) - k0_pay10 (F := Ideal) a b mc (ix2 p (0 : Fin 1))) := rfl

/-- The shifted exponential of the score at `(p, q)`: `exp (S p q - M')`. -/
theorem pay12_apply (q : Fin 1024) :
    k0_pay12 (F := Ideal) a b mc (ix2 p q)
      = Ideal.exp (S a b p q - k0_pay10 (F := Ideal) a b mc (ix2 p (0 : Fin 1))) := by
  unfold k0_pay12
  exact congrArg₂ (fun x y : EReal => Ideal.exp (x - y)) (pay8_apply a b p q)
    (broadcastTo_a1_ab_apply _ _ p q)

/-- The first running sum after the block, at row `p`. -/
theorem pay14_apply :
    k0_pay14 (F := Ideal) a b rl cl mc lp (ix2 p (0 : Fin 1))
      = lp (ix2 p (0 : Fin 1)) * Ideal.exp (mc (ix2 p (0 : Fin 1)) - k0_pay10 (F := Ideal) a b mc (ix2 p (0 : Fin 1)))
        + ∑ q, Ideal.exp (S a b p q - k0_pay10 (F := Ideal) a b mc (ix2 p (0 : Fin 1))) * maskK rl cl p q := by
  unfold k0_pay14
  refine congrArg (lp (ix2 p (0 : Fin 1)) * k0_pay11 (F := Ideal) a b mc (ix2 p (0 : Fin 1)) + ·) ?_
  refine (shapeCast_a_a1_apply _ _ p 0).trans ?_
  refine (rowSum_apply _ _ _ p).trans ?_
  refine Finset.sum_congr rfl fun q _ => ?_
  exact congrArg₂ (· * ·) (pay12_apply a b mc p q) (pay9_apply rl cl p q)

/-- The new terms of the second running sum, at row `p`. -/
theorem pay13_apply :
    k0_pay13 (F := Ideal) a b rl cl mc (ix2 p (0 : Fin 1))
      = ∑ q, Ideal.exp (S a b p q - k0_pay10 (F := Ideal) a b mc (ix2 p (0 : Fin 1))) * (1 - maskK rl cl p q) := by
  unfold k0_pay13
  refine (shapeCast_a_a1_apply _ _ p 0).trans ?_
  refine (rowSum_apply _ _ _ p).trans ?_
  refine Finset.sum_congr rfl fun q _ => ?_
  refine congrArg₂ (· * ·) (pay12_apply a b mc p q) ?_
  show Ideal.ofBits .f32 0x3F800000#32 - k0_pay9 (F := Ideal) rl cl (ix2 p q) = _
  rw [ofBits_one_f32, pay9_apply]

/-- The first running sum as stored, at row `p`. -/
theorem pay1_pay14_apply :
    k0_pay1 (F := Ideal) (k0_pay14 (F := Ideal) a b rl cl mc lp) (ix2 p (0 : Fin 1))
      = lp (ix2 p (0 : Fin 1)) * Ideal.exp (mc (ix2 p (0 : Fin 1)) - k0_pay10 (F := Ideal) a b mc (ix2 p (0 : Fin 1)))
        + ∑ q, Ideal.exp (S a b p q - k0_pay10 (F := Ideal) a b mc (ix2 p (0 : Fin 1))) * maskK rl cl p q := by
  unfold k0_pay1
  exact (congrFun (shapeCast_self _ _) _).trans (pay14_apply a b rl cl mc lp p)

/-- The second running sum as stored, at row `p`. -/
theorem pay2_apply :
    k0_pay2 (F := Ideal) (k0_pay11 (F := Ideal) a b mc) (k0_pay13 (F := Ideal) a b rl cl mc) ln (ix2 p (0 : Fin 1))
      = ln (ix2 p (0 : Fin 1)) * Ideal.exp (mc (ix2 p (0 : Fin 1)) - k0_pay10 (F := Ideal) a b mc (ix2 p (0 : Fin 1)))
        + ∑ q, Ideal.exp (S a b p q - k0_pay10 (F := Ideal) a b mc (ix2 p (0 : Fin 1))) * (1 - maskK rl cl p q) := by
  unfold k0_pay2
  refine (congrFun (shapeCast_self _ _) _).trans ?_
  exact congrArg (ln (ix2 p (0 : Fin 1)) * k0_pay11 (F := Ideal) a b mc (ix2 p (0 : Fin 1)) + ·)
    (pay13_apply a b rl cl mc p)

end

/-- The running maximum is stored as it is. -/
theorem pay3_apply (v : FVec Ideal S1024x1 .f32) (i : S1024x1.Idx) : k0_pay3 (F := Ideal) v i = v i := by
  unfold k0_pay3
  exact congrFun (shapeCast_self _ _) _

/-- Before the first column block the running maximum is `-∞`. -/
theorem pay5_apply (i : S1024x1.Idx) : k0_pay5 (F := Ideal) i = ⊥ := by
  unfold k0_pay5
  exact (congrFun (shapeCast_self _ _) _).trans Cert.Stream.ofBits_neg_inf_f32

/-- Before the first column block the first running sum is `0`. -/
theorem pay6_apply (i : S1024x1.Idx) : k0_pay6 (F := Ideal) i = 0 := by
  unfold k0_pay6
  exact (congrFun (shapeCast_self _ _) _).trans Ideal.ofBits_zero_f32

/-- Before the first column block the second running sum is `0`. -/
theorem pay7_apply (i : S1024x1.Idx) : k0_pay7 (F := Ideal) i = 0 := by
  unfold k0_pay7
  exact (congrFun (shapeCast_self _ _) _).trans Ideal.ofBits_zero_f32

/-- The loss of row `p` from the two final sums. -/
theorem pay4_apply (lp ln : Vec Ideal S1024x1 .f32) (p : Fin 1024) :
    k0_pay4 (F := Ideal) lp ln (ix1 p)
      = 0 - Ideal.log (Ideal.div (lp (ix2 p (0 : Fin 1)))
            (lp (ix2 p (0 : Fin 1)) + ln (ix2 p (0 : Fin 1)) + Ideal.ofBits .f32 0x322BCC77#32)
          + Ideal.ofBits .f32 0x322BCC77#32) := by
  unfold k0_pay4
  refine (shapeCast_a1_a_apply _ _ p).trans ?_
  show Ideal.ofBits .f32 0x00000000#32 - _ = _
  rw [Ideal.ofBits_zero_f32]
  rfl

end Cert.KPay

end
-- ==== Proof.KIRowStep.lean ====
import proofs.«125412_j36936718745849_1_alg».proof.Proof.KPaySums
import proofs.«125412_j36936718745849_1_alg».proof.Proof.Spec

/-!
# One column block's update of a row, in the specification's terms

Let the row block `a` hold rows `i * 1024 + p` of the matrix `feat` and the column block `b` hold
its rows `k * 1024 + q`, and let the two label blocks hold the matching entries of the label
vectors. Then the scores of the block are similarities of `feat`, the block's mask is the
specification's mask, and the body's new running maximum and running sums of row `p` are the
streaming update of row `i * 1024 + p` over column block `k`.
-/

noncomputable section

namespace Cert.KRow

open Idealize.ShloMosaic Idealize.ShloMosaic.ValueIdx Cert.KernelIdeal Cert.KernelIdeal.Gen
open Cert.KPay Cert.RowSpec

/-- The unsigned reading of the equality bit of two words is `1` when they are equal and `0` otherwise. -/
theorem eq_bit_coe (x y : BitVec 32) :
    (((IntOp.cmpi .eq x y).toNat : ℝ) : EReal) = if x = y then 1 else 0 := by
  by_cases h : x = y
  · rw [if_pos h, IntOp.cmpi_eq.2 h]
    show (((1 : ℕ) : ℝ) : EReal) = 1
    simp
  · have hz : IntOp.cmpi .eq x y = 0#1 := eq_zero_of_ne_one (mt IntOp.cmpi_eq.1 h)
    rw [if_neg h, hz]
    show (((0 : ℕ) : ℝ) : EReal) = 0
    simp

section
variable (feat : (⟨2, ![8192, 128]⟩ : Shape).Idx → EReal)
  (rlab clab : (⟨1, ![8192]⟩ : Shape).Idx → BitVec 32)
  (a b : Vec Ideal S1024x128 .bf16) (rl cl : Vec Ideal S1024 .i32) (mc lp ln : Vec Ideal S1024x1 .f32)
  (r : Fin 8192) (k : Fin 8) (p : Fin 1024)

/-- The block's scores are similarities of the matrix. -/
theorem S_eq_sim (ha : ∀ d, a (ix2 p d) = feat (ix2 r d))
    (hb : ∀ q d, b (ix2 q d) = feat (ix2 (col k q) d)) (q : Fin 1024) :
    S a b p q = sim feat r (col k q) :=
  Finset.sum_congr rfl fun d _ => by rw [ha d, hb q d]

/-- The block's mask is the specification's mask. -/
theorem maskK_eq_mask (hrl : rl (ix1 p) = rlab (ix1 r)) (hcl : ∀ q, cl (ix1 q) = clab (ix1 (col k q)))
    (q : Fin 1024) : maskK rl cl p q = mask rlab clab r (col k q) := by
  unfold maskK mask
  rw [hrl, hcl q, eq_bit_coe]

variable (ha : ∀ d, a (ix2 p d) = feat (ix2 r d)) (hb : ∀ q d, b (ix2 q d) = feat (ix2 (col k q) d))
  (hrl : rl (ix1 p) = rlab (ix1 r)) (hcl : ∀ q, cl (ix1 q) = clab (ix1 (col k q)))
include ha hb

/-- The new running maximum of the row. -/
theorem max_step :
    k0_pay3 (F := Ideal) (k0_pay10 (F := Ideal) a b mc) (ix2 p (0 : Fin 1))
      = max (mc (ix2 p (0 : Fin 1))) (Cert.Stream.blockMax fun q : Fin 1024 => sim feat r (col k q)) := by
  rw [pay3_apply, pay10_apply]
  exact congrArg (fun f : Fin 1024 → EReal => max (mc (ix2 p (0 : Fin 1))) (Cert.Stream.blockMax f))
    (funext fun q => S_eq_sim feat a b r k p ha hb q)

include hrl hcl

/-- The new same-label running sum of the row. -/
theorem pos_step :
    k0_pay1 (F := Ideal) (k0_pay14 (F := Ideal) a b rl cl mc lp) (ix2 p (0 : Fin 1))
      = lp (ix2 p (0 : Fin 1)) * Ideal.exp (mc (ix2 p (0 : Fin 1))
            - k0_pay3 (F := Ideal) (k0_pay10 (F := Ideal) a b mc) (ix2 p (0 : Fin 1)))
        + ∑ q : Fin 1024, Ideal.exp (sim feat r (col k q)
            - k0_pay3 (F := Ideal) (k0_pay10 (F := Ideal) a b mc) (ix2 p (0 : Fin 1))) * mask rlab clab r (col k q) := by
  rw [pay1_pay14_apply, pay3_apply]
  refine congrArg (_ + ·) (Finset.sum_congr rfl fun q _ => ?_)
  rw [S_eq_sim feat a b r k p ha hb q, maskK_eq_mask rlab clab rl cl r k p hrl hcl q]

/-- The new other-label running sum of the row. -/
theorem neg_step :
    k0_pay2 (F := Ideal) (k0_pay11 (F := Ideal) a b mc) (k0_pay13 (F := Ideal) a b rl cl mc) ln (ix2 p (0 : Fin 1))
      = ln (ix2 p (0 : Fin 1)) * Ideal.exp (mc (ix2 p (0 : Fin 1))
            - k0_pay3 (F := Ideal) (k0_pay10 (F := Ideal) a b mc) (ix2 p (0 : Fin 1)))
        + ∑ q : Fin 1024, Ideal.exp (sim feat r (col k q)
            - k0_pay3 (F := Ideal) (k0_pay10 (F := Ideal) a b mc) (ix2 p (0 : Fin 1)))
              * (1 - mask rlab clab r (col k q)) := by
  rw [pay2_apply, pay3_apply]
  refine congrArg (_ + ·) (Finset.sum_congr rfl fun q _ => ?_)
  rw [S_eq_sim feat a b r k p ha hb q, maskK_eq_mask rlab clab rl cl r k p hrl hcl q]

end

end Cert.KRow

end
-- ==== Proof.Bridge.lean ====
import proofs.«125412_j36936718745849_1_alg».proof.Proof.Softmax
import proofs.«125412_j36936718745849_1_alg».proof.Proof.Spec

/-!
# From the streaming recurrence to the row loss

If three sequences of values start at `(⊥, 0, 0)` and obey, for each of the 8 column blocks of row `r`, the
update of the running maximum and of the two running weighted sums, then after the 8 blocks they are the
row's maximum and its two sums, so the loss formed from them is the row's loss. Every similarity is a real
number when every entry of the matrix is.
-/

noncomputable section

namespace Cert.RowSpec

open Idealize.ShloMosaic Idealize.ShloMosaic.ValueIdx Cert.Stream
open scoped BigOperators

/-- With real entries every similarity is real. -/
theorem sim_real (feat : (⟨2, ![8192, 128]⟩ : Shape).Idx → EReal) (hfeat : ∀ i, ∃ x : ℝ, feat i = (x : EReal))
    (r c : Fin 8192) : ∃ x : ℝ, sim feat r c = (x : EReal) := by
  choose f hf using hfeat
  refine ⟨∑ k : Fin 128, f (ix2 r k) * f (ix2 c k), ?_⟩
  unfold sim
  rw [coe_sum]
  refine Finset.sum_congr rfl fun k _ => ?_
  rw [hf, hf, EReal.coe_mul]

/-- After the 8 blocks the three running values are the row's maximum and its two sums. -/
theorem stream_eq_row (feat : (⟨2, ![8192, 128]⟩ : Shape).Idx → EReal)
    (hfeat : ∀ i, ∃ x : ℝ, feat i = (x : EReal)) (rl cl : (⟨1, ![8192]⟩ : Shape).Idx → BitVec 32) (r : Fin 8192)
    (m lp ln : ℕ → EReal) (hm0 : m 0 = ⊥) (hp0 : lp 0 = 0) (hn0 : ln 0 = 0)
    (hm : ∀ (k : ℕ) (hk : k < 8), m (k + 1)
        = max (m k) (blockMax (fun q : Fin 1024 => sim feat r (col ⟨k, hk⟩ q))))
    (hp : ∀ (k : ℕ) (hk : k < 8), lp (k + 1)
        = lp k * Ideal.exp (m k - m (k + 1))
          + ∑ q : Fin 1024, Ideal.exp (sim feat r (col ⟨k, hk⟩ q) - m (k + 1)) * mask rl cl r (col ⟨k, hk⟩ q))
    (hn : ∀ (k : ℕ) (hk : k < 8), ln (k + 1)
        = ln k * Ideal.exp (m k - m (k + 1))
          + ∑ q : Fin 1024, Ideal.exp (sim feat r (col ⟨k, hk⟩ q) - m (k + 1))
              * (1 - mask rl cl r (col ⟨k, hk⟩ q))) :
    m 8 = rowMax feat r ∧ lp 8 = pos feat rl cl r ∧ ln 8 = neg feat rl cl r := by
  haveI : Nonempty (Fin 1024) := ⟨⟨0, by decide⟩⟩
  have P := stream_rel (Q := Fin 1024) (J := 8) (fun j q => sim feat r (col j q))
    (fun j q => mask rl cl r (col j q)) (fun j q => sim_real feat hfeat r _) (fun j q => mask_real rl cl r _)
    m lp hm0 hp0 hm hp
  have N := stream_rel (Q := Fin 1024) (J := 8) (fun j q => sim feat r (col j q))
    (fun j q => 1 - mask rl cl r (col j q)) (fun j q => sim_real feat hfeat r _)
    (fun j q => one_sub_mask_real rl cl r _) m ln hm0 hn0 hm hn
  have hM : m 8 = rowMax feat r := by
    rw [P.1]; unfold rowMax blockMax; exact (max_cols _).symm
  refine ⟨hM, ?_, ?_⟩
  · rw [P.2, hM]; unfold pos
    exact (sum_cols (fun c => Ideal.exp (sim feat r c - rowMax feat r) * mask rl cl r c)).symm
  · rw [N.2, hM]; unfold neg
    exact (sum_cols (fun c => Ideal.exp (sim feat r c - rowMax feat r) * (1 - mask rl cl r c))).symm

/-- So the loss formed from the final running sums is the row's loss. -/
theorem loss_of_stream (feat : (⟨2, ![8192, 128]⟩ : Shape).Idx → EReal)
    (hfeat : ∀ i, ∃ x : ℝ, feat i = (x : EReal)) (rl cl : (⟨1, ![8192]⟩ : Shape).Idx → BitVec 32) (r : Fin 8192)
    (m lp ln : ℕ → EReal) (hm0 : m 0 = ⊥) (hp0 : lp 0 = 0) (hn0 : ln 0 = 0)
    (hm : ∀ (k : ℕ) (hk : k < 8), m (k + 1)
        = max (m k) (blockMax (fun q : Fin 1024 => sim feat r (col ⟨k, hk⟩ q))))
    (hp : ∀ (k : ℕ) (hk : k < 8), lp (k + 1)
        = lp k * Ideal.exp (m k - m (k + 1))
          + ∑ q : Fin 1024, Ideal.exp (sim feat r (col ⟨k, hk⟩ q) - m (k + 1)) * mask rl cl r (col ⟨k, hk⟩ q))
    (hn : ∀ (k : ℕ) (hk : k < 8), ln (k + 1)
        = ln k * Ideal.exp (m k - m (k + 1))
          + ∑ q : Fin 1024, Ideal.exp (sim feat r (col ⟨k, hk⟩ q) - m (k + 1))
              * (1 - mask rl cl r (col ⟨k, hk⟩ q))) :
    -(Ideal.log (Ideal.div (lp 8) (lp 8 + ln 8 + eps) + eps)) = rowLoss feat rl cl r := by
  obtain ⟨_, h1, h2⟩ := stream_eq_row feat hfeat rl cl r m lp ln hm0 hp0 hn0 hm hp hn
  rw [h1, h2]; rfl

end Cert.RowSpec

end
-- ==== Proof.KIRow.lean ====
import proofs.«125412_j36936718745849_1_alg».proof.Proof.KIUnroll
import proofs.«125412_j36936718745849_1_alg».proof.Proof.KIBlocks
import proofs.«125412_j36936718745849_1_alg».proof.Proof.KIRowStep
import proofs.«125412_j36936718745849_1_alg».proof.Proof.Bridge

/-!
# The loss the grid leaves for one row is the row's loss

Row block `i` is visited by the eight points `8 i + k`, `k = 0 … 7`. Entry `p` of the three columns
starts at `(-∞, 0, 0)` and after point `8 i + k` holds the streaming update of row `i * 1024 + p`
over column block `k`; after the eighth point the loss formula of the two sums is, by the streaming
law, the loss of that row.
-/

set_option maxRecDepth 16384

noncomputable section

namespace Cert.KRow

open Cert.KernelIdeal Cert.KernelIdeal.Gen Cert.KernelIdeal.Stream
open Idealize.ShloMosaic Idealize.ShloMosaic.TcCoe Idealize.ShloMosaic.ValueIdx
open Idealize.SL.Sem
open Cert.KPay Cert.RowSpec

variable (m : (ℓ : Loc nD τ sig) → Buf (Elt Ideal) ℓ)

/-- Zero minus an extended real is its negation. -/
theorem zero_sub_eq_neg (x : EReal) : 0 - x = -x := by rw [sub_eq_add_neg, zero_add]

/-- Row `p` of row block `i`, as a row of the whole matrix. -/
def row (i : Fin 8) (p : Fin 1024) : Fin 8192 :=
  ⟨i.val * 1024 + p.val, by have := i.isLt; have := p.isLt; omega⟩

/-- The point of row block `i` and column block `k`. -/
def pt (i : Fin 8) (k : ℕ) (hk : k < 8) : Fin cfg0.N := ⟨8 * i.val + k, pt_lt i k hk⟩

theorem rowOf_pt (i : Fin 8) (k : ℕ) (hk : k < 8) (p : Fin 1024) : rowOf (pt i k hk) p = row i p :=
  Fin.ext (by
    show (8 * i.val + k) / 8 * 1024 + p.val = i.val * 1024 + p.val
    have : (8 * i.val + k) / 8 = i.val := by omega
    rw [this])

theorem colOf_pt (i : Fin 8) (k : ℕ) (hk : k < 8) (q : Fin 1024) : colOf (pt i k hk) q = col ⟨k, hk⟩ q :=
  Fin.ext (by
    show (8 * i.val + k) % 8 * 1024 + q.val = k * 1024 + q.val
    have : (8 * i.val + k) % 8 = k := by omega
    rw [this])

/-- The three columns of row block `i` after `k` column blocks, for every `k` (the reset columns past the eighth). -/
def st (c : Dev nD) (i : Fin 8) (k : ℕ) : Cols Ideal :=
  if h : k ≤ 8 then stateAt m c i k h else resetCols

theorem st_zero (c : Dev nD) (i : Fin 8) : st m c i 0 = resetCols := by
  unfold st; rw [dif_pos (Nat.zero_le 8)]; rfl

theorem st_succ (c : Dev nD) (i : Fin 8) (k : ℕ) (hk : k < 8) :
    st m c i (k + 1) = stepCols (iblk m c 0 (pt i k hk)) (iblk m c 1 (pt i k hk)) (iblk m c 2 (pt i k hk))
      (iblk m c 3 (pt i k hk)) (st m c i k) := by
  unfold st; rw [dif_pos (Nat.succ_le_of_lt hk), dif_pos (Nat.le_of_lt hk)]; rfl

theorem st_eight (c : Dev nD) (i : Fin 8) : st m c i 8 = stateAt m c i 8 (le_refl _) := by
  unfold st; rw [dif_pos (le_refl 8)]

/-- The loss the last point of row block `i` writes at entry `p` is the loss of row `i * 1024 + p`. -/
theorem row_loss (c : Dev nD)
    (hfeat : ∀ k, ∃ x : ℝ, (V m c main_v9 : S8192x128.Idx → EReal) k = (x : EReal))
    (i : Fin 8) (p : Fin 1024) (hn : 8 * i.val + 7 < cfg0.N) :
    outAt m c ⟨8 * i.val + 7, hn⟩ (ix1 p)
      = rowLoss (V m c main_v9) (V m c main_v11) (V m c main_v14) (row i p) := by
  refine (congrFun (outAt_state m c i hn) (ix1 p)).trans ?_
  refine (pay4_apply _ _ p).trans ?_
  refine (zero_sub_eq_neg _).trans ?_
  rw [← st_eight m c i]
  -- the blocks of point `8 i + k`, read off the arrays
  have ha : ∀ (k : ℕ) (hk : k < 8) (d : Fin 128),
      iblk m c 0 (pt i k hk) (ix2 p d) = (V m c main_v9 : S8192x128.Idx → EReal) (ix2 (row i p) d) :=
    fun k hk d => (rowBlock_read m c (pt i k hk) p d).trans (by rw [rowOf_pt])
  have hb : ∀ (k : ℕ) (hk : k < 8) (q : Fin 1024) (d : Fin 128),
      iblk m c 1 (pt i k hk) (ix2 q d) = (V m c main_v9 : S8192x128.Idx → EReal) (ix2 (col ⟨k, hk⟩ q) d) :=
    fun k hk q d => (colBlock_read m c (pt i k hk) q d).trans (by rw [colOf_pt])
  have hrl : ∀ (k : ℕ) (hk : k < 8),
      iblk m c 2 (pt i k hk) (ix1 p) = (V m c main_v11 : S8192.Idx → BitVec 32) (ix1 (row i p)) :=
    fun k hk => (rowLabels_read m c (pt i k hk) p).trans (by rw [rowOf_pt])
  have hcl : ∀ (k : ℕ) (hk : k < 8) (q : Fin 1024),
      iblk m c 3 (pt i k hk) (ix1 q) = (V m c main_v14 : S8192.Idx → BitVec 32) (ix1 (col ⟨k, hk⟩ q)) :=
    fun k hk q => (colLabels_read m c (pt i k hk) q).trans (by rw [colOf_pt])
  exact loss_of_stream (V m c main_v9) hfeat (V m c main_v11) (V m c main_v14) (row i p)
    (fun k => (st m c i k).1 (ix2 p (0 : Fin 1))) (fun k => (st m c i k).2.1 (ix2 p (0 : Fin 1)))
    (fun k => (st m c i k).2.2 (ix2 p (0 : Fin 1)))
    (by show (st m c i 0).1 _ = ⊥; rw [st_zero]; exact pay5_apply (ix2 p (0 : Fin 1)))
    (by show (st m c i 0).2.1 _ = 0; rw [st_zero]; exact pay6_apply (ix2 p (0 : Fin 1)))
    (by show (st m c i 0).2.2 _ = 0; rw [st_zero]; exact pay7_apply (ix2 p (0 : Fin 1)))
    (fun k hk => by
      show (st m c i (k + 1)).1 _ = max ((st m c i k).1 _) _
      rw [st_succ m c i k hk]
      exact max_step (V m c main_v9) _ _ (st m c i k).1 (row i p) ⟨k, hk⟩ p (ha k hk) (hb k hk))
    (fun k hk => by
      show (st m c i (k + 1)).2.1 _ = (st m c i k).2.1 _ * Ideal.exp ((st m c i k).1 _ - (st m c i (k + 1)).1 _) + _
      rw [st_succ m c i k hk]
      exact pos_step (V m c main_v9) (V m c main_v11) (V m c main_v14) _ _ _ _ (st m c i k).1 (st m c i k).2.1
        (row i p) ⟨k, hk⟩ p (ha k hk) (hb k hk) (hrl k hk) (hcl k hk))
    (fun k hk => by
      show (st m c i (k + 1)).2.2 _ = (st m c i k).2.2 _ * Ideal.exp ((st m c i k).1 _ - (st m c i (k + 1)).1 _) + _
      rw [st_succ m c i k hk]
      exact neg_step (V m c main_v9) (V m c main_v11) (V m c main_v14) _ _ _ _ (st m c i k).1 (st m c i k).2.2
        (row i p) ⟨k, hk⟩ p (ha k hk) (hb k hk) (hrl k hk) (hcl k hk))

end Cert.KRow

end
-- ==== Proof.FiniteInputs.lean ====
import proofs.«125412_j36936718745849_1_alg».proof.Pre_finite_inputs
import proofs.«125412_j36936718745849_1_alg».proof.Proof.RealValued
import Idealize.ShloMosaic.Lib.ReduceAll
import Idealize.ShloMosaic.Lib.ValueIdx

/-!
# Every input entry is a real number

The precondition is the conjunction, over all entries of the float argument, of the comparison
`|x| < +∞` on the extended reals. An extended real whose absolute value `max x (-x)` lies
strictly below `⊤` is neither `⊤` nor `⊥`, hence the image of a real number.
-/

noncomputable section

namespace Cert.Finite

open Idealize.ShloMosaic Cert.Pre_finite_inputs

/-- The rank-zero shape has a single index. -/
instance : Subsingleton S_.Idx := ⟨fun a b => funext fun d => d.elim0⟩

variable [Facts]

/-- If the finiteness predicate answers one, every entry of the float argument is a real. -/
theorem real_of_pre (x : FVec Ideal S64x128x128 .f32) (y : IVec S64 32)
    (h : Cert.Pre_finite_inputs.fn (F := Ideal) x y = fun _ => 1#1) :
    ∀ i, ∃ a : ℝ, x i = (a : EReal) := by
  intro i
  have e := congrFun h ValueIdx.ix0
  dsimp only [Cert.Pre_finite_inputs.fn] at e
  -- the conjunction over all entries is one, so the comparison at entry `i` is one
  have hi := Host.reduce_andi_all _ _ _ _ _ e i
  have hi' : Ideal.cmp .olt (max (x i) (-(x i))) (Ideal.ofBits .f32 0x7F800000#32) = 1#1 := hi
  rw [ofBits_pos_inf, cmp_olt_eq_one_iff] at hi'
  exact real_of_abs_lt_top (x i) hi'

end Cert.Finite

end
-- ==== Proof.RefValue.lean ====
import proofs.«125412_j36936718745849_1_alg».proof.Proof.Gen.ReferenceIdeal.Read
import proofs.«125412_j36936718745849_1_alg».proof.Proof.Softmax
import proofs.«125412_j36936718745849_1_alg».proof.Proof.Spec

/-!
# The reference program computes the direct form

Stage by stage, at an index: the product of the normalised matrix with its transpose is the similarity, its
row maximum is the row's maximum, the exponentials, the label mask, the two masked row sums, the row loss, and
last the mean. The normalised matrix and the two label vectors are taken as they are (stages 8, 17 and 20).
-/

noncomputable section

namespace Cert.RefSide

open Cert.ReferenceIdeal Cert.ReferenceIdeal.Gen Cert.ReferenceIdeal.Read Idealize.ShloMosaic
  Idealize.ShloMosaic.ValueIdx Idealize.ShloMosaic.StableHlo Cert.RowSpec
open scoped BigOperators

variable (x0 : (⟨S64x128x128, .f32⟩ : BufTy).Contents (Elt Ideal)) (x1 : (⟨S64, .i32⟩ : BufTy).Contents (Elt Ideal))

/-- The product's entry (r, c) is the similarity of rows r and c. -/
theorem ref_sim (r c : Fin 8192) :
    val_main_v10 (F := Ideal) x0 (ix2 r c) = sim (val_main_v8 (F := Ideal) x0) r c := by
  rw [val_main_v10_apply]
  unfold sim
  refine Finset.sum_congr rfl fun k _ => ?_
  rw [val_main_v9_apply]
  have e1 : lidx_main_v10 (ix2 r c) k = ix2 r k :=
    funext fun a => Fin.ext (by match a with | ⟨0, _⟩ => rfl | ⟨1, _⟩ => rfl)
  have e2 : idx_main_v9 (ridx_main_v10 (ix2 r c) k) = ix2 c k :=
    funext fun a => Fin.ext (by match a with | ⟨0, _⟩ => rfl | ⟨1, _⟩ => rfl)
  rw [e1, e2]

/-- Row r's index with column c put back is (r, c). -/
theorem lift_col (h : S8192x8192.Reduces [1] S8192) (r : Fin 8192) (c : Fin (S8192x8192.size 1)) :
    h.lift (ix1 r) c = ix2 r (⟨c.val, c.isLt⟩ : Fin 8192) := by
  funext a; apply Fin.ext
  fin_cases a <;> rfl

/-- The row maximum of the product is the row's maximum. -/
theorem ref_max (r : Fin 8192) :
    val_main_v11 (F := Ideal) x0 (ix1 r) = rowMax (val_main_v8 (F := Ideal) x0) r := by
  have h : S8192x8192.Reduces [1] S8192 := by decide
  unfold val_main_v11
  refine (Host.reduce_eq_fold_single (α := EReal) (s := S8192x8192) (t := S8192) (a := 1) (u := S_)
    (FloatOps.maximumf (F := Ideal) (φ := .f32)) (val_main_v10 (F := Ideal) x0) (val_main_cst_1 (F := Ideal))
    reducesTo_S8192x8192_S8192_d1 h h_S_ (ix1 r)).trans ?_
  have hf : (val_main_v10 (F := Ideal) x0 ∘ h.lift (ix1 r))
      = fun c : Fin 8192 => sim (val_main_v8 (F := Ideal) x0) r c :=
    funext fun c => (congrArg (val_main_v10 (F := Ideal) x0) (lift_col h r c)).trans (ref_sim x0 r c)
  have hb : val_main_cst_1 (F := Ideal) (Shape.Idx.first h_S_) = (⊥ : EReal) := Cert.Stream.ofBits_neg_inf_f32
  rw [hb]
  unfold rowMax
  exact congrArg (fun f => Finset.fold max (⊥ : EReal) f (Finset.univ : Finset (Fin 8192))) hf

/-- The converted comparison at (r, c) is the label mask. -/
theorem ref_mask (r c : Fin 8192) :
    val_main_v26 (F := Ideal) x1 (ix2 r c)
      = mask (val_main_v17 (F := Ideal) x1) (val_main_v20 (F := Ideal) x1) r c := by
  rw [val_main_v26_apply, val_main_v25_apply, val_main_v23_apply, val_main_v24_apply, val_main_v21_apply,
    val_main_v22_apply]
  have e1 : idx_main_v21 (idx_main_v23 (ix2 r c)) = ix1 r :=
    funext fun a => Fin.ext (by match a with | ⟨0, _⟩ => rfl)
  have e2 : idx_main_v22 (idx_main_v24 (ix2 r c)) = ix1 c :=
    funext fun a => Fin.ext (by match a with | ⟨0, _⟩ => rfl)
  rw [e1, e2]
  rfl

/-- The exponential at (r, c). -/
theorem ref_exp (r c : Fin 8192) :
    val_main_v15 (F := Ideal) x0 (ix2 r c)
      = Ideal.exp (sim (val_main_v8 (F := Ideal) x0) r c - rowMax (val_main_v8 (F := Ideal) x0) r) := by
  rw [val_main_v15_apply, val_main_v14_apply, val_main_v13_apply, val_main_v12_apply]
  have e : idx_main_v12 (idx_main_v13 (ix2 r c)) = ix1 r :=
    funext fun a => Fin.ext (by match a with | ⟨0, _⟩ => rfl)
  rw [e, ref_sim, ref_max]
  rfl

/-- The first masked row sum. -/
theorem ref_pos (r : Fin 8192) :
    val_main_v28 (F := Ideal) x0 x1 (ix1 r)
      = pos (val_main_v8 (F := Ideal) x0) (val_main_v17 (F := Ideal) x1) (val_main_v20 (F := Ideal) x1) r := by
  rw [val_main_v28_apply]
  have e0 : val_main_cst_2 (F := Ideal) (Shape.Idx.first h_S_) = (0 : EReal) := Ideal.ofBits_zero_f32
  rw [e0, zero_add]
  unfold pos
  refine Finset.sum_congr rfl fun c _ => ?_
  have e : idx_main_v28 (ix1 r) c = ix2 r c :=
    funext fun a => Fin.ext (by match a with | ⟨0, _⟩ => rfl | ⟨1, _⟩ => rfl)
  rw [e, val_main_v27_apply, ref_exp, ref_mask]
  rfl

/-- The second masked row sum. -/
theorem ref_neg (r : Fin 8192) :
    val_main_v33 (F := Ideal) x0 x1 (ix1 r)
      = neg (val_main_v8 (F := Ideal) x0) (val_main_v17 (F := Ideal) x1) (val_main_v20 (F := Ideal) x1) r := by
  rw [val_main_v33_apply]
  have e0 : val_main_cst_4 (F := Ideal) (Shape.Idx.first h_S_) = (0 : EReal) := Ideal.ofBits_zero_f32
  rw [e0, zero_add]
  unfold neg
  refine Finset.sum_congr rfl fun c _ => ?_
  have e : idx_main_v33 (ix1 r) c = ix2 r c :=
    funext fun a => Fin.ext (by match a with | ⟨0, _⟩ => rfl | ⟨1, _⟩ => rfl)
  rw [e, val_main_v32_apply, ref_exp, val_main_v31_apply, val_main_v30_apply, val_main_cst_3_apply, ref_mask]
  show _ * (Ideal.ofBits .f32 0x3F800000#32 - _) = _
  rw [ofBits_one_f32]

/-- The loss of row r. -/
theorem ref_row (r : Fin 8192) :
    val_main_v42 (F := Ideal) x0 x1 (ix2 r (0 : Fin 1))
      = rowLoss (val_main_v8 (F := Ideal) x0) (val_main_v17 (F := Ideal) x1) (val_main_v20 (F := Ideal) x1) r := by
  rw [val_main_v42_apply, val_main_v41_apply, val_main_v40_apply, val_main_v38_apply, val_main_v39_apply,
    val_main_cst_6_apply, val_main_v37_apply, val_main_v35_apply, val_main_v29_apply, val_main_v34_apply,
    val_main_v36_apply, val_main_cst_5_apply]
  have e1 : idx_main_v29 (ix2 r (0 : Fin 1)) = ix1 r :=
    funext fun a => Fin.ext (by match a with | ⟨0, _⟩ => rfl)
  have e2 : idx_main_v34 (ix2 r (0 : Fin 1)) = ix1 r :=
    funext fun a => Fin.ext (by match a with | ⟨0, _⟩ => rfl)
  rw [e1, e2, ref_pos, ref_neg]
  rfl

/-- The reference's result is the mean of the row losses. -/
theorem ref_total :
    val_main_v44 (F := Ideal) x0 x1
      = fun _ => total fun r =>
          rowLoss (val_main_v8 (F := Ideal) x0) (val_main_v17 (F := Ideal) x1) (val_main_v20 (F := Ideal) x1) r := by
  funext i
  rw [val_main_v44_apply, val_main_v43_apply, val_main_cst_8_apply, sum_idx2]
  have hrow : ∀ a : Fin 8192, ∑ b : Fin 1, val_main_v42 (F := Ideal) x0 x1 (ix2 a b)
      = rowLoss (val_main_v8 (F := Ideal) x0) (val_main_v17 (F := Ideal) x1) (val_main_v20 (F := Ideal) x1) a :=
    fun a => by rw [Fin.sum_univ_one, ref_row]
  simp only [hrow]
  rfl

end Cert.RefSide

end
-- ==== Proof.KIValue.lean ====
import proofs.«125412_j36936718745849_1_alg».proof.Defs
import proofs.«125412_j36936718745849_1_alg».proof.Proof.KIFrame
import proofs.«125412_j36936718745849_1_alg».proof.Proof.KIHost
import proofs.«125412_j36936718745849_1_alg».proof.Proof.KIFinal
import proofs.«125412_j36936718745849_1_alg».proof.Proof.KIRow
import proofs.«125412_j36936718745849_1_alg».proof.Proof.FiniteInputs
import proofs.«125412_j36936718745849_1_alg».proof.Proof.FiniteFeat
import proofs.«125412_j36936718745849_1_alg».proof.Proof.FiniteFeatRef
import proofs.«125412_j36936718745849_1_alg».proof.Proof.RefValue
import proofs.«125412_j36936718745849_1_alg».proof.Proof.Total
import proofs.«125412_j36936718745849_1_alg».proof.Proof.Gen.Pre_finite_inputs

set_option maxRecDepth 16384

noncomputable section

namespace Cert.KernelIdeal.Value

open Cert.KernelIdeal Cert.KernelIdeal.Gen Cert.KernelIdeal.Stream
open Idealize.ShloMosaic Idealize.ShloMosaic.TcCoe Idealize.SL.Sem Idealize.ShloMosaic.ValueIdx

/-! # The kernel program's result at the extended reals

Under the precondition every entry of the normalised matrix is a real number: a row of reals divided by the larger of
its (real, nonnegative) length and a positive constant. Then every row's streaming recurrence ends at the row's direct
softmax sums, the block of losses of each row block is the specification's losses of its rows, and the mean the host
takes of the 8192 losses is the specification's total — written over the three host stages both programs share: the
normalised matrix, the row labels and the column labels of the arguments. -/

variable (m : (ℓ : Loc nD τ sig) → Buf (Elt Ideal) ℓ) (ρ : Dev nD → PrngReg)

/-- Finite inputs make the normalised matrix real-valued. -/
theorem feat_real (hpre : Cert.Pre_KernelIdeal m) (c : Dev nD) :
    ∀ k, ∃ x : ℝ, (V m c main_v9 : S8192x128.Idx → EReal) k = (x : EReal) := by
  intro k
  rw [Cert.KernelIdeal.HostRead.V_feat]
  exact Cert.Finite.featOf_real _ (Cert.Finite.real_of_pre _ _ (hpre c)) k

/-- Row `r` of the final losses is the specification's loss of row `r`. -/
theorem losses_eq (hpre : Cert.Pre_KernelIdeal m) (c : Dev nD) (r : Fin 8192) :
    (dats m 0 c).arrAt 4 cfg0.N (ix1 r) = Cert.RowSpec.rowLoss (V m c main_v9) (V m c main_v11) (V m c main_v14) r := by
  rw [final_out_apply]
  have hi : r.val / 1024 < 8 := by have := r.isLt; omega
  have h := Cert.KRow.row_loss m c (feat_real m hpre c) ⟨r.val / 1024, hi⟩ (offOf r) (pt_lt ⟨r.val / 1024, hi⟩ 7 (by omega))
  have hr : Cert.KRow.row ⟨r.val / 1024, hi⟩ (offOf r) = r := Fin.ext (by
    show r.val / 1024 * 1024 + r.val % 1024 = r.val
    omega)
  rw [hr] at h
  exact h

/-- The result buffer's final contents: the specification's total over the shared host stages of the arguments. -/
theorem result_eq (hpre : Cert.Pre_KernelIdeal m) (c : Dev nD) :
    Vt m c (Proc.devRef .tc main_v17)
      = fun _ => Cert.RowSpec.total fun r => Cert.RowSpec.rowLoss
          (Cert.ReferenceIdeal.Read.val_main_v8 (F := Ideal) (m ((c : Thread nD τ).loc main_arg0)))
          (Cert.ReferenceIdeal.Read.val_main_v17 (F := Ideal) (m ((c : Thread nD τ).loc main_arg1)))
          (Cert.ReferenceIdeal.Read.val_main_v20 (F := Ideal) (m ((c : Thread nD τ).loc main_arg1))) r := by
  rw [Cert.KernelIdeal.HostRead.Vt_mean]
  funext _
  refine Cert.RowSpec.total_congr fun r => ?_
  rw [losses_eq m hpre c r, Cert.KernelIdeal.HostRead.V_rowLabels, Cert.KernelIdeal.HostRead.V_colLabels, Cert.Finite.ref_feat_eq]
  exact congrArg (fun f => Cert.RowSpec.rowLoss f _ _ r) (Cert.KernelIdeal.HostRead.V_feat m c)

/-- THE RUN WITH ITS VALUE: under the precondition every weakly fair execution terminates without a fault, the result
    buffer ends at the specification's total and the arguments end unchanged. -/
theorem run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v17)
        = (fun _ => Cert.RowSpec.total fun r => Cert.RowSpec.rowLoss
          (Cert.ReferenceIdeal.Read.val_main_v8 (F := Ideal) (m ((c : Thread nD τ).loc main_arg0)))
          (Cert.ReferenceIdeal.Read.val_main_v17 (F := Ideal) (m ((c : Thread nD τ).loc main_arg1)))
          (Cert.ReferenceIdeal.Read.val_main_v20 (F := Ideal) (m ((c : Thread nD τ).loc main_arg1))) r)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m hpre c), (h c).2⟩) (run_result m ρ)

end Cert.KernelIdeal.Value

end
-- ==== Proof.lean ====
/-
  A pixel-contrast loss over 8192 unit rows. Both programs first scale each of the 8192 rows of the input (64 classes of
  128 views, 128 features) to length one — the row divided by the larger of its Euclidean length and a small positive
  constant — and lay the 64 labels out twice: row r carries the label of class r / 128, column c the label of class
  c mod 64. With S = the matrix of the rows' dot products, M_r = max_c S(r, c), and w(r, c) = 1 where the two labels
  agree and 0 elsewhere, the loss of row r is

      -log( P_r / (P_r + N_r + e) + e ),   P_r = sum_c exp(S(r, c) - M_r) w(r, c),   N_r = sum_c exp(S(r, c) - M_r) (1 - w(r, c)),

  and the result is the mean of the 8192 losses. The reference forms S whole and takes the maximum and the two sums row
  by row. The kernel never forms S: it walks an 8 x 8 grid of 1024 x 1024 tiles and keeps, for the 1024 rows of a row
  block, a running maximum m and two running sums l taken relative to it; a tile with row maxima b turns them into

      m' = max(m, b),    l' = l exp(m - m') + sum_q exp(S(p, q) - m') w(p, q),

  starting from m = -inf, l = 0 at the first tile of the row block and emitting the losses at the last. Over the
  extended reals the two agree because exp(a - b) exp(b - c) = exp(a - c) for REAL a, b, c, because a real factor
  distributes over a finite sum of reals, and because exp(-inf) = 0 and 0 * 0 = 0 make the first tile start the sums
  afresh: after the last tile m is the row's maximum and the two l are P_r and N_r. The scores are real because the
  precondition makes every input entry real, hence every row length a nonnegative real, every divisor a positive real
  and every scaled entry a real. Sums over the 8192 columns are regrouped as eight sums over 1024, the maximum
  likewise; the final mean sums the same 8192 losses on both sides and divides by the same constant.

  The kernel reads the scaled matrix through TWO windows, a row block and a column block of one array. In the frame
  argument the array's buffer is held at the two halves of the full share, one per window, through the region, and the
  host operations after the region run beside them. The three columns (m and the two l) are carried between grid
  points in the region's invariant at their accumulated contents, by recursion on the point. Nothing in that argument depends on what a float is, so it holds of
  the word-level program as it does over the extended reals. The idealization rewrote no operation, so the preservation
  claim is trivial.
-/
import proofs.«125412_j36936718745849_1_alg».proof.Defs
import proofs.«125412_j36936718745849_1_alg».proof.Proof.Gen.Kernel
import proofs.«125412_j36936718745849_1_alg».proof.Proof.Gen.Kernel.Skeleton
import proofs.«125412_j36936718745849_1_alg».proof.Proof.Gen.Kernel.Launch
import proofs.«125412_j36936718745849_1_alg».proof.Proof.Gen.Kernel.Points
import proofs.«125412_j36936718745849_1_alg».proof.Proof.Gen.KernelIdeal
import proofs.«125412_j36936718745849_1_alg».proof.Proof.Gen.KernelIdeal.Skeleton
import proofs.«125412_j36936718745849_1_alg».proof.Proof.Gen.KernelIdeal.Launch
import proofs.«125412_j36936718745849_1_alg».proof.Proof.Gen.KernelIdeal.Points
import proofs.«125412_j36936718745849_1_alg».proof.Proof.Gen.ReferenceIdeal
import proofs.«125412_j36936718745849_1_alg».proof.Proof.Gen.Pre_finite_inputs
import proofs.«125412_j36936718745849_1_alg».proof.Proof.Gen.ReferenceIdeal.Run
import proofs.«125412_j36936718745849_1_alg».proof.Proof.Gen.ReferenceIdeal.Read
import proofs.«125412_j36936718745849_1_alg».proof.Proof.KBFrame
import proofs.«125412_j36936718745849_1_alg».proof.Proof.KIValue
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Stream.frame m ρ

/-- So does the kernel program read over the extended reals. -/
theorem frame_ki : Cert.frame_KernelIdeal := fun m ρ _ => Cert.KernelIdeal.Stream.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories agreeing on the arguments, the kernel program's result and the reference's
    are both the mean of the rows' losses computed from the same scaled matrix and the same two label vectors. -/
theorem algebraic : Cert.algebraic_KernelIdeal_ReferenceIdeal := by
  intro m ρ m' ρ' hpre hagree
  refine ⟨_, Cert.KernelIdeal.Value.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.RefSide.ref_total, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
